-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩
abbrev S1024x8x128 : Shape := ⟨3, ![1024, 8, 128]⟩
abbrev S1024x8 : Shape := ⟨2, ![1024, 8]⟩
abbrev S1024x8x1 : Shape := ⟨3, ![1024, 8, 1]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S2048x1024 : Shape := ⟨2, ![2048, 1024]⟩

abbrev nBuf : Space → Nat
  | .hbm => 20
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S1x4096, .f32⟩
  | .hbm, ⟨15, _⟩ => ⟨S4096x4096, .bf16⟩
  | .hbm, ⟨16, _⟩ => ⟨S8192x4096, .f32⟩
  | .hbm, ⟨17, _⟩ => ⟨S8192x4096, .bf16⟩
  | .hbm, ⟨18, _⟩ => ⟨S8192x4096, .f32⟩
  | .hbm, ⟨19, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S256x4096, .bf16⟩
  | .local _ .vmem, ⟨10, _⟩ => ⟨S256x4096, .bf16⟩
  | .local _ .vmem, ⟨11, _⟩ => ⟨S2048x1024, .bf16⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S2048x1024, .f32⟩
  | .local _ .vmem, ⟨18, _⟩ => ⟨S2048x1024, .f32⟩
  | .local _ .vmem, ⟨19, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bcast_S_S4096 : S_.BroadcastsInDim S4096 (![] : Fin 0 → Fin S4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x8x128 : S1024x1024.ShapeCasts S1024x8x128
  reduces_S1024x8x128_S1024x8 : S1024x8x128.Reduces [2] S1024x8
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  packedbf16_S256x4096_S256x4096_0_0 : (Rect.unit (s := S256x4096) ![0, 0] S256x4096.size inb_S256x4096_S256x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x1024_S1024x1024 : S1024x1024.ShapeCasts S1024x1024
  broadcasts_S1x1024_S2048x1024 : S1x1024.Broadcasts S2048x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .bf16 = 32 ∨ (Rect.block (s := S8192x4096) S256x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x4096.size a
  hwx2_3 : ∀ i : grid2.Coords, EltTy.bits .f32 = 32 ∨ (Rect.block (s := S8192x4096) S2048x1024.size (cc2_transform_3 i) (hinb2_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩
abbrev S1x4096 : Shape := ⟨2, ![1, 4096]⟩
abbrev S8192x4096 : Shape := ⟨2, ![8192, 4096]⟩
abbrev S8192 : Shape := ⟨1, ![8192]⟩
abbrev S8192x1 : Shape := ⟨2, ![8192, 1]⟩
abbrev S131072x128 : Shape := ⟨2, ![131072, 128]⟩
abbrev S131072 : Shape := ⟨1, ![131072]⟩
abbrev S131072x1 : Shape := ⟨2, ![131072, 1]⟩

abbrev nBuf : Space → Nat
  | .hbm => 103
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S4x2048x4096, .f32⟩
  | .hbm, ⟨51, _⟩ => ⟨S4x2048x4096, .f32⟩
  | .hbm, ⟨52, _⟩ => ⟨S4x2048x4096, .f32⟩
  | .hbm, ⟨53, _⟩ => ⟨S131072x128, .f32⟩
  | .hbm, ⟨54, _⟩ => ⟨S_, .f32⟩
  | .hbm, ⟨55, _⟩ => ⟨S131072, .f32⟩
  | .hbm, ⟨56, _⟩ => ⟨S131072x1, .f32⟩
  | .hbm, ⟨57, _⟩ => ⟨S_, .f32⟩
  | .hbm, ⟨58, _⟩ => ⟨S131072, .f32⟩
  | .hbm, ⟨59, _⟩ => ⟨S131072x1, .f32⟩
  | .hbm, ⟨60, _⟩ => ⟨S131072x1, .f32⟩
  | .hbm, ⟨61, _⟩ => ⟨S_, .f32⟩
  | .hbm, ⟨62, _⟩ => ⟨S_, .f32⟩
  | .hbm, ⟨63, _⟩ => ⟨S131072x1, .f32⟩
  | .hbm, ⟨64, _⟩ => ⟨S131072x1, .f32⟩
  | .hbm, ⟨65, _⟩ => ⟨S_, .f32⟩
  | .hbm, ⟨66, _⟩ => ⟨S131072x1, .f32⟩
  | .hbm, ⟨67, _⟩ => ⟨S131072x1, .f32⟩
  | .hbm, ⟨68, _⟩ => ⟨S131072x1, .f32⟩
  | .hbm, ⟨69, _⟩ => ⟨S131072x1, .f32⟩
  | .hbm, ⟨70, _⟩ => ⟨S131072x1, .f32⟩
  | .hbm, ⟨71, _⟩ => ⟨S_, .i32⟩
  | .hbm, ⟨72, _⟩ => ⟨S_, .i32⟩
  | .hbm, ⟨73, _⟩ => ⟨S_, .f32⟩
  | .hbm, ⟨74, _⟩ => ⟨S131072x1, .f32⟩
  | .hbm, ⟨75, _⟩ => ⟨S131072x1, .f32⟩
  | .hbm, ⟨76, _⟩ => ⟨S_, .f32⟩
  | .hbm, ⟨77, _⟩ => ⟨S131072x1, .f32⟩
  | .hbm, ⟨78, _⟩ => ⟨S131072x1, .f32⟩
  | .hbm, ⟨79, _⟩ => ⟨S131072x128, .f32⟩
  | .hbm, ⟨80, _⟩ => ⟨S131072x128, .f32⟩
  | .hbm, ⟨81, _⟩ => ⟨S131072x128, .f32⟩
  | .hbm, ⟨82, _⟩ => ⟨S131072x128, .f32⟩
  | .hbm, ⟨83, _⟩ => ⟨S131072x128, .f32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S131072x128, .f32⟩
  | .hbm, ⟨88, _⟩ => ⟨S131072x128, .f32⟩
  | .hbm, ⟨89, _⟩ => ⟨S_, .f32⟩
  | .hbm, ⟨90, _⟩ => ⟨S131072x128, .f32⟩
  | .hbm, ⟨91, _⟩ => ⟨S131072x128, .f32⟩
  | .hbm, ⟨92, _⟩ => ⟨S131072x128, .f32⟩
  | .hbm, ⟨93, _⟩ => ⟨S131072x128, .f32⟩
  | .hbm, ⟨94, _⟩ => ⟨S131072x128, .f32⟩
  | .hbm, ⟨95, _⟩ => ⟨S131072x128, .f32⟩
  | .hbm, ⟨96, _⟩ => ⟨S4096x4096, .f32⟩
  | .hbm, ⟨97, _⟩ => ⟨S4096x4096, .f32⟩
  | .hbm, ⟨98, _⟩ => ⟨S4096x4096, .f32⟩
  | .hbm, ⟨99, _⟩ => ⟨S4x2048x4096, .f32⟩
  | .hbm, ⟨100, _⟩ => ⟨S1x1x4096, .f32⟩
  | .hbm, ⟨101, _⟩ => ⟨S4x2048x4096, .f32⟩
  | .hbm, ⟨102, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_c_5 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_cst_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_9 : Ref sig .tc := ⟨.hbm, 61, rfl⟩
abbrev main_call4_v0 : Ref sig .tc := ⟨.hbm, 62, rfl⟩
abbrev main_call4_v1 : Ref sig .tc := ⟨.hbm, 63, rfl⟩
abbrev main_v34 : Ref sig .tc := ⟨.hbm, 64, rfl⟩
abbrev main_cst_10 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_11 : Ref sig .tc := ⟨.hbm, 71, rfl⟩
abbrev main_c_12 : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_13 : Ref sig .tc := ⟨.hbm, 84, rfl⟩
abbrev main_c_14 : Ref sig .tc := ⟨.hbm, 85, rfl⟩
abbrev main_call8_v0 : Ref sig .tc := ⟨.hbm, 86, rfl⟩
abbrev main_call8_v1 : Ref sig .tc := ⟨.hbm, 87, rfl⟩
abbrev main_call8_v2 : Ref sig .tc := ⟨.hbm, 88, rfl⟩
abbrev main_call8_v3 : Ref sig .tc := ⟨.hbm, 89, rfl⟩
abbrev main_call8_v4 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4x2048x4096_S8192x4096 : S4x2048x4096.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  shapeCasts_S8192x4096_S4x2048x4096 : S8192x4096.ShapeCasts S4x2048x4096
  shapeCasts_S4096x4096_S131072x128 : S4096x4096.ShapeCasts S131072x128
  reducesTo_S131072x128_S131072_d1 : S131072x128.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S4096x4096 : S131072x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.FrameR0.lean ====
/-
  Region 0 (the weight-quantisation call, a 4x4 grid of 1024x1024 blocks): what each window's staging buffer holds
  around the body, the body's triple, the pipeline's proof data and its body obligation, for any float instance and
  any contents V of the core's buffers at the region's entry. The body loads a weight block and the matching piece
  of the scale row whole, and stores one whole block of quantised weights.
-/
import proofs.«170529_j14078902796908_2_alg».proof.Proof.Gen.KernelIdeal.Launch
import proofs.«170529_j14078902796908_2_alg».proof.Proof.Gen.KernelIdeal.Skeleton
import proofs.«170529_j14078902796908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from the point before (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is loaded and stored whole -/

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0

/-- What the body leaves in the output window's staging buffer, from the two input blocks: its one store, of the
    body's arithmetic on the whole loads. -/
def out0_2 (x0 : Vec F S1024x1024 .f32) (x1 : Vec F S1x1024 .f32) : Vec F S1024x1024 .bf16 :=
  View.canon [⟨r0_0, k0_pay1 (View.ld x0 r0_0) (View.ld x1 r0_1)⟩]

/-- The one store covers the buffer. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 4000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (a0 : Memref sig .tc .vmem S1024x1024 .f32) (ha0 : a0.IsWhole) (a1 : Memref sig .tc .vmem S1x1024 .f32) (ha1 : a1.IsWhole)
    (a2 : Memref sig .tc .vmem S1024x1024 .bf16) (ha2 : a2.IsWhole)
    (x0 : Vec F S1024x1024 .f32) (x1 : Vec F S1x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__weight_quant_kernel i a0 ha0 a1 ha1 a2 ha2) K := by
  simp only [cc0__weight_quant_kernel_eq_skeleton]; unfold cc0__weight_quant_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t` each
    input's buffer at its block and the output's at `out0_2` of the two input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameR1.lean ====
/-
  Region 1 (the activation-quantisation call, 32 blocks of 256 rows): what each window's staging buffer holds around
  the body, the body's triple, the pipeline's proof data and its body obligation, for any float instance and any
  contents V of the core's buffers at the region's entry. The body loads 256 activation rows and the whole scale row,
  and stores the 256 quantised rows.
-/
import proofs.«170529_j14078902796908_2_alg».proof.Proof.Gen.KernelIdeal.Launch
import proofs.«170529_j14078902796908_2_alg».proof.Proof.Gen.KernelIdeal.Skeleton
import proofs.«170529_j14078902796908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded and stored whole -/

abbrev r1_0 : Rect S256x4096 := Rect.unit (s := S256x4096) ![0, 0] S256x4096.size inb_S256x4096_S256x4096_0_0
abbrev r1_1 : Rect S1x4096 := Rect.unit (s := S1x4096) ![0, 0] S1x4096.size inb_S1x4096_S1x4096_0_0

/-- What the body leaves in the output window's staging buffer, from the two input blocks: its one store, of the
    body's arithmetic on the whole loads. -/
def out1_2 (x0 : Vec F S256x4096 .f32) (x1 : Vec F S1x4096 .f32) : Vec F S256x4096 .bf16 :=
  View.canon [⟨r1_0, k1_pay1 (View.ld x0 r1_0) (View.ld x1 r1_1)⟩]

/-- The one store covers the buffer. -/
theorem cover1_2 (p0 : Vec F S256x4096 .bf16) (y : S256x4096.Idx) :
    ∃ pc ∈ ([⟨r1_0, p0⟩] : List (View.Piece (Elt F) S256x4096 .bf16)), y ∈ pc.1.set :=
  View.cover_of_tiled [⟨r1_0, p0⟩] S256x4096.size (by rfl) y

/-! ## The body's triple -/

set_option maxHeartbeats 4000000 in
/-- On whole staging memrefs, the inputs' at contents `x0`, `x1` and the output's at anything, the body runs to the
    continuation holding the inputs' as they were and the output's at `out1_2 x0 x1`. -/
theorem sound_kernel1 (c : Dev nD) (E : Set ℕ) (i : grid1.Coords) (a0 : Memref sig .tc .vmem S256x4096 .f32) (ha0 : a0.IsWhole) (a1 : Memref sig .tc .vmem S1x4096 .f32) (ha1 : a1.IsWhole)
    (a2 : Memref sig .tc .vmem S256x4096 .bf16) (ha2 : a2.IsWhole)
    (x0 : Vec F S256x4096 .f32) (x1 : Vec F S1x4096 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out1_2 x0 x1)) -∗ K ⟨⟩))
      ⊢ wp frame (wpE (defs₀ (F := F)) Variants.none c none) E (cc1__act_quant_kernel i a0 ha0 a1 ha1 a2 ha2) K := by
  simp only [cc1__act_quant_kernel_eq_skeleton]; unfold cc1__act_quant_kernel_skel

  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each
    input's buffer at its block and the output's at `out1_2` of the two input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.R2Runs.lean ====
/- The third call of the program (the matmul with bias, pipeline 2, a 4x4x4 grid) at the buffer contents `V`
   the region is entered with: the windows' blocks, the closed forms of the body's two conditions over the
   grid, where the output window is idle, the memrefs the body is called with, and the region invariant
   with the accumulator singled out. Shared by the three runs of the body (one per control case). -/
import proofs.«170529_j14078902796908_2_alg».proof.Proof.Gen.KernelIdeal.Launch
import proofs.«170529_j14078902796908_2_alg».proof.Proof.Gen.KernelIdeal.Skeleton
import proofs.«170529_j14078902796908_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the activations' block) holds its block in its current staging buffer at every point, for any
    proof data whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights' block): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row), fetched only where the block index moves (every fourth point): at the other
    points the index has not moved and the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's two conditions -/

/-- The first condition of the body (the accumulator is zeroed): the innermost coordinate is 0. -/
abbrev cond2_0 (i : grid2.Coords) : Prop := (Scalar.cmpi .ne (Scalar.extui (Scalar.cmpi .eq (BitVec.ofNat 32 (i 2).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second condition (accumulator plus bias is stored into the output): the innermost coordinate is 3. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the first condition holds and the second does not, the output window is idle and not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- Where neither holds, likewise. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- Where the second holds the output window is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated. -/
abbrev VO2_3 : View sig .tc .vmem S2048x1024 .f32 := (Memref.whole cc2_stg3_0 : Memref sig .tc .vmem S2048x1024 .f32).view
/-- Each window's current staging memref at point `t`, as the pipeline passes it, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried between points. -/
abbrev scM2 : Memref sig .tc .vmem S2048x1024 .f32 := Memref.whole cc2_scratch0
/-- The same as a view: what it holds is stated through it. -/
abbrev VS2 : View sig .tc .vmem S2048x1024 .f32 := scM2.view

/-! ## The region invariant with the accumulator singled out -/

/-- The core's eleven scoped buffers that belong to the two earlier calls, each whole at some contents: they ride
    along untouched. -/
def R11 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Eleven conjuncts before a twelfth, regrouped as the eleven together and then the twelfth. -/
theorem sep_regroup12 {M : Type} [URA M] (P0 P1 P2 P3 P4 P5 P6 P7 P8 P9 P10 S G : sProp M) :
    (iprop((P0 ∗ P1 ∗ P2 ∗ P3 ∗ P4 ∗ P5 ∗ P6 ∗ P7 ∗ P8 ∗ P9 ∗ P10 ∗ S) ∗ G) : sProp M) = iprop(((P0 ∗ P1 ∗ P2 ∗ P3 ∗ P4 ∗ P5 ∗ P6 ∗ P7 ∗ P8 ∗ P9 ∗ P10) ∗ S) ∗ G) := by
  have h₁ : (iprop((P0 ∗ P1 ∗ P2 ∗ P3 ∗ P4 ∗ P5 ∗ P6 ∗ P7 ∗ P8 ∗ P9 ∗ P10 ∗ S) ∗ G) : sProp M) ⊢ iprop(((P0 ∗ P1 ∗ P2 ∗ P3 ∗ P4 ∗ P5 ∗ P6 ∗ P7 ∗ P8 ∗ P9 ∗ P10) ∗ S) ∗ G) := by
    iintro ⟨⟨H0, H1, H2, H3, H4, H5, H6, H7, H8, H9, H10, HS⟩, Hg⟩
    isplitr [Hg]
    · isplitr [HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · iexact HS
    · iexact Hg
  have h₂ : (iprop(((P0 ∗ P1 ∗ P2 ∗ P3 ∗ P4 ∗ P5 ∗ P6 ∗ P7 ∗ P8 ∗ P9 ∗ P10) ∗ S) ∗ G) : sProp M) ⊢ iprop((P0 ∗ P1 ∗ P2 ∗ P3 ∗ P4 ∗ P5 ∗ P6 ∗ P7 ∗ P8 ∗ P9 ∗ P10 ∗ S) ∗ G) := by
    iintro ⟨⟨⟨H0, H1, H2, H3, H4, H5, H6, H7, H8, H9, H10⟩, HS⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    · iexact Hg
  exact BI.equiv_iff.mp ⟨h₁, h₂⟩

/-- What the launch hands the region: the eleven other buffers, the accumulator owned at some contents, and the
    generator register at some state. -/
theorem PhiA2_eq (c : Dev nD) :
    (Pipeline.ΦA spec2 c : sProp 𝕄)
      = iprop(iprop(R11 (F := F) c ∗ (∃ d, owns (c : Thread nD τ) scM2 fullShare d)) ∗ (∃ r, prngReg c r)) := by
  unfold Pipeline.ΦA; rw [scopedRest2_eq]; simp only [scM2, owns_whole]
  unfold R11
  exact sep_regroup12 ..

end Cert.KernelIdeal.Fr

end
-- ==== Proof.R2RunA.lean ====
/- The whole body of the third call, run in the control case where the first condition holds and the second does not (the innermost coordinate is 0). -/
import proofs.«170529_j14078902796908_2_alg».proof.Proof.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the first condition holds and the second does not (the innermost coordinate is 0): the accumulator, at any contents, is
    zeroed and the product of the two input blocks added into it; nothing is stored into the output's buffer, which is handed back as found.
    The pieces each buffer ends with (last store first) are the witness; the inputs' buffers are handed back as they were. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.R2RunB.lean ====
/- The whole body of the third call, run in the control case where neither condition holds (the innermost coordinate is 1 or 2). -/
import proofs.«170529_j14078902796908_2_alg».proof.Proof.R2RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where neither condition holds (the innermost coordinate is 1 or 2): the product of the two input blocks is added into the accumulator, which
    holds what the point before left; nothing is stored into the output's buffer, which is handed back as found.
    The pieces each buffer ends with (last store first) are the witness; the inputs' buffers are handed back as they were. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.R2RunC.lean ====
/- The whole body of the third call, run in the control case where the second condition holds and the first does not (the innermost coordinate is 3). -/
import proofs.«170529_j14078902796908_2_alg».proof.Proof.R2RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the second condition holds and the first does not (the innermost coordinate is 3): the product of the two input blocks is added into the
    accumulator, which holds what the point before left, and accumulator plus bias row is stored into the output's buffer.
    The pieces each buffer ends with (last store first) are the witness; the inputs' buffers are handed back as they were. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.R2Frame.lean ====
/- The third call of the program at the entry contents `V`: what the output's staging buffer and the accumulator hold
   after each point (per control case, then point by point), the region invariant, the proof data of the pipeline,
   and the body obligation at every point. -/
import proofs.«170529_j14078902796908_2_alg».proof.Proof.R2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The case stores nothing into the output's buffer (the window is idle at its points and not written back
    there): no pieces, a placeholder that nothing consults. -/
def out2_A_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .f32 :=
  VO2_3.read (Elt F) (VO2_3.writes (Elt F) VO2_3.junk (kernelRun2_A c i arg3 harg3 arg4 harg4 arg5 harg5 arg6 harg6 arg7 harg7 hc0 hc1 x0 x1 x2).1)

/-- The case's stores into the accumulator tile it, so its pieces cover it. -/
theorem scover2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) (y : S2048x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S2048x1024.size (by sl_kernel_rfl) y

/-- What the case leaves in the accumulator: its pieces read back. -/
def sout2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .f32 :=
  VS2.read (Elt F) (VS2.writes (Elt F) VS2.junk (kernelRun2_A c i arg3 harg3 arg4 harg4 arg5 harg5 arg6 harg6 arg7 harg7 hc0 hc1 x0 x1 x2).2.1)

/-- The case stores nothing into the output's buffer (the window is idle at its points and not written back
    there): no pieces, a placeholder that nothing consults. -/
def out2_B_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) : Vec F S2048x1024 .f32 :=
  VO2_3.read (Elt F) (VO2_3.writes (Elt F) VO2_3.junk (kernelRun2_B c i arg3 harg3 arg4 harg4 arg5 harg5 arg6 harg6 arg7 harg7 hc0 hc1 x0 x1 x2 xs).1)

/-- The case's stores into the accumulator tile it, so its pieces cover it. -/
theorem scover2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) (y : S2048x1024.Idx) :
    ∃ pc ∈ (kernelRun2_B c i arg3 harg3 arg4 harg4 arg5 harg5 arg6 harg6 arg7 harg7 hc0 hc1 x0 x1 x2 xs).2.1, y ∈ pc.1.set :=
  View.cover_of_tiledL (kernelRun2_B c i arg3 harg3 arg4 harg4 arg5 harg5 arg6 harg6 arg7 harg7 hc0 hc1 x0 x1 x2 xs).2.1 S2048x1024.size (by sl_kernel_rfl) y

/-- What the case leaves in the accumulator: its pieces read back. -/
def sout2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_B c i arg3 harg3 arg4 harg4 arg5 harg5 arg6 harg6 arg7 harg7 hc0 hc1 x0 x1 x2 xs).2.1)

/-- In this case the one store into the output's buffer tiles it, so its pieces cover it. -/
theorem cover2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S2048x1024.size (by sl_kernel_rfl) y

/-- What the case leaves in the output's staging buffer: its pieces read back. -/
def out2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) : Vec F S2048x1024 .f32 :=
  VO2_3.read (Elt F) (VO2_3.writes (Elt F) VO2_3.junk (kernelRun2_C c i arg3 harg3 arg4 harg4 arg5 harg5 arg6 harg6 arg7 harg7 hc0 hc1 x0 x1 x2 xs).1)

/-- The case's stores into the accumulator tile it, so its pieces cover it. -/
theorem scover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S2048x1024.size (by sl_kernel_rfl) y

/-- What the case leaves in the accumulator: its pieces read back. -/
def sout2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_C c i arg3 harg3 arg4 harg4 arg5 harg5 arg6 harg6 arg7 harg7 hc0 hc1 x0 x1 x2 xs).2.1)

section Region2
-- the TensorCore's buffer contents when the region is entered
variable (V : (c : Dev nD) → (b : Ref sig .tc) → Buf (Elt F) ((c : Thread nD τ).loc b))

/-! ## What the output's buffer and the accumulator hold after each point -/

/-- The accumulation. After the body at position `n`: (the output window's current staging buffer, the accumulator) — the
    case the closed forms select at `n`, run at the point's memrefs and input blocks, the accumulator before it at what
    position `n - 1` left. The two conditions never hold together. -/
def outsAt2 (c : Dev nD) : (n : ℕ) → n < cfg2.N → Vec F S2048x1024 .f32 × Vec F S2048x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point where the first condition holds: the accumulator is started afresh. -/
theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point where neither condition holds: over what the point before left. -/
theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point where the second condition holds: over what the point before left. -/
theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point what the launch hands over (every scoped buffer at anything); afterwards
    the eleven other buffers at anything, the accumulator at what the point before left in it, and the generator register
    at some state. -/
def PhiS2 (c : Dev nD) : (n : ℕ) → n ≤ cfg2.N → sProp 𝕄
  | 0, _ => Pipeline.ΦA spec2 c
  | n + 1, hn => iprop(iprop(R11 (F := F) c ∗ owns (c : Thread nD τ) scM2 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(R11 (F := F) c ∗ owns (c : Thread nD τ) scM2 fullShare ((outsAt2 V c n hn).2)) ∗ (∃ r, prngReg c r)) := rfl

theorem PhiS2_pos (c : Dev nD) (n : ℕ) (h : n ≤ cfg2.N) (hz : n ≠ 0) :
    PhiS2 V c n h = iprop(iprop(R11 (F := F) c ∗ owns (c : Thread nD τ) scM2 fullShare ((outsAt2 V c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the closed forms say which case the point is in; the
    invariant hands the body the accumulator at what the point before left (at anything at the first point) together with
    the eleven other buffers and the generator register, and takes the accumulator back at this point's contents; the core
    owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.KernelIdeal.Fr

end
-- ==== Proof.FrameRun.lean ====
/-
  The whole run of @main: three host stretches, the weight-quantisation region, a reshape, the activation-quantisation
  region, the matmul region and a last reshape, as the segments of one launch. Between two segments every unscoped
  buffer of the core is held whole at contents named here — a fold from the launch memory: a host stretch applies its
  operations, a region leaves its arrays at what its pipeline's write-backs make of them and every other buffer as it
  was — beside the generator register at some state and the core owing nothing. The run's post reads every unscoped
  buffer at the last of these contents; the frame claim and the result's value are read off it.
-/
import proofs.«170529_j14078902796908_2_alg».proof.Proof.Gen.KernelIdeal.Launch
import proofs.«170529_j14078902796908_2_alg».proof.Proof.Gen.KernelIdeal.Skeleton
import proofs.«170529_j14078902796908_2_alg».proof.Proof.Gen.KernelIdeal.Points
import proofs.«170529_j14078902796908_2_alg».proof.Proof.FrameR0
import proofs.«170529_j14078902796908_2_alg».proof.Proof.FrameR1
import proofs.«170529_j14078902796908_2_alg».proof.Proof.R2Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (the exponential and the two clip bounds). -/
abbrev W1 : Dev nD → Valuation τ sig (Elt F) := fun c => StableHlo.after hostOps0 (W0 m ρ c)
/-- After the clip. -/
abbrev W2 : Dev nD → Valuation τ sig (Elt F) := fun c => StableHlo.after hostOps0_1 (W1 m ρ c)
/-- After the two reshapes to rows: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (an input as entered, an output's write-backs folded),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the activations' reshape: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (an input as entered, an output's write-backs folded),
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (an input as entered, an output's write-backs folded),
    every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the result's reshape: the end. -/
abbrev W8 : Dev nD → Valuation τ sig (Elt F) := fun c => StableHlo.after hostOps3 (W7 m ρ c)

/-! ## No host operation allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at `W3`, left with them at `W4`. Its arrays
    are split out of the unscoped buffers at entry and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its arrays
    are split out of the unscoped buffers at entry and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. Its arrays
    are split out of the unscoped buffers at entry and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : Pipeline.ΦA spec2 c ⊢ (pdats m ρ 2 c).Φ 0 := hin2 (V6 m ρ) c
    unfold Pipeline.ΦA at h2
    iintro ⟨Hp, -, Hr⟩
    iapply h2
    isplitl [Hr]; · iexact Hr
    iexact Hp
  hout c := by
    rw [Pipeline.ownSems0_none]
    have h2 : (pdats m ρ 2 c).Φ (Fin.last _) ⊢ Pipeline.ΦA spec2 c := hout2 (V6 m ρ) c
    unfold Pipeline.ΦA at h2
    iintro Hq
    ihave H := h2 $$ Hq
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state each unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W8 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Fr

end
-- ==== Proof.FrameArgs.lean ====
/-
  The frame claim read off the run: each argument array's buffer holds, at the last segment boundary, what it held at
  launch — no host operation writes an argument, and a region either does not touch it or reads it through an input
  window, which the pipeline leaves as it found it.
-/
import proofs.«170529_j14078902796908_2_alg».proof.Proof.Gen.KernelIdeal.Launch
import proofs.«170529_j14078902796908_2_alg».proof.Proof.Gen.KernelIdeal.Skeleton
import proofs.«170529_j14078902796908_2_alg».proof.Proof.Gen.KernelIdeal.Points
import proofs.«170529_j14078902796908_2_alg».proof.Proof.FrameRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` reaches the end as launched: no host operation writes it and no region changes it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it and no region changes it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := (W4_arr m ρ c 0).trans (((dat0 (V3 m ρ) c).arrAt_in 0 rfl _).trans (A_eq0 (V3 m ρ) c 0))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it and no region changes it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it and no region changes it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME, at any float instance: every weakly fair execution of @main terminates, nothing faulting, with the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c)⟩) (run_all m ρ)

end Cert.KernelIdeal.Fr

end
-- ==== Proof.BFrameR0.lean ====
/-
  Region 0 (the weight-quantisation call, a 4x4 grid of 1024x1024 blocks): what each window's staging buffer holds
  around the body, the body's triple, the pipeline's proof data and its body obligation, for any float instance and
  any contents V of the core's buffers at the region's entry. The body loads a weight block and the matching piece
  of the scale row whole, and stores one whole block of quantised weights.
-/
import proofs.«170529_j14078902796908_2_alg».proof.Proof.Gen.Kernel.Launch
import proofs.«170529_j14078902796908_2_alg».proof.Proof.Gen.Kernel.Skeleton
import proofs.«170529_j14078902796908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from the point before (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is loaded and stored whole -/

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0

/-- What the body leaves in the output window's staging buffer, from the two input blocks: its one store, of the
    body's arithmetic on the whole loads. -/
def out0_2 (x0 : Vec F S1024x1024 .f32) (x1 : Vec F S1x1024 .f32) : Vec F S1024x1024 .bf16 :=
  View.canon [⟨r0_0, k0_pay1 (View.ld x0 r0_0) (View.ld x1 r0_1)⟩]

/-- The one store covers the buffer. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 4000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (a0 : Memref sig .tc .vmem S1024x1024 .f32) (ha0 : a0.IsWhole) (a1 : Memref sig .tc .vmem S1x1024 .f32) (ha1 : a1.IsWhole)
    (a2 : Memref sig .tc .vmem S1024x1024 .bf16) (ha2 : a2.IsWhole)
    (x0 : Vec F S1024x1024 .f32) (x1 : Vec F S1x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__weight_quant_kernel i a0 ha0 a1 ha1 a2 ha2) K := by
  simp only [cc0__weight_quant_kernel_eq_skeleton]; unfold cc0__weight_quant_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t` each
    input's buffer at its block and the output's at `out0_2` of the two input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BFrameR1.lean ====
/-
  Region 1 (the activation-quantisation call, 32 blocks of 256 rows): what each window's staging buffer holds around
  the body, the body's triple, the pipeline's proof data and its body obligation, for any float instance and any
  contents V of the core's buffers at the region's entry. The body loads 256 activation rows and the whole scale row,
  and stores the 256 quantised rows.
-/
import proofs.«170529_j14078902796908_2_alg».proof.Proof.Gen.Kernel.Launch
import proofs.«170529_j14078902796908_2_alg».proof.Proof.Gen.Kernel.Skeleton
import proofs.«170529_j14078902796908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded and stored whole -/

abbrev r1_0 : Rect S256x4096 := Rect.unit (s := S256x4096) ![0, 0] S256x4096.size inb_S256x4096_S256x4096_0_0
abbrev r1_1 : Rect S1x4096 := Rect.unit (s := S1x4096) ![0, 0] S1x4096.size inb_S1x4096_S1x4096_0_0

/-- What the body leaves in the output window's staging buffer, from the two input blocks: its one store, of the
    body's arithmetic on the whole loads. -/
def out1_2 (x0 : Vec F S256x4096 .f32) (x1 : Vec F S1x4096 .f32) : Vec F S256x4096 .bf16 :=
  View.canon [⟨r1_0, k1_pay1 (View.ld x0 r1_0) (View.ld x1 r1_1)⟩]

/-- The one store covers the buffer. -/
theorem cover1_2 (p0 : Vec F S256x4096 .bf16) (y : S256x4096.Idx) :
    ∃ pc ∈ ([⟨r1_0, p0⟩] : List (View.Piece (Elt F) S256x4096 .bf16)), y ∈ pc.1.set :=
  View.cover_of_tiled [⟨r1_0, p0⟩] S256x4096.size (by rfl) y

/-! ## The body's triple -/

set_option maxHeartbeats 4000000 in
/-- On whole staging memrefs, the inputs' at contents `x0`, `x1` and the output's at anything, the body runs to the
    continuation holding the inputs' as they were and the output's at `out1_2 x0 x1`. -/
theorem sound_kernel1 (c : Dev nD) (E : Set ℕ) (i : grid1.Coords) (a0 : Memref sig .tc .vmem S256x4096 .f32) (ha0 : a0.IsWhole) (a1 : Memref sig .tc .vmem S1x4096 .f32) (ha1 : a1.IsWhole)
    (a2 : Memref sig .tc .vmem S256x4096 .bf16) (ha2 : a2.IsWhole)
    (x0 : Vec F S256x4096 .f32) (x1 : Vec F S1x4096 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out1_2 x0 x1)) -∗ K ⟨⟩))
      ⊢ wp frame (wpE (defs₀ (F := F)) Variants.none c none) E (cc1__act_quant_kernel i a0 ha0 a1 ha1 a2 ha2) K := by
  simp only [cc1__act_quant_kernel_eq_skeleton]; unfold cc1__act_quant_kernel_skel

  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each
    input's buffer at its block and the output's at `out1_2` of the two input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BR2Runs.lean ====
/- The third call of the program (the matmul with bias, pipeline 2, a 4x4x4 grid) at the buffer contents `V`
   the region is entered with: the windows' blocks, the closed forms of the body's two conditions over the
   grid, where the output window is idle, the memrefs the body is called with, and the region invariant
   with the accumulator singled out. Shared by the three runs of the body (one per control case). -/
import proofs.«170529_j14078902796908_2_alg».proof.Proof.Gen.Kernel.Launch
import proofs.«170529_j14078902796908_2_alg».proof.Proof.Gen.Kernel.Skeleton
import proofs.«170529_j14078902796908_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the activations' block) holds its block in its current staging buffer at every point, for any
    proof data whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights' block): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row), fetched only where the block index moves (every fourth point): at the other
    points the index has not moved and the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's two conditions -/

/-- The first condition of the body (the accumulator is zeroed): the innermost coordinate is 0. -/
abbrev cond2_0 (i : grid2.Coords) : Prop := (Scalar.cmpi .ne (Scalar.extui (Scalar.cmpi .eq (BitVec.ofNat 32 (i 2).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second condition (accumulator plus bias is stored into the output): the innermost coordinate is 3. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the first condition holds and the second does not, the output window is idle and not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- Where neither holds, likewise. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- Where the second holds the output window is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated. -/
abbrev VO2_3 : View sig .tc .vmem S2048x1024 .f32 := (Memref.whole cc2_stg3_0 : Memref sig .tc .vmem S2048x1024 .f32).view
/-- Each window's current staging memref at point `t`, as the pipeline passes it, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried between points. -/
abbrev scM2 : Memref sig .tc .vmem S2048x1024 .f32 := Memref.whole cc2_scratch0
/-- The same as a view: what it holds is stated through it. -/
abbrev VS2 : View sig .tc .vmem S2048x1024 .f32 := scM2.view

/-! ## The region invariant with the accumulator singled out -/

/-- The core's eleven scoped buffers that belong to the two earlier calls, each whole at some contents: they ride
    along untouched. -/
def R11 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Eleven conjuncts before a twelfth, regrouped as the eleven together and then the twelfth. -/
theorem sep_regroup12 {M : Type} [URA M] (P0 P1 P2 P3 P4 P5 P6 P7 P8 P9 P10 S G : sProp M) :
    (iprop((P0 ∗ P1 ∗ P2 ∗ P3 ∗ P4 ∗ P5 ∗ P6 ∗ P7 ∗ P8 ∗ P9 ∗ P10 ∗ S) ∗ G) : sProp M) = iprop(((P0 ∗ P1 ∗ P2 ∗ P3 ∗ P4 ∗ P5 ∗ P6 ∗ P7 ∗ P8 ∗ P9 ∗ P10) ∗ S) ∗ G) := by
  have h₁ : (iprop((P0 ∗ P1 ∗ P2 ∗ P3 ∗ P4 ∗ P5 ∗ P6 ∗ P7 ∗ P8 ∗ P9 ∗ P10 ∗ S) ∗ G) : sProp M) ⊢ iprop(((P0 ∗ P1 ∗ P2 ∗ P3 ∗ P4 ∗ P5 ∗ P6 ∗ P7 ∗ P8 ∗ P9 ∗ P10) ∗ S) ∗ G) := by
    iintro ⟨⟨H0, H1, H2, H3, H4, H5, H6, H7, H8, H9, H10, HS⟩, Hg⟩
    isplitr [Hg]
    · isplitr [HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · iexact HS
    · iexact Hg
  have h₂ : (iprop(((P0 ∗ P1 ∗ P2 ∗ P3 ∗ P4 ∗ P5 ∗ P6 ∗ P7 ∗ P8 ∗ P9 ∗ P10) ∗ S) ∗ G) : sProp M) ⊢ iprop((P0 ∗ P1 ∗ P2 ∗ P3 ∗ P4 ∗ P5 ∗ P6 ∗ P7 ∗ P8 ∗ P9 ∗ P10 ∗ S) ∗ G) := by
    iintro ⟨⟨⟨H0, H1, H2, H3, H4, H5, H6, H7, H8, H9, H10⟩, HS⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    · iexact Hg
  exact BI.equiv_iff.mp ⟨h₁, h₂⟩

/-- What the launch hands the region: the eleven other buffers, the accumulator owned at some contents, and the
    generator register at some state. -/
theorem PhiA2_eq (c : Dev nD) :
    (Pipeline.ΦA spec2 c : sProp 𝕄)
      = iprop(iprop(R11 (F := F) c ∗ (∃ d, owns (c : Thread nD τ) scM2 fullShare d)) ∗ (∃ r, prngReg c r)) := by
  unfold Pipeline.ΦA; rw [scopedRest2_eq]; simp only [scM2, owns_whole]
  unfold R11
  exact sep_regroup12 ..

end Cert.Kernel.Fr

end
-- ==== Proof.BR2RunA.lean ====
/- The whole body of the third call, run in the control case where the first condition holds and the second does not (the innermost coordinate is 0). -/
import proofs.«170529_j14078902796908_2_alg».proof.Proof.BR2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the first condition holds and the second does not (the innermost coordinate is 0): the accumulator, at any contents, is
    zeroed and the product of the two input blocks added into it; nothing is stored into the output's buffer, which is handed back as found.
    The pieces each buffer ends with (last store first) are the witness; the inputs' buffers are handed back as they were. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.BR2RunB.lean ====
/- The whole body of the third call, run in the control case where neither condition holds (the innermost coordinate is 1 or 2). -/
import proofs.«170529_j14078902796908_2_alg».proof.Proof.BR2RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where neither condition holds (the innermost coordinate is 1 or 2): the product of the two input blocks is added into the accumulator, which
    holds what the point before left; nothing is stored into the output's buffer, which is handed back as found.
    The pieces each buffer ends with (last store first) are the witness; the inputs' buffers are handed back as they were. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.BR2RunC.lean ====
/- The whole body of the third call, run in the control case where the second condition holds and the first does not (the innermost coordinate is 3). -/
import proofs.«170529_j14078902796908_2_alg».proof.Proof.BR2RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the second condition holds and the first does not (the innermost coordinate is 3): the product of the two input blocks is added into the
    accumulator, which holds what the point before left, and accumulator plus bias row is stored into the output's buffer.
    The pieces each buffer ends with (last store first) are the witness; the inputs' buffers are handed back as they were. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.BR2Frame.lean ====
/- The third call of the program at the entry contents `V`: what the output's staging buffer and the accumulator hold
   after each point (per control case, then point by point), the region invariant, the proof data of the pipeline,
   and the body obligation at every point. -/
import proofs.«170529_j14078902796908_2_alg».proof.Proof.BR2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The case stores nothing into the output's buffer (the window is idle at its points and not written back
    there): no pieces, a placeholder that nothing consults. -/
def out2_A_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .f32 :=
  VO2_3.read (Elt F) (VO2_3.writes (Elt F) VO2_3.junk (kernelRun2_A c i arg3 harg3 arg4 harg4 arg5 harg5 arg6 harg6 arg7 harg7 hc0 hc1 x0 x1 x2).1)

/-- The case's stores into the accumulator tile it, so its pieces cover it. -/
theorem scover2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) (y : S2048x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S2048x1024.size (by sl_kernel_rfl) y

/-- What the case leaves in the accumulator: its pieces read back. -/
def sout2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .f32 :=
  VS2.read (Elt F) (VS2.writes (Elt F) VS2.junk (kernelRun2_A c i arg3 harg3 arg4 harg4 arg5 harg5 arg6 harg6 arg7 harg7 hc0 hc1 x0 x1 x2).2.1)

/-- The case stores nothing into the output's buffer (the window is idle at its points and not written back
    there): no pieces, a placeholder that nothing consults. -/
def out2_B_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) : Vec F S2048x1024 .f32 :=
  VO2_3.read (Elt F) (VO2_3.writes (Elt F) VO2_3.junk (kernelRun2_B c i arg3 harg3 arg4 harg4 arg5 harg5 arg6 harg6 arg7 harg7 hc0 hc1 x0 x1 x2 xs).1)

/-- The case's stores into the accumulator tile it, so its pieces cover it. -/
theorem scover2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) (y : S2048x1024.Idx) :
    ∃ pc ∈ (kernelRun2_B c i arg3 harg3 arg4 harg4 arg5 harg5 arg6 harg6 arg7 harg7 hc0 hc1 x0 x1 x2 xs).2.1, y ∈ pc.1.set :=
  View.cover_of_tiledL (kernelRun2_B c i arg3 harg3 arg4 harg4 arg5 harg5 arg6 harg6 arg7 harg7 hc0 hc1 x0 x1 x2 xs).2.1 S2048x1024.size (by sl_kernel_rfl) y

/-- What the case leaves in the accumulator: its pieces read back. -/
def sout2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_B c i arg3 harg3 arg4 harg4 arg5 harg5 arg6 harg6 arg7 harg7 hc0 hc1 x0 x1 x2 xs).2.1)

/-- In this case the one store into the output's buffer tiles it, so its pieces cover it. -/
theorem cover2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S2048x1024.size (by sl_kernel_rfl) y

/-- What the case leaves in the output's staging buffer: its pieces read back. -/
def out2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) : Vec F S2048x1024 .f32 :=
  VO2_3.read (Elt F) (VO2_3.writes (Elt F) VO2_3.junk (kernelRun2_C c i arg3 harg3 arg4 harg4 arg5 harg5 arg6 harg6 arg7 harg7 hc0 hc1 x0 x1 x2 xs).1)

/-- The case's stores into the accumulator tile it, so its pieces cover it. -/
theorem scover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S2048x1024.size (by sl_kernel_rfl) y

/-- What the case leaves in the accumulator: its pieces read back. -/
def sout2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_C c i arg3 harg3 arg4 harg4 arg5 harg5 arg6 harg6 arg7 harg7 hc0 hc1 x0 x1 x2 xs).2.1)

section Region2
-- the TensorCore's buffer contents when the region is entered
variable (V : (c : Dev nD) → (b : Ref sig .tc) → Buf (Elt F) ((c : Thread nD τ).loc b))

/-! ## What the output's buffer and the accumulator hold after each point -/

/-- The accumulation. After the body at position `n`: (the output window's current staging buffer, the accumulator) — the
    case the closed forms select at `n`, run at the point's memrefs and input blocks, the accumulator before it at what
    position `n - 1` left. The two conditions never hold together. -/
def outsAt2 (c : Dev nD) : (n : ℕ) → n < cfg2.N → Vec F S2048x1024 .f32 × Vec F S2048x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point where the first condition holds: the accumulator is started afresh. -/
theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point where neither condition holds: over what the point before left. -/
theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point where the second condition holds: over what the point before left. -/
theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point what the launch hands over (every scoped buffer at anything); afterwards
    the eleven other buffers at anything, the accumulator at what the point before left in it, and the generator register
    at some state. -/
def PhiS2 (c : Dev nD) : (n : ℕ) → n ≤ cfg2.N → sProp 𝕄
  | 0, _ => Pipeline.ΦA spec2 c
  | n + 1, hn => iprop(iprop(R11 (F := F) c ∗ owns (c : Thread nD τ) scM2 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(R11 (F := F) c ∗ owns (c : Thread nD τ) scM2 fullShare ((outsAt2 V c n hn).2)) ∗ (∃ r, prngReg c r)) := rfl

theorem PhiS2_pos (c : Dev nD) (n : ℕ) (h : n ≤ cfg2.N) (hz : n ≠ 0) :
    PhiS2 V c n h = iprop(iprop(R11 (F := F) c ∗ owns (c : Thread nD τ) scM2 fullShare ((outsAt2 V c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the closed forms say which case the point is in; the
    invariant hands the body the accumulator at what the point before left (at anything at the first point) together with
    the eleven other buffers and the generator register, and takes the accumulator back at this point's contents; the core
    owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.Kernel.Fr

end
-- ==== Proof.BFrameRun.lean ====
/-
  The whole run of @main: three host stretches, the weight-quantisation region, a reshape, the activation-quantisation
  region, the matmul region and a last reshape, as the segments of one launch. Between two segments every unscoped
  buffer of the core is held whole at contents named here — a fold from the launch memory: a host stretch applies its
  operations, a region leaves its arrays at what its pipeline's write-backs make of them and every other buffer as it
  was — beside the generator register at some state and the core owing nothing. The run's post reads every unscoped
  buffer at the last of these contents; the frame claim and the result's value are read off it.
-/
import proofs.«170529_j14078902796908_2_alg».proof.Proof.Gen.Kernel.Launch
import proofs.«170529_j14078902796908_2_alg».proof.Proof.Gen.Kernel.Skeleton
import proofs.«170529_j14078902796908_2_alg».proof.Proof.Gen.Kernel.Points
import proofs.«170529_j14078902796908_2_alg».proof.Proof.BFrameR0
import proofs.«170529_j14078902796908_2_alg».proof.Proof.BFrameR1
import proofs.«170529_j14078902796908_2_alg».proof.Proof.BR2Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (the exponential and the two clip bounds). -/
abbrev W1 : Dev nD → Valuation τ sig (Elt F) := fun c => StableHlo.after hostOps0 (W0 m ρ c)
/-- After the clip. -/
abbrev W2 : Dev nD → Valuation τ sig (Elt F) := fun c => StableHlo.after hostOps0_1 (W1 m ρ c)
/-- After the two reshapes to rows: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (an input as entered, an output's write-backs folded),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the activations' reshape: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (an input as entered, an output's write-backs folded),
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (an input as entered, an output's write-backs folded),
    every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the result's reshape: the end. -/
abbrev W8 : Dev nD → Valuation τ sig (Elt F) := fun c => StableHlo.after hostOps3 (W7 m ρ c)

/-! ## No host operation allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at `W3`, left with them at `W4`. Its arrays
    are split out of the unscoped buffers at entry and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its arrays
    are split out of the unscoped buffers at entry and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. Its arrays
    are split out of the unscoped buffers at entry and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : Pipeline.ΦA spec2 c ⊢ (pdats m ρ 2 c).Φ 0 := hin2 (V6 m ρ) c
    unfold Pipeline.ΦA at h2
    iintro ⟨Hp, -, Hr⟩
    iapply h2
    isplitl [Hr]; · iexact Hr
    iexact Hp
  hout c := by
    rw [Pipeline.ownSems0_none]
    have h2 : (pdats m ρ 2 c).Φ (Fin.last _) ⊢ Pipeline.ΦA spec2 c := hout2 (V6 m ρ) c
    unfold Pipeline.ΦA at h2
    iintro Hq
    ihave H := h2 $$ Hq
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state each unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W8 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Fr

end
-- ==== Proof.BFrameArgs.lean ====
/-
  The frame claim read off the run: each argument array's buffer holds, at the last segment boundary, what it held at
  launch — no host operation writes an argument, and a region either does not touch it or reads it through an input
  window, which the pipeline leaves as it found it.
-/
import proofs.«170529_j14078902796908_2_alg».proof.Proof.Gen.Kernel.Launch
import proofs.«170529_j14078902796908_2_alg».proof.Proof.Gen.Kernel.Skeleton
import proofs.«170529_j14078902796908_2_alg».proof.Proof.Gen.Kernel.Points
import proofs.«170529_j14078902796908_2_alg».proof.Proof.BFrameRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` reaches the end as launched: no host operation writes it and no region changes it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it and no region changes it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := (W4_arr m ρ c 0).trans (((dat0 (V3 m ρ) c).arrAt_in 0 rfl _).trans (A_eq0 (V3 m ρ) c 0))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it and no region changes it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it and no region changes it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME, at any float instance: every weakly fair execution of @main terminates, nothing faulting, with the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c)⟩) (run_all m ρ)

end Cert.Kernel.Fr

end
-- ==== Proof.KHost.lean ====
/-
  The contents of the buffers the three regions read and write, followed through the run's segment boundaries: what
  each host stretch writes (the clipped exponential, the reshapes), and which buffers each segment leaves alone.
-/
import proofs.«170529_j14078902796908_2_alg».proof.Proof.Gen.KernelIdeal.Launch
import proofs.«170529_j14078902796908_2_alg».proof.Proof.Gen.KernelIdeal.Skeleton
import proofs.«170529_j14078902796908_2_alg».proof.Proof.Gen.KernelIdeal.Points
import proofs.«170529_j14078902796908_2_alg».proof.Proof.FrameArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the host stretches write -/

/-- The column scale vector: the exponential of the log-scales, clipped. -/
theorem W2_v1 : W2 m ρ c (Proc.devRef .tc main_v1)
    = minimumf (broadcastInDim S4096 ![] bcast_S_S4096 (constant S_ .f32 0x461C4000#32))
        (maximumf (broadcastInDim S4096 ![] bcast_S_S4096 (constant S_ .f32 0x38D1B717#32)) (Host.exp (m ((c : Thread nD τ).loc main_arg3)))) := by
  show StableHlo.after hostOps0_1 (StableHlo.after hostOps0 (W0 m ρ c)) (Proc.devRef .tc main_v1) = _
  after_results
  simp only [StableHlo.TRef.toBuf, StableHlo.TRef.ofBuf, cast_eq] <;> rfl

/-- The scale as a row. -/
theorem W3_v2 : W3 m ρ c (Proc.devRef .tc main_v2) = shapeCast S1x4096 (W2 m ρ c (Proc.devRef .tc main_v1)) shapeCasts_S4096_S1x4096 := by
  show StableHlo.after hostOps0_2 (W2 m ρ c) (Proc.devRef .tc main_v2) = _
  after_results; rfl

/-- The bias as a row. -/
theorem W3_v3 : W3 m ρ c (Proc.devRef .tc main_v3) = shapeCast S1x4096 (W2 m ρ c (Proc.devRef .tc main_arg2)) shapeCasts_S4096_S1x4096 := by
  show StableHlo.after hostOps0_2 (W2 m ρ c) (Proc.devRef .tc main_v3) = _
  after_results; rfl

/-- The activations as 8192 rows. -/
theorem W5_v5 : W5 m ρ c (Proc.devRef .tc main_v5) = shapeCast S8192x4096 (W4 m ρ c (Proc.devRef .tc main_arg0)) shapeCasts_S4x2048x4096_S8192x4096 := by
  show StableHlo.after hostOps1 (W4 m ρ c) (Proc.devRef .tc main_v5) = _
  after_results; rfl

/-- The result, from the matmul region's output. -/
theorem W8_v8 : W8 m ρ c (Proc.devRef .tc main_v8) = shapeCast S4x2048x4096 (W7 m ρ c (Proc.devRef .tc main_v7)) shapeCasts_S8192x4096_S4x2048x4096 := by
  show StableHlo.after hostOps3 (W7 m ρ c) (Proc.devRef .tc main_v8) = _
  after_results; rfl

/-! ## What each segment leaves alone -/

theorem W2_arg2 : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_arg1 : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_arg0 : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The scale row is an input window of region 0: the region leaves it as entered. -/
theorem W4_v2 : W4 m ρ c (Proc.devRef .tc main_v2) = W3 m ρ c (Proc.devRef .tc main_v2) :=
  (W4_arr m ρ c 1).trans (((dat0 (V3 m ρ) c).arrAt_in 1 rfl _).trans (A_eq0 (V3 m ρ) c 1))

theorem W5_v2 : W5 m ρ c (Proc.devRef .tc main_v2) = W3 m ρ c (Proc.devRef .tc main_v2) :=
  (StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v2 m ρ c)

/-- The bias row reaches region 2 as the reshape left it. -/
theorem W6_v3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

/-- The quantised weights reach region 2 as region 0 left them. -/
theorem W6_v4 : W6 m ρ c (Proc.devRef .tc main_v4) = (dat0 (V3 m ρ) c).arrAt 2 cfg0.N :=
  calc W6 m ρ c (Proc.devRef .tc main_v4)
    _ = W5 m ρ c (Proc.devRef .tc main_v4) := W6_of_ne m ρ c main_v4 (by decide)
    _ = W4 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V3 m ρ) c).arrAt 2 cfg0.N := W4_arr m ρ c 2

/-- The quantised activations, as region 1 left them. -/
theorem W6_v6 : W6 m ρ c (Proc.devRef .tc main_v6) = (dat1 (V5 m ρ) c).arrAt 2 cfg1.N := W6_arr m ρ c 2

/-- The matmul region's output. -/
theorem W7_v7 : W7 m ρ c (Proc.devRef .tc main_v7) = (dat2 (V6 m ρ) c).arrAt 3 cfg2.N := W7_arr m ρ c 3

end Cert.KernelIdeal.Fr

end
-- ==== Proof.Spec.lean ====
/-
  The mathematics both programs compute, on the extended reals.

  A column scale s(d) = min(1e4, max(1e-4, exp l(d))).
  Activations: a row u of x / s is quantised to 8 bits symmetrically: with step = max(1e-5, max_d |u d|) / 127 the entry
  u d becomes clip(round(u d / step), -128, 127) · step.
  Weights: a group g of 128 consecutive entries of a row of w · s is quantised to 4 bits with a zero point: with
  step = max(1e-5, max g - min g) / 15 and zero = clip(-round(min g / step), 0, 15) the entry g e becomes
  (clip(round(g e / step) + zero, 0, 15) - zero) · step.
  The result is the product of the quantised activations with the quantised weights' rows, plus the bias.

  Each piece is stated twice: as the reference spells it (a quotient by the step; the straight-through form
  t + (q - t)) and as the kernel spells it (a product with the reciprocal of the step; the quantised value itself).
  Literals stay as their f32 patterns; the reference's integer bounds are integers read signed.
-/
import Idealize.ShloMosaic.PureOps.Ideal
import Idealize.ShloMosaic.Lib.ValueIdx

noncomputable section

namespace Cert.Q

open Idealize.ShloMosaic Idealize.ShloMosaic.ValueIdx
open scoped BigOperators

/-- An f32 pattern as the extended real it denotes. -/
abbrev lit (b : BitVec 32) : EReal := Ideal.ofBits .f32 b
/-- A 32-bit integer, read signed, as an extended real. -/
abbrev int (b : BitVec 32) : EReal := ((b.toInt : ℝ) : EReal)
/-- Rounding to the nearest integer, ties to even; the infinities are fixed. -/
abbrev rnd (x : EReal) : EReal := Ideal.liftRound Ideal.roundHalfEven x
/-- The maximum of finitely many values, from -inf. -/
abbrev fmax {n : ℕ} (f : Fin n → EReal) : EReal := (Finset.univ : Finset (Fin n)).fold max (lit 0xFF800000#32) f
/-- The minimum of finitely many values, from +inf. -/
abbrev fmin {n : ℕ} (f : Fin n → EReal) : EReal := (Finset.univ : Finset (Fin n)).fold min (lit 0x7F800000#32) f

/-- The column scale: exp clipped to [1e-4, 1e4]. -/
def scale (l : EReal) : EReal := min (lit 0x461C4000#32) (max (lit 0x38D1B717#32) (Ideal.exp l))

/-! ## Activations: one row `u` of x / s -/

/-- The quantisation step of a row: max(1e-5, max |u|) / 127. -/
def actStep {n : ℕ} (u : Fin n → EReal) : EReal :=
  Ideal.div (max (lit 0x3727C5AC#32) (fmax fun d => max (u d) (-(u d)))) (lit 0x42FE0000#32)

/-- The reference's quantised entry: (clip(round(v / step) + 0, -128, 127) - 0) · step. -/
def actDqR (step v : EReal) : EReal :=
  (min (int 127#32) (max (int 4294967168#32) (rnd (Ideal.div v step) + lit 0x00000000#32)) - lit 0x00000000#32) * step

/-- The reference's straight-through entry: v + (dq - v). -/
def actR {n : ℕ} (u : Fin n → EReal) (d : Fin n) : EReal := u d + (actDqR (actStep u) (u d) - u d)

/-- The kernel's quantised entry: clip(round(v · (1 / step)), -128, 127) · step. -/
def actK {n : ℕ} (u : Fin n → EReal) (d : Fin n) : EReal :=
  min (lit 0x42FE0000#32) (max (lit 0xC3000000#32) (rnd (u d * Ideal.div (lit 0x3F800000#32) (actStep u)))) * actStep u

/-! ## Weights: one group `g` of 128 consecutive entries of a row of w · s -/

/-- The quantisation step of a group: max(1e-5, max g - min g) / 15. -/
def wStep {n : ℕ} (g : Fin n → EReal) : EReal :=
  Ideal.div (max (lit 0x3727C5AC#32) (fmax g - fmin g)) (lit 0x41700000#32)

/-- The reference's zero point: clip(-round(min g / step), 0, 15). -/
def wZeroR {n : ℕ} (g : Fin n → EReal) : EReal :=
  min (int 15#32) (max (int 0#32) (-(rnd (Ideal.div (fmin g) (wStep g)))))

/-- The reference's quantised entry: (clip(round(v / step) + zero, 0, 15) - zero) · step. -/
def wDqR {n : ℕ} (g : Fin n → EReal) (e : Fin n) : EReal :=
  (min (int 15#32) (max (int 0#32) (rnd (Ideal.div (g e) (wStep g)) + wZeroR g)) - wZeroR g) * wStep g

/-- The reference's straight-through entry: v + (dq - v). -/
def wR {n : ℕ} (g : Fin n → EReal) (e : Fin n) : EReal := g e + (wDqR g e - g e)

/-- The kernel's zero point: clip(0 - round(min g · (1 / step)), 0, 15). -/
def wZeroK {n : ℕ} (g : Fin n → EReal) : EReal :=
  min (lit 0x41700000#32) (max (lit 0x00000000#32)
    (lit 0x00000000#32 - rnd (fmin g * Ideal.div (lit 0x3F800000#32) (wStep g))))

/-- The kernel's quantised entry: (clip(round(v · (1 / step)) + zero, 0, 15) - zero) · step. -/
def wK {n : ℕ} (g : Fin n → EReal) (e : Fin n) : EReal :=
  (min (lit 0x41700000#32) (max (lit 0x00000000#32)
    (rnd (g e * Ideal.div (lit 0x3F800000#32) (wStep g)) + wZeroK g)) - wZeroK g) * wStep g

/-! ## The whole result, over the argument arrays

`x` is [4, 2048, 4096], `w` is [4096, 4096] (rows = outputs), `b` and `l` are [4096]. Entry (p, q, o) of the result is
the sum over d of (quantised activation (p, q, d)) · (quantised weight (o, d)), plus b o. The weight column d lies in
group d / 128 of its row at offset d % 128. -/

abbrev SX : Shape := ⟨3, ![4, 2048, 4096]⟩
abbrev SW : Shape := ⟨2, ![4096, 4096]⟩
abbrev SV : Shape := ⟨1, ![4096]⟩

/-- Column d = 128 · h + e of a row, for a group h of 32 and an offset e of 128. -/
def col (h : Fin 32) (e : Fin 128) : Fin 4096 := ⟨h.val * 128 + e.val, by omega⟩
/-- The group of a column. -/
def grp (d : Fin 4096) : Fin 32 := ⟨d.val / 128, by omega⟩
/-- The offset of a column inside its group. -/
def off (d : Fin 4096) : Fin 128 := ⟨d.val % 128, by omega⟩

/-- The reference's scaled activation row (p, q): x / s. -/
def rowR (x : SX.Idx → EReal) (l : SV.Idx → EReal) (p : Fin 4) (q : Fin 2048) (d : Fin 4096) : EReal :=
  Ideal.div (x (ix3 p q d)) (scale (l (ix1 d)))
/-- The kernel's scaled activation row (p, q): x · (1 / s). -/
def rowK (x : SX.Idx → EReal) (l : SV.Idx → EReal) (p : Fin 4) (q : Fin 2048) (d : Fin 4096) : EReal :=
  x (ix3 p q d) * Ideal.div (lit 0x3F800000#32) (scale (l (ix1 d)))
/-- Group h of row o of w · s (the same in both programs). -/
def wgrp (w : SW.Idx → EReal) (l : SV.Idx → EReal) (o : Fin 4096) (h : Fin 32) (e : Fin 128) : EReal :=
  w (ix2 o (col h e)) * scale (l (ix1 (col h e)))

/-- The reference's result. -/
def GR (x : SX.Idx → EReal) (w : SW.Idx → EReal) (b l : SV.Idx → EReal) : SX.Idx → EReal := fun i =>
  (∑ d : Fin 4096, actR (rowR x l (i 0) (i 1)) d * wR (wgrp w l (i 2) (grp d)) (off d)) + b (ix1 (i 2))

/-- The kernel's result: the sum taken in four blocks of 1024 columns, onto zero. -/
def GK (x : SX.Idx → EReal) (w : SW.Idx → EReal) (b l : SV.Idx → EReal) : SX.Idx → EReal := fun i =>
  (∑ d : Fin 4096, actK (rowK x l (i 0) (i 1)) d * wK (wgrp w l (i 2) (grp d)) (off d)) + b (ix1 (i 2))

end Cert.Q

end
-- ==== Proof.LibAttnOps.lean ====
/-
  Reading the array operations of a batched attention at an entry, on the extended reals.

  * A batched product of rows against rows, [n, a, d] x [n, b, d] -> [n, a, b] (the einsum "tqd,tkd->tqk"), accumulated
    onto the zero array, is at (w, p, q) the sum over k of left (w, p, k) * right (w, q, k).
  * A batched product of rows against columns, [n, a, k] x [n, k, d] -> [n, a, d] ("tqk,tkd->tqd"), onto zero, is at
    (w, p, e) the sum over j of left (w, p, j) * right (w, j, e).
  * A maximum from -inf over the last axis of a three-axis array is at (w, p) the fold of max over the entries (w, p, j);
    the host's maximum over the last axis of a four-axis array is at (b, h, p) the fold of max from the initial value.
  * Merging the two leading axes [a, b, c] -> [a b, c], or splitting them back, moves no entry: row p b + q is (p, q).
  * A [1, b, c] array seen as [b, c], as [1, b, c] again and repeated to [a, b, c] reads at (w, i, j) its entry (0, i, j);
    a vector of c entries seen as [1, c] and repeated to [N, c] reads at (n, r) its entry r.
  * Four arrays [a, b, k] laid side by side along the last axis read at column n k + e the n-th array's column e.
  All extents are variables.
-/
import Idealize.ShloMosaic.Lib.ValueIdx
import Idealize.ShloMosaic.Lib.Pipeline.Value
import Idealize.ShloMosaic.PureOps.Ideal.Laws

noncomputable section

open scoped BigOperators

namespace Cert.AttnOps

open Idealize.ShloMosaic Idealize.ShloMosaic.ValueIdx

/-! ## The two batched products -/

/-- The dimension numbers of [n, a, d] x [n, b, d] -> [n, a, b]: batch axis 0, both last axes contracted. -/
abbrev dimsQK {n a b d : ℕ}
    (wf : DotDims.WF ⟨3, ![n, a, d]⟩ ⟨3, ![n, b, d]⟩ ⟨3, ![n, a, b]⟩ [2] [2] [1] [1] [0] [0]) :
    DotDims ⟨3, ![n, a, d]⟩ ⟨3, ![n, b, d]⟩ ⟨3, ![n, a, b]⟩ :=
  ⟨[2], [2], [1], [1], [0], [0], wf⟩

/-- Rows against rows, batched, onto zero: at (w, p, q) the dot product of row (w, p) of the left factor with row
    (w, q) of the right one. -/
theorem rows_rows_apply {n a b d : ℕ} {φ₁ φ₂ : FTy}
    (wf : DotDims.WF ⟨3, ![n, a, d]⟩ ⟨3, ![n, b, d]⟩ ⟨3, ![n, a, b]⟩ [2] [2] [1] [1] [0] [0])
    (prec : Option ContractPrecision) (L : FVec Ideal ⟨3, ![n, a, d]⟩ φ₁) (R : FVec Ideal ⟨3, ![n, b, d]⟩ φ₂)
    (w : Fin n) (p : Fin a) (q : Fin b) :
    FloatOps.matmul (dimsQK wf) prec L R (constant ⟨3, ![n, a, b]⟩ .f32 0x00000000#32) (ix3 w p q)
      = ∑ k : Fin d, L (ix3 w p k) * R (ix3 w q k) := by
  rw [Ideal.matmul_constant_zero_apply, ← Equiv.sum_comp (contrEquiv1 (dimsQK wf) d rfl rfl).symm]
  refine Finset.sum_congr rfl fun k _ => ?_
  have hk := contrEquiv1_symm_val (dimsQK wf) d rfl rfl k
  have el : (dimsQK wf).lhsIdx (ix3 w p q) ((contrEquiv1 (dimsQK wf) d rfl rfl).symm k) = ix3 w p k :=
    funext fun ax => Fin.ext (by
      match ax with
      | ⟨0, _⟩ => rfl
      | ⟨1, _⟩ => rfl
      | ⟨2, _⟩ => exact ((dimsQK wf).lhsIdx_val_of_single rfl _ _).trans hk)
  have er : (dimsQK wf).rhsIdx (ix3 w p q) ((contrEquiv1 (dimsQK wf) d rfl rfl).symm k) = ix3 w q k :=
    funext fun ax => Fin.ext (by
      match ax with
      | ⟨0, _⟩ => rfl
      | ⟨1, _⟩ => rfl
      | ⟨2, _⟩ => exact ((dimsQK wf).rhsIdx_val_of_single rfl _ _).trans hk)
  rw [el, er]

/-- The dimension numbers of [n, a, k] x [n, k, d] -> [n, a, d]: batch axis 0, the left's last axis against the right's
    middle one. -/
abbrev dimsAV {n a k d : ℕ}
    (wf : DotDims.WF ⟨3, ![n, a, k]⟩ ⟨3, ![n, k, d]⟩ ⟨3, ![n, a, d]⟩ [2] [1] [1] [2] [0] [0]) :
    DotDims ⟨3, ![n, a, k]⟩ ⟨3, ![n, k, d]⟩ ⟨3, ![n, a, d]⟩ :=
  ⟨[2], [1], [1], [2], [0], [0], wf⟩

/-- Rows against columns, batched, onto zero: at (w, p, e) the sum over j of left (w, p, j) * right (w, j, e). -/
theorem rows_cols_apply {n a k d : ℕ} {φ₁ φ₂ : FTy}
    (wf : DotDims.WF ⟨3, ![n, a, k]⟩ ⟨3, ![n, k, d]⟩ ⟨3, ![n, a, d]⟩ [2] [1] [1] [2] [0] [0])
    (prec : Option ContractPrecision) (L : FVec Ideal ⟨3, ![n, a, k]⟩ φ₁) (R : FVec Ideal ⟨3, ![n, k, d]⟩ φ₂)
    (w : Fin n) (p : Fin a) (e : Fin d) :
    FloatOps.matmul (dimsAV wf) prec L R (constant ⟨3, ![n, a, d]⟩ .f32 0x00000000#32) (ix3 w p e)
      = ∑ j : Fin k, L (ix3 w p j) * R (ix3 w j e) := by
  rw [Ideal.matmul_constant_zero_apply, ← Equiv.sum_comp (contrEquiv1 (dimsAV wf) k rfl rfl).symm]
  refine Finset.sum_congr rfl fun j _ => ?_
  have hj := contrEquiv1_symm_val (dimsAV wf) k rfl rfl j
  have el : (dimsAV wf).lhsIdx (ix3 w p e) ((contrEquiv1 (dimsAV wf) k rfl rfl).symm j) = ix3 w p j :=
    funext fun ax => Fin.ext (by
      match ax with
      | ⟨0, _⟩ => rfl
      | ⟨1, _⟩ => rfl
      | ⟨2, _⟩ => exact ((dimsAV wf).lhsIdx_val_of_single rfl _ _).trans hj)
  have er : (dimsAV wf).rhsIdx (ix3 w p e) ((contrEquiv1 (dimsAV wf) k rfl rfl).symm j) = ix3 w j e :=
    funext fun ax => Fin.ext (by
      match ax with
      | ⟨0, _⟩ => rfl
      | ⟨1, _⟩ => exact ((dimsAV wf).rhsIdx_val_of_single rfl _ _).trans hj
      | ⟨2, _⟩ => rfl)
  rw [el, er]

/-! ## Maxima over the last axis -/

/-- The maximum over the last axis of a three-axis array, from -inf: at (w, p) the fold of max over the entries
    (w, p, j). -/
theorem max_last3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0xFF800000#32 : BitVec 32) = 0xFF800000#32) (w : Fin n0) (p : Fin n1) :
    multiReduction .maximumf [2] ⟨2, ![n0, n1]⟩ src 0xFF800000#32 h hφ hacc (ix2 w p)
      = (Finset.univ : Finset (Fin n2)).fold max (Ideal.ofBits .f32 0xFF800000#32) (fun j => src (ix3 w p j)) :=
  (Ideal.multiReduction_maximumf_single src 0xFF800000#32 h hφ hacc (ix2 w p)).trans
    (Finset.fold_congr fun j _ => congrArg src (funext fun ax => Fin.ext (by
      match ax with
      | ⟨0, _⟩ => rfl
      | ⟨1, _⟩ => rfl
      | ⟨2, _⟩ => rfl)))

/-- The reduced index (b, h, p) with coordinate j put back on the last axis is (b, h, p, j). -/
theorem lift_last4 {n0 n1 n2 n3 : ℕ} (h : (⟨4, ![n0, n1, n2, n3]⟩ : Shape).Reduces [3] ⟨3, ![n0, n1, n2]⟩)
    (b : Fin n0) (hh : Fin n1) (p : Fin n2) (j : Fin ((⟨4, ![n0, n1, n2, n3]⟩ : Shape).size 3)) :
    h.lift (ix3 b hh p) j = ix4 b hh p (⟨j.val, j.isLt⟩ : Fin n3) := by
  funext ax; apply Fin.ext
  fin_cases ax <;> rfl

/-- The host's reduction with a maximum body over the last axis of a four-axis array: at (b, h, p) the fold of max from
    the initial value over the entries (b, h, p, j). -/
theorem host_max_last4_apply {n0 n1 n2 n3 : ℕ} (x : FVec Ideal ⟨4, ![n0, n1, n2, n3]⟩ .f32)
    (init : FVec Ideal ⟨0, ![]⟩ .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩)
    (hu : 0 < (⟨0, ![]⟩ : Shape).numel) (b : Fin n0) (hh : Fin n1) (p : Fin n2) :
    Host.reduce FloatOps.maximumf x init h' hu (ix3 b hh p)
      = (Finset.univ : Finset (Fin n3)).fold max (init ix0) (fun j => x (ix4 b hh p j)) := by
  rw [Host.reduce_eq_fold_single FloatOps.maximumf x init h' h hu, eq_ix0 (Shape.Idx.first hu)]
  have hf : (x ∘ h.lift (ix3 b hh p)) = fun j : Fin n3 => x (ix4 b hh p j) :=
    funext fun j => congrArg x (lift_last4 h b hh p j)
  exact congrArg (fun f => Finset.fold max (init ix0) f (Finset.univ : Finset (Fin n3))) hf

/-! ## Re-laid arrays -/

variable {α : Type}

/-- [a, b, c] with its two leading axes merged into N = a b rows: row p b + q, column r, is the entry (p, q, r). -/
theorem merge_rows_apply {a b c N : ℕ} (v : (⟨3, ![a, b, c]⟩ : Shape).Idx → α)
    (h : (⟨3, ![a, b, c]⟩ : Shape).ShapeCasts ⟨2, ![N, c]⟩) (p : Fin a) (q : Fin b) (r : Fin c) (n : Fin N)
    (hn : n.val = p.val * b + q.val) :
    shapeCast ⟨2, ![N, c]⟩ v h (ix2 n r) = v (ix3 p q r) := by
  refine shapeCast_apply v h (ix2 n r) (ix3 p q r) ?_
  rw [Shape.rowMajor_val_two, Shape.rowMajor_val_three]
  show (p.val * b + q.val) * c + r.val = n.val * c + r.val
  rw [hn]

/-- [N, c] with its N = a b rows split into [a, b]: the entry (p, q, r) is row p b + q, column r. -/
theorem split_rows_apply {a b c N : ℕ} (v : (⟨2, ![N, c]⟩ : Shape).Idx → α)
    (h : (⟨2, ![N, c]⟩ : Shape).ShapeCasts ⟨3, ![a, b, c]⟩) (p : Fin a) (q : Fin b) (r : Fin c) (n : Fin N)
    (hn : n.val = p.val * b + q.val) :
    shapeCast ⟨3, ![a, b, c]⟩ v h (ix3 p q r) = v (ix2 n r) := by
  refine shapeCast_apply v h (ix3 p q r) (ix2 n r) ?_
  rw [Shape.rowMajor_val_two, Shape.rowMajor_val_three]
  show n.val * c + r.val = (p.val * b + q.val) * c + r.val
  rw [hn]

/-- A [1, b, c] array seen as [b, c], as [1, b, c] again, and repeated to [a, b, c]: at (w, i, j) its entry
    (0, i, j). -/
theorem slab_repeated_apply {a b c : ℕ} (v : (⟨3, ![1, b, c]⟩ : Shape).Idx → α)
    (h1 : (⟨3, ![1, b, c]⟩ : Shape).ShapeCasts ⟨2, ![b, c]⟩)
    (h2 : (⟨2, ![b, c]⟩ : Shape).ShapeCasts ⟨3, ![1, b, c]⟩)
    (h3 : (⟨3, ![1, b, c]⟩ : Shape).Broadcasts ⟨3, ![a, b, c]⟩) (w : Fin a) (i : Fin b) (j : Fin c) :
    broadcastTo ⟨3, ![a, b, c]⟩ (shapeCast ⟨3, ![1, b, c]⟩ (shapeCast ⟨2, ![b, c]⟩ v h1) h2) h3 (ix3 w i j)
      = v (ix3 (0 : Fin 1) i j) := by
  rw [shapeCast_shapeCast]
  refine broadcastTo_apply v h3 (ix3 w i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A vector of c entries seen as [1, c] and repeated to [N, c]: at (n, r) its entry r. -/
theorem row_repeated_apply {N c : ℕ} (v : (⟨1, ![c]⟩ : Shape).Idx → α)
    (h1 : (⟨1, ![c]⟩ : Shape).ShapeCasts ⟨2, ![1, c]⟩)
    (h2 : (⟨2, ![1, c]⟩ : Shape).Broadcasts ⟨2, ![N, c]⟩) (n : Fin N) (r : Fin c) :
    broadcastTo ⟨2, ![N, c]⟩ (shapeCast ⟨2, ![1, c]⟩ v h1) h2 (ix2 n r) = v (ix1 r) := by
  refine (broadcastTo_apply _ h2 (ix2 n r) (ix2 (0 : Fin 1) r) fun ax => ?_).trans ?_
  · match ax with
    | ⟨0, _⟩ => rfl
    | ⟨1, _⟩ =>
      show r.val = if c = 1 then 0 else r.val
      split
      · have := r.isLt; omega
      · rfl
  · refine shapeCast_apply v h1 (ix2 (0 : Fin 1) r) (ix1 r) ?_
    rw [Shape.rowMajor_val_one, Shape.rowMajor_val_two]
    show r.val = 0 * c + r.val
    omega

/-- Four [a, b, k] arrays side by side along the last axis: column n k + e of the result is column e of the n-th. -/
theorem join4_apply {a b k K : ℕ} (x0 x1 x2 x3 : (⟨3, ![a, b, k]⟩ : Shape).Idx → α)
    (h : Shape.Concatenates (([⟨⟨3, ![a, b, k]⟩, x0⟩, ⟨⟨3, ![a, b, k]⟩, x1⟩, ⟨⟨3, ![a, b, k]⟩, x2⟩, ⟨⟨3, ![a, b, k]⟩, x3⟩] :
      List ((s : Shape) × (s.Idx → α))).map (·.1)) ⟨3, ![a, b, K]⟩ 2)
    (p : Fin a) (q : Fin b) (e : Fin k) (c : Fin K) :
    (c.val = e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x0 (ix3 p q e))
    ∧ (c.val = k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x1 (ix3 p q e))
    ∧ (c.val = k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x2 (ix3 p q e))
    ∧ (c.val = k + k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x3 (ix3 p q e)) := by
  have off : ∀ bx : Fin (⟨3, ![a, b, k]⟩ : Shape).rank, bx.cast (rfl : (⟨3, ![a, b, k]⟩ : Shape).rank = (⟨3, ![a, b, K]⟩ : Shape).rank) ≠ (2 : Fin 3) →
      ((ix3 p q e : (⟨3, ![a, b, k]⟩ : Shape).Idx) bx).val = ((ix3 p q c : (⟨3, ![a, b, K]⟩ : Shape).Idx) (bx.cast rfl)).val := by
    intro bx hb
    match bx with
    | ⟨0, _⟩ => rfl
    | ⟨1, _⟩ => rfl
    | ⟨2, _⟩ => exact absurd rfl hb
  refine ⟨fun hc => ?_, fun hc => ?_, fun hc => ?_, fun hc => ?_⟩
  · exact concatenate_apply_piece 2 _ h (ix3 p q c) 0 (by simp) _ x0 rfl rfl 0 rfl (ix3 p q e) off
      (by show 0 + e.val = c.val; omega)
  · exact concatenate_apply_piece 2 _ h (ix3 p q c) 1 (by simp) _ x1 rfl rfl k (by simp) (ix3 p q e) off
      (by show k + e.val = c.val; omega)
  · exact concatenate_apply_piece 2 _ h (ix3 p q c) 2 (by simp) _ x2 rfl rfl (k + k) (by simp) (ix3 p q e) off
      (by show k + k + e.val = c.val; omega)
  · exact concatenate_apply_piece 2 _ h (ix3 p q c) 3 (by simp) _ x3 rfl rfl (k + k + k) (by simp [Nat.add_assoc]) (ix3 p q e) off
      (by show k + k + k + e.val = c.val; omega)

end Cert.AttnOps

end
-- ==== Proof.LibRowMin.lean ====
/-
  The minimum over one axis of an array of extended reals, taken from +∞ (the pattern 0x7F800000).

  The minimum is commutative and associative on the extended reals, so a reduction that takes it over one axis is, at
  each remaining index, the fold of the minimum from the starting value over that axis's coordinates, in any order.  For a
  two-axis array [a, n] reduced over its second axis this is, at row p, the fold over the entries (p, d) of the row, for
  the vector reduction of a kernel and for the host's reduction alike.
-/
import Idealize.ShloMosaic.Lib.ValueIdx
import Idealize.ShloMosaic.PureOps.Reduce
import Idealize.ShloMosaic.PureOps.Ideal.Laws

noncomputable section

namespace Cert.RowMin

open Idealize.ShloMosaic Idealize.ShloMosaic.ValueIdx

/-- A minimum reduction over one axis, read on the extended reals: the fold of the minimum from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the second axis of an [a, n] array of extended reals, taken from +∞: at row p the fold of the
    minimum from +∞ over the entries (p, d). -/
theorem min_over_columns_apply {a n : ℕ} (src : FVec Ideal ⟨2, ![a, n]⟩ .f32)
    (h : (⟨2, ![a, n]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin n)).fold min (Ideal.ofBits .f32 0x7F800000#32) (fun d => src (ix2 p d)) :=
  (multiReduction_minimumf_single src 0x7F800000#32 h hφ hacc (ix1 p)).trans
    (Finset.fold_congr fun d _ => congrArg src (funext fun ax => Fin.ext (by
      match ax with
      | ⟨0, _⟩ => rfl
      | ⟨1, _⟩ => rfl)))

/-- The host's minimum over the second axis of an [a, n] array of extended reals, from the starting value's element: at
    row p the fold of the minimum over the columns q of the entries (p, q). -/
theorem hostReduce_min_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.minimumf (F := Ideal) (φ := φ)) y init h' hu (ix1 p)
      = (Finset.univ : Finset (Fin n)).fold (FloatOps.minimumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.minimumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.RowMin

end
-- ==== Proof.LibUnitAxes.lean ====
/-
  A unit axis of a two- or three-axis array, read at an entry.

  A cast that adds a unit axis does not move any entry: an [a, b] array seen as [a, b, 1] reads at (p, q, 0) its entry
  (p, q); seen as [a, 1, b] it reads at (p, 0, q) its entry (p, q); an [a] array seen as [a, 1] reads at (p, 0) its
  entry p.  A broadcast along a unit axis repeats the one entry there: an [a, b, 1] array repeated to [a, b, c] reads at
  (p, q, r) its entry (p, q, 0); an [a, 1, c] array repeated to [a, b, c] reads at (p, q, r) its entry (p, 0, r); an
  [a, 1] array repeated to [a, b] reads at (p, q) its entry (p, 0).  And a vector of c entries seen as [1, 1, c] and
  repeated to [a, b, c] reads at (p, q, r) its entry r.
-/
import Idealize.ShloMosaic.Lib.ValueIdx
import Idealize.ShloMosaic.Lib.Pipeline.Value

noncomputable section

namespace Cert.UnitAxes

open Idealize.ShloMosaic Idealize.ShloMosaic.ValueIdx

variable {α : Type}

/-- [a, b] seen as [a, b, 1]: at (p, q, 0) the entry (p, q). -/
theorem cast_last_apply {a b : ℕ} (v : (⟨2, ![a, b]⟩ : Shape).Idx → α)
    (h : (⟨2, ![a, b]⟩ : Shape).ShapeCasts ⟨3, ![a, b, 1]⟩) (p : Fin a) (q : Fin b) :
    shapeCast ⟨3, ![a, b, 1]⟩ v h (ix3 p q (0 : Fin 1)) = v (ix2 p q) := by
  refine shapeCast_apply v h (ix3 p q (0 : Fin 1)) (ix2 p q) ?_
  rw [Shape.rowMajor_val_two, Shape.rowMajor_val_three]
  show p.val * b + q.val = (p.val * b + q.val) * 1 + 0
  omega

/-- [a, c] seen as [a, 1, c]: at (p, 0, r) the entry (p, r). -/
theorem cast_mid_apply {a c : ℕ} (v : (⟨2, ![a, c]⟩ : Shape).Idx → α)
    (h : (⟨2, ![a, c]⟩ : Shape).ShapeCasts ⟨3, ![a, 1, c]⟩) (p : Fin a) (r : Fin c) :
    shapeCast ⟨3, ![a, 1, c]⟩ v h (ix3 p (0 : Fin 1) r) = v (ix2 p r) := by
  refine shapeCast_apply v h (ix3 p (0 : Fin 1) r) (ix2 p r) ?_
  rw [Shape.rowMajor_val_two, Shape.rowMajor_val_three]
  show p.val * c + r.val = (p.val * 1 + 0) * c + r.val
  rw [Nat.mul_one, Nat.add_zero]

/-- [a] seen as [a, 1]: at (p, 0) the entry p. -/
theorem cast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- [a, b, 1] repeated to [a, b, c]: at (p, q, r) the entry (p, q, 0). -/
theorem repeat_last_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] repeated to [a, b, c]: at (p, q, r) the entry (p, 0, r). -/
theorem repeat_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [a, 1] repeated to [a, b]: at (p, q) the entry (p, 0). -/
theorem repeat_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of c entries seen as [1, 1, c] and repeated to [a, b, c]: at (p, q, r) the entry r. -/
theorem vector_repeated_apply {a b c : ℕ} (v : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 (ix3 (0 : Fin 1) (0 : Fin 1) r) (ix1 r) ?_
    rw [Shape.rowMajor_val_one, Shape.rowMajor_val_three]
    show r.val = (0 * 1 + 0) * c + r.val
    omega

end Cert.UnitAxes

end
-- ==== Proof.PayW.lean ====
/-
  The weight body's stored value read at an entry.

  Row p of the block times the column scales is cut into 8 groups of 128 consecutive columns. With g the group h of the
  row, the group's step is max(1e-5, max g - min g) / 15, its zero point is clip(0 - round(min g · (1 / step)), 0, 15),
  and the stored entry at column 128 · h + e is (clip(round(g e · (1 / step)) + zero, 0, 15) - zero) · step.
-/
import proofs.«170529_j14078902796908_2_alg».proof.Proof.Gen.KernelIdeal.Skeleton
import proofs.«170529_j14078902796908_2_alg».proof.Proof.Spec
import proofs.«170529_j14078902796908_2_alg».proof.Proof.LibAttnOps
import proofs.«170529_j14078902796908_2_alg».proof.Proof.LibRowMin
import proofs.«170529_j14078902796908_2_alg».proof.Proof.LibUnitAxes
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.Q Idealize.ShloMosaic Idealize.ShloMosaic.ValueIdx

/-! ## Layout: a row of 1024 columns as 8 groups of 128 -/

section Layout
variable {α : Type}

/-- A [1024, 1024] array seen as [1024, 8, 128] reads at (p, h, e) the entry (p, 128 · h + e): both have the same
    row-major position. -/
theorem split_groups_apply (x : S1024x1024.Idx → α) (hc : S1024x1024.ShapeCasts S1024x8x128)
    (p : Fin 1024) (h : Fin 8) (e : Fin 128) (q : Fin 1024) (hq : q.val = h.val * 128 + e.val) :
    shapeCast S1024x8x128 x hc (ix3 p h e) = x (ix2 p q) :=
  shapeCast_apply x hc (ix3 p h e) (ix2 p q) (by
    rw [Shape.rowMajor_val_two, Shape.rowMajor_val_three]
    show p.val * 1024 + q.val = (p.val * 8 + h.val) * 128 + e.val
    omega)

/-- A [1024, 8, 128] array seen as [1024, 1024] reads at (p, 128 · h + e) the entry (p, h, e). -/
theorem merge_groups_apply (x : S1024x8x128.Idx → α) (hc : S1024x8x128.ShapeCasts S1024x1024)
    (p : Fin 1024) (h : Fin 8) (e : Fin 128) (q : Fin 1024) (hq : q.val = h.val * 128 + e.val) :
    shapeCast S1024x1024 x hc (ix2 p q) = x (ix3 p h e) :=
  shapeCast_apply x hc (ix2 p q) (ix3 p h e) (by
    rw [Shape.rowMajor_val_three, Shape.rowMajor_val_two]
    show (p.val * 8 + h.val) * 128 + e.val = p.val * 1024 + q.val
    omega)

end Layout

/-- The minimum over the last axis of a three-axis array, from +inf: at (w, p) the fold of min over the entries
    (w, p, j). -/
theorem min_last3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x7F800000#32 : BitVec 32) = 0x7F800000#32) (w : Fin n0) (p : Fin n1) :
    multiReduction .minimumf [2] ⟨2, ![n0, n1]⟩ src 0x7F800000#32 h hφ hacc (ix2 w p)
      = (Finset.univ : Finset (Fin n2)).fold min (Ideal.ofBits .f32 0x7F800000#32) (fun j => src (ix3 w p j)) :=
  (Cert.RowMin.multiReduction_minimumf_single src 0x7F800000#32 h hφ hacc (ix2 w p)).trans
    (Finset.fold_congr fun j _ => congrArg src (funext fun ax => Fin.ext (by
      match ax with
      | ⟨0, _⟩ => rfl
      | ⟨1, _⟩ => rfl
      | ⟨2, _⟩ => rfl)))

/-! ## The scaled block and its groups -/

/-- The block times the column scales, at (p, q): the entry times the scale of column q. -/
theorem w_scaled_apply (x0 : Vec Ideal S1024x1024 .f32) (x1 : Vec Ideal S1x1024 .f32) (p q : Fin 1024) :
    (mulf (F := Ideal) (φ := .f32) x0 (broadcastTo S1024x1024 (shapeCast S1x1024 x1 shapeCasts_S1x1024_S1x1024) broadcasts_S1x1024_S1024x1024)) (ix2 p q) = x0 (ix2 p q) * x1 (ix2 (0 : Fin 1) q) := by
  rw [shapeCast_self]
  exact congrArg (fun t => x0 (ix2 p q) * t) (broadcastTo_1b_ab_apply _ _ p q)

/-- Entry e of group h of row p of the scaled block. -/
theorem w_group_apply (x0 : Vec Ideal S1024x1024 .f32) (x1 : Vec Ideal S1x1024 .f32) (p : Fin 1024) (h : Fin 8)
    (e' : Fin 128) :
    (shapeCast S1024x8x128 (mulf (F := Ideal) (φ := .f32) x0 (broadcastTo S1024x1024 (shapeCast S1x1024 x1 shapeCasts_S1x1024_S1x1024) broadcasts_S1x1024_S1024x1024)) shapeCasts_S1024x1024_S1024x8x128) (ix3 p h e')
      = x0 (ix2 p ⟨h.val * 128 + e'.val, by omega⟩) * x1 (ix2 (0 : Fin 1) ⟨h.val * 128 + e'.val, by omega⟩) :=
  (split_groups_apply _ _ p h e' ⟨h.val * 128 + e'.val, by omega⟩ rfl).trans (w_scaled_apply x0 x1 p _)

/-! ## Per group: maximum, minimum, step, zero point -/

/-- The column of group maxima at (p, h, 0): the maximum of group h of row p. -/
theorem w_max_apply (G : FVec Ideal S1024x8x128 .f32) (p : Fin 1024) (h : Fin 8) :
    (shapeCast S1024x8x1 (multiReduction (F := Ideal) .maximumf [2] S1024x8 G 0xFF800000#32 reduces_S1024x8x128_S1024x8 (.inl rfl) rfl) shapeCasts_S1024x8_S1024x8x1) (ix3 p h (0 : Fin 1)) = fmax (fun e' : Fin 128 => G (ix3 p h e')) :=
  (Cert.UnitAxes.cast_last_apply _ _ p h).trans (Cert.AttnOps.max_last3_apply G _ _ _ p h)

/-- The column of group minima at (p, h, 0): the minimum of group h of row p. -/
theorem w_min_apply (G : FVec Ideal S1024x8x128 .f32) (p : Fin 1024) (h : Fin 8) :
    (shapeCast S1024x8x1 (multiReduction (F := Ideal) .minimumf [2] S1024x8 G 0x7F800000#32 reduces_S1024x8x128_S1024x8 (.inl rfl) rfl) shapeCasts_S1024x8_S1024x8x1) (ix3 p h (0 : Fin 1)) = fmin (fun e' : Fin 128 => G (ix3 p h e')) :=
  (Cert.UnitAxes.cast_last_apply _ _ p h).trans (min_last3_apply G _ _ _ p h)

/-- The column of group steps at (p, h, 0): max(1e-5, max - min) / 15 of group h of row p. -/
theorem w_step_apply (G : FVec Ideal S1024x8x128 .f32) (p : Fin 1024) (h : Fin 8) :
    (divf (maximumf (broadcast S1024x8x1 (Scalar.ofBits (F := Ideal) .f32 0x3727C5AC#32)) (subf (shapeCast S1024x8x1 (multiReduction (F := Ideal) .maximumf [2] S1024x8 G 0xFF800000#32 reduces_S1024x8x128_S1024x8 (.inl rfl) rfl) shapeCasts_S1024x8_S1024x8x1) (shapeCast S1024x8x1 (multiReduction (F := Ideal) .minimumf [2] S1024x8 G 0x7F800000#32 reduces_S1024x8x128_S1024x8 (.inl rfl) rfl) shapeCasts_S1024x8_S1024x8x1))) (broadcast S1024x8x1 (Scalar.ofBits (F := Ideal) .f32 0x41700000#32))) (ix3 p h (0 : Fin 1)) = wStep (fun e' : Fin 128 => G (ix3 p h e')) := by
  rw [divf_apply, maximumf_apply, subf_apply, broadcast_apply, broadcast_apply]
  unfold wStep
  rw [w_max_apply G p h, w_min_apply G p h]
  rfl

/-- The column of zero points at (p, h, 0), from the column M of group minima and the column T of group steps:
    clip(0 - round(min · (1 / step)), 0, 15). -/
theorem w_zero_apply (M T : FVec Ideal S1024x8x1 .f32) (p : Fin 1024) (h : Fin 8) (g : Fin 128 → EReal)
    (hM : M (ix3 p h (0 : Fin 1)) = fmin g) (hT : T (ix3 p h (0 : Fin 1)) = wStep g) :
    (minimumf (broadcast S1024x8x1 (Scalar.ofBits (F := Ideal) .f32 0x41700000#32)) (maximumf (broadcast S1024x8x1 (Scalar.ofBits (F := Ideal) .f32 0x00000000#32)) (subf (broadcast S1024x8x1 (Scalar.ofBits (F := Ideal) .f32 0x00000000#32)) (roundeven (mulf M (divf (broadcast S1024x8x1 (Scalar.ofBits (F := Ideal) .f32 0x3F800000#32)) T)))))) (ix3 p h (0 : Fin 1)) = wZeroK g := by
  show min (lit 0x41700000#32) (max (lit 0x00000000#32) (lit 0x00000000#32 -
    rnd (M (ix3 p h (0 : Fin 1)) * Ideal.div (lit 0x3F800000#32) (T (ix3 p h (0 : Fin 1)))))) = _
  rw [hM, hT]
  rfl

/-! ## The stored entry -/

/-- From the groups G, the column T of group steps and the column Z of zero points to the stored entry at
    (p, 128 · h + e): (clip(round(G · (1 / T)) + Z, 0, 15) - Z) · T read at (p, h, e). -/
theorem w_quant_apply (G : FVec Ideal S1024x8x128 .f32) (T Z : FVec Ideal S1024x8x1 .f32) (p : Fin 1024) (h : Fin 8)
    (e : Fin 128) (q : Fin 1024) (hq : q.val = h.val * 128 + e.val) (g : Fin 128 → EReal)
    (hG : G (ix3 p h e) = g e) (hT : T (ix3 p h (0 : Fin 1)) = wStep g) (hZ : Z (ix3 p h (0 : Fin 1)) = wZeroK g) :
    truncf .bf16 (shapeCast S1024x1024 (mulf (subf (minimumf (broadcast S1024x8x128 (Scalar.ofBits (F := Ideal) .f32 0x41700000#32)) (maximumf (broadcast S1024x8x128 (Scalar.ofBits (F := Ideal) .f32 0x00000000#32)) (addf (roundeven (mulf G (broadcastTo S1024x8x128 (divf (broadcast S1024x8x1 (Scalar.ofBits (F := Ideal) .f32 0x3F800000#32)) T) broadcasts_S1024x8x1_S1024x8x128))) (broadcastTo S1024x8x128 Z broadcasts_S1024x8x1_S1024x8x128)))) (broadcastTo S1024x8x128 Z broadcasts_S1024x8x1_S1024x8x128)) (broadcastTo S1024x8x128 T broadcasts_S1024x8x1_S1024x8x128)) shapeCasts_S1024x8x128_S1024x1024) bitsLt_bf16_f32
        (ix2 p q)
      = wK g e := by
  rw [truncf_apply]
  refine (merge_groups_apply _ _ p h e q hq).trans ?_
  have eT : (broadcastTo S1024x8x128 T broadcasts_S1024x8x1_S1024x8x128) (ix3 p h e) = wStep g := (Cert.UnitAxes.repeat_last_apply T _ p h e).trans hT
  have eZ : (broadcastTo S1024x8x128 Z broadcasts_S1024x8x1_S1024x8x128) (ix3 p h e) = wZeroK g := (Cert.UnitAxes.repeat_last_apply Z _ p h e).trans hZ
  have eR : (broadcastTo S1024x8x128 (divf (broadcast S1024x8x1 (Scalar.ofBits (F := Ideal) .f32 0x3F800000#32)) T) broadcasts_S1024x8x1_S1024x8x128) (ix3 p h e) = Ideal.div (lit 0x3F800000#32) (wStep g) :=
    (Cert.UnitAxes.repeat_last_apply _ _ p h e).trans (congrArg (Ideal.div (lit 0x3F800000#32)) hT)
  show (min (lit 0x41700000#32) (max (lit 0x00000000#32) (rnd (G (ix3 p h e) * (broadcastTo S1024x8x128 (divf (broadcast S1024x8x1 (Scalar.ofBits (F := Ideal) .f32 0x3F800000#32)) T) broadcasts_S1024x8x1_S1024x8x128) (ix3 p h e))
    + (broadcastTo S1024x8x128 Z broadcasts_S1024x8x1_S1024x8x128) (ix3 p h e))) - (broadcastTo S1024x8x128 Z broadcasts_S1024x8x1_S1024x8x128) (ix3 p h e)) * (broadcastTo S1024x8x128 T broadcasts_S1024x8x1_S1024x8x128) (ix3 p h e) = _
  rw [eT, eZ, eR, hG]
  rfl

/-- The stored weight entry (p, 128 · h + e): the quantised entry e of group h of row p of the block times the column
    scales. -/
theorem k0_pay1_apply (x0 : Vec Ideal S1024x1024 .f32) (x1 : Vec Ideal S1x1024 .f32) (p : Fin 1024) (h : Fin 8)
    (e : Fin 128) (q : Fin 1024) (hq : q.val = h.val * 128 + e.val) :
    k0_pay1 (F := Ideal) x0 x1 (ix2 p q)
      = wK (fun e' : Fin 128 => x0 (ix2 p ⟨h.val * 128 + e'.val, by omega⟩) * x1 (ix2 (0 : Fin 1) ⟨h.val * 128 + e'.val, by omega⟩)) e := by
  unfold k0_pay1
  have hG := w_group_apply x0 x1 p h
  refine w_quant_apply _ _ _ p h e q hq _ (hG e) ?_ ?_
  · exact (w_step_apply _ p h).trans (congrArg wStep (funext hG))
  · refine w_zero_apply _ _ p h _ ?_ ?_
    · exact (w_min_apply _ p h).trans (congrArg fmin (funext hG))
    · exact (w_step_apply _ p h).trans (congrArg wStep (funext hG))

end Cert.KernelIdeal.PayValue

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.PayX.lean ====
/-
  The activation body's stored value read at an entry.

  With u the row p of the block times the reciprocal column scales, the stored entry (p, d) is the row's quantised
  entry: the row's step is max(1e-5, max |u|) / 127, and the entry is clip(round(u d · (1 / step)), -128, 127) · step.
-/
import proofs.«170529_j14078902796908_2_alg».proof.Proof.Gen.KernelIdeal.Skeleton
import proofs.«170529_j14078902796908_2_alg».proof.Proof.Spec
import proofs.«170529_j14078902796908_2_alg».proof.Proof.LibRowMax
import proofs.«170529_j14078902796908_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.Q Idealize.ShloMosaic Idealize.ShloMosaic.ValueIdx

/-- The block times the reciprocal column scales, at (p, d): the entry times the reciprocal of the scale of column d. -/
theorem act_scaled_apply (x0 : Vec Ideal S256x4096 .f32) (x2 : Vec Ideal S1x4096 .f32) (p : Fin 256) (d : Fin 4096) :
    mulf (shapeCast S256x4096 x0 shapeCasts_S256x4096_S256x4096)
        (broadcastTo S256x4096
          (divf (broadcast S1x4096 (Scalar.ofBits (F := Ideal) .f32 0x3F800000#32))
            (shapeCast S1x4096 x2 shapeCasts_S1x4096_S1x4096))
          broadcasts_S1x4096_S256x4096) (ix2 p d)
      = x0 (ix2 p d) * Ideal.div (lit 0x3F800000#32) (x2 (ix2 (0 : Fin 1) d)) := by
  rw [shapeCast_self, shapeCast_self]
  exact congrArg (fun t => x0 (ix2 p d) * t) (broadcastTo_1b_ab_apply _ _ p d)

/-- The column of row steps at (p, 0): the step of row p, max(1e-5, max |row|) / 127. -/
theorem act_step_apply (X : FVec Ideal S256x4096 .f32) (p : Fin 256) :
    divf
        (maximumf (broadcast S256x1 (Scalar.ofBits (F := Ideal) .f32 0x3727C5AC#32))
          (shapeCast S256x1
            (multiReduction (F := Ideal) .maximumf [1] S256 (absf X) 0xFF800000#32 reduces_S256x4096_S256 (.inl rfl) rfl)
            shapeCasts_S256_S256x1))
        (broadcast S256x1 (Scalar.ofBits (F := Ideal) .f32 0x42FE0000#32)) (ix2 p (0 : Fin 1))
      = actStep (fun d' : Fin 4096 => X (ix2 p d')) := by
  rw [divf_apply, maximumf_apply, broadcast_apply, broadcast_apply]
  unfold actStep
  refine congrArg (fun t => Ideal.div (max (lit 0x3727C5AC#32) t) (lit 0x42FE0000#32)) ?_
  refine (Cert.Keepdims.column_cast_apply _ _ p).trans ?_
  exact Cert.RowMax.max_over_columns_apply (absf X) _ _ _ p

/-- From the scaled block X and the column S of row steps to the stored entry: clip(round(X · (1 / S)), -128, 127) · S,
    read at (p, d) where X is u d and S is the step of u. -/
theorem act_quant_apply (X : FVec Ideal S256x4096 .f32) (S : FVec Ideal S256x1 .f32) (p : Fin 256) (d : Fin 4096)
    (u : Fin 4096 → EReal) (hX : X (ix2 p d) = u d) (hS : S (ix2 p (0 : Fin 1)) = actStep u) :
    truncf .bf16
        (mulf
          (minimumf (broadcast S256x4096 (Scalar.ofBits (F := Ideal) .f32 0x42FE0000#32))
            (maximumf (broadcast S256x4096 (Scalar.ofBits (F := Ideal) .f32 0xC3000000#32))
              (roundeven
                (mulf X
                  (broadcastTo S256x4096 (divf (broadcast S256x1 (Scalar.ofBits (F := Ideal) .f32 0x3F800000#32)) S)
                    broadcasts_S256x1_S256x4096)))))
          (broadcastTo S256x4096 S broadcasts_S256x1_S256x4096))
        bitsLt_bf16_f32 (ix2 p d)
      = actK u d := by
  have eS : broadcastTo S256x4096 S broadcasts_S256x1_S256x4096 (ix2 p d) = actStep u :=
    (Cert.Keepdims.column_repeat_apply S _ p d).trans hS
  have eR : broadcastTo S256x4096 (divf (broadcast S256x1 (Scalar.ofBits (F := Ideal) .f32 0x3F800000#32)) S)
      broadcasts_S256x1_S256x4096 (ix2 p d) = Ideal.div (lit 0x3F800000#32) (actStep u) :=
    (Cert.Keepdims.column_repeat_apply _ _ p d).trans (congrArg (Ideal.div (lit 0x3F800000#32)) hS)
  show min (lit 0x42FE0000#32) (max (lit 0xC3000000#32) (rnd (X (ix2 p d) *
      broadcastTo S256x4096 (divf (broadcast S256x1 (Scalar.ofBits (F := Ideal) .f32 0x3F800000#32)) S)
        broadcasts_S256x1_S256x4096 (ix2 p d)))) * broadcastTo S256x4096 S broadcasts_S256x1_S256x4096 (ix2 p d) = _
  rw [eS, eR, hX]
  rfl

/-- The stored activation entry (p, d): the quantised entry d of row p of the block times the reciprocal scales. -/
theorem k1_pay1_apply (x0 : Vec Ideal S256x4096 .f32) (x2 : Vec Ideal S1x4096 .f32) (p : Fin 256) (d : Fin 4096) :
    k1_pay1 (F := Ideal) x0 x2 (ix2 p d)
      = actK (fun d' : Fin 4096 => x0 (ix2 p d') * Ideal.div (lit 0x3F800000#32) (x2 (ix2 (0 : Fin 1) d'))) d := by
  unfold k1_pay1
  refine act_quant_apply _ _ p d _ (act_scaled_apply x0 x2 p d) ?_
  refine (act_step_apply _ p).trans ?_
  exact congrArg actStep (funext fun d' => act_scaled_apply x0 x2 p d')

end Cert.KernelIdeal.PayValue

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.PayMM.lean ====
/-
  The matmul body's three stored values read at an entry: the zero block, the accumulator plus the product of the
  activation block with the weight block's rows, and the accumulator plus the bias row.
-/
import proofs.«170529_j14078902796908_2_alg».proof.Proof.Gen.KernelIdeal.Skeleton
import proofs.«170529_j14078902796908_2_alg».proof.Proof.Spec
import proofs.«170529_j14078902796908_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.Q Idealize.ShloMosaic Idealize.ShloMosaic.ValueIdx

/-- The zero block is 0 at every entry. -/
theorem k2_pay1_apply (j : S2048x1024.Idx) : k2_pay1 (F := Ideal) j = 0 := by
  unfold k2_pay1
  rw [shapeCast_self]
  exact Ideal.ofBits_zero_f32

/-- The accumulated block at (p, q): the accumulator there plus the dot product of row p of the activation block with
    row q of the weight block. -/
theorem k2_pay2_apply (xs : Vec Ideal S2048x1024 .f32) (x0 : Vec Ideal S2048x1024 .bf16) (x1 : Vec Ideal S1024x1024 .bf16)
    (p : Fin 2048) (q : Fin 1024) :
    k2_pay2 (F := Ideal) xs x0 x1 (ix2 p q) = xs (ix2 p q) + ∑ k : Fin 1024, x0 (ix2 p k) * x1 (ix2 q k) := by
  unfold k2_pay2
  rw [shapeCast_self, shapeCast_self, shapeCast_self]
  refine congrArg (fun t => xs (ix2 p q) + t) ?_
  exact Cert.MatmulRows.zero_acc_apply dot_S2048x1024_S1024x1024_S2048x1024_1_1_0_0_n_n_wf none x0 x1 p q

/-- The flushed block at (p, q): the accumulator there plus the bias row at q. -/
theorem k2_pay3_apply (x16 : Vec Ideal S2048x1024 .f32) (x17 : Vec Ideal S1x1024 .f32) (p : Fin 2048) (q : Fin 1024) :
    k2_pay3 (F := Ideal) x16 x17 (ix2 p q) = x16 (ix2 p q) + x17 (ix2 (0 : Fin 1) q) := by
  unfold k2_pay3
  rw [shapeCast_self]
  refine congrArg (fun t => x16 (ix2 p q) + t) ?_
  exact broadcastTo_1b_ab_apply x17 _ p q

end Cert.KernelIdeal.PayValue

end
-- ==== Proof.PayValue.lean ====
/-
  The three bodies' stored values read at an entry, collected: the weight quantisation of a group of 128 columns
  (k0_pay1_apply), the activation quantisation of a row (k1_pay1_apply), and the accumulated product with its zero start
  and its bias flush (k2_pay1_apply, k2_pay2_apply, k2_pay3_apply).
-/
import proofs.«170529_j14078902796908_2_alg».proof.Proof.PayW
import proofs.«170529_j14078902796908_2_alg».proof.Proof.PayX
import proofs.«170529_j14078902796908_2_alg».proof.Proof.PayMM
-- ==== Proof.KVal01.lean ====
/-
  The arrays the first two calls of the kernel leave, as functions of the arrays they find.

  The weight call walks a 4 x 4 grid of 1024 x 1024 blocks of w, row-major, with the matching 1024 entries of the scale
  row; at each point it quantises the block's groups of 128 consecutive entries and writes the block back. A group never
  straddles two blocks (1024 is a multiple of 128), so block entry (p, q) of block (bi, bj) is entry
  (1024 · bi + p, 1024 · bj + q) of one whole-array function: the group d / 128 of row o of w · s, quantised, at offset
  d % 128. The activation call walks 32 blocks of 256 whole rows of x with the whole scale row; a row's quantisation step
  depends on that row only, so block entry (p, d) of block b is entry (256 · b + p, d) of one whole-array function: row r
  of x · (1 / s), quantised. In both calls every point writes its block back and the blocks tile the array, so the array
  ends holding that function.
-/
import proofs.«170529_j14078902796908_2_alg».proof.Proof.FrameR0
import proofs.«170529_j14078902796908_2_alg».proof.Proof.FrameR1
import proofs.«170529_j14078902796908_2_alg».proof.Proof.Spec
import proofs.«170529_j14078902796908_2_alg».proof.Proof.PayValue
import Idealize.ShloMosaic.Lib.Pipeline.Value
import Idealize.ShloMosaic.Lib.ValueIdx

noncomputable section

namespace Cert.KernelIdeal.KVal

open Cert.KernelIdeal Cert.KernelIdeal.Gen Cert.KernelIdeal.Fr Cert.Q
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the quantised weights -/

/-- Entry (o, d) of the quantised weights: the group of 128 consecutive entries of row o of w · s that holds column d,
    quantised, at the column's offset in the group. -/
def G0c (w : S4096x4096.Idx → EReal) (s : S1x4096.Idx → EReal) (o d : Fin 4096) : EReal :=
  wK (fun e : Fin 128 => w (ix2 o (col (grp d) e)) * s (ix2 (0 : Fin 1) (col (grp d) e))) (off d)

/-- The grid is 4 x 4, row-major: point t is block (t / 4, t % 4) of the weights and of the result, and piece t % 4 of the
    scale row. -/
theorem idx_facts0 : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = t.val % 4 :=
  (by decide +kernel : ∀ t : Fin grid0.N, _)

/-- The weight block at point t is rows 1024 · (t / 4) … and columns 1024 · (t % 4) … of the weights. -/
theorem iblk0_0_apply (c : Dev nD) (t : Fin cfg0.N) (y : S1024x1024.Idx) (k : S4096x4096.Idx)
    (hk0 : (k 0).val = t.val / 4 * 1024 + (y 0).val) (hk1 : (k 1).val = t.val % 4 * 1024 + (y 1).val) :
    (iblk0 V c 0 t : Vec Ideal S1024x1024 .f32) y = (V c main_arg1 : S4096x4096.Idx → EReal) k := by
  obtain ⟨e0, e1, -⟩ := idx_facts0 t
  unfold iblk0
  rw [View.read_apply]
  show V c main_arg1 _ = V c main_arg1 _
  refine congrArg _ (funext fun a => Fin.ext ?_)
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The piece of the scale row at point t is columns 1024 · (t % 4) … of the row. -/
theorem iblk0_1_apply (c : Dev nD) (t : Fin cfg0.N) (y : S1x1024.Idx) (k : S1x4096.Idx)
    (hk1 : (k 1).val = t.val % 4 * 1024 + (y 1).val) :
    (iblk0 V c 1 t : Vec Ideal S1x1024 .f32) y = (V c main_v2 : S1x4096.Idx → EReal) k := by
  obtain ⟨-, -, e2, e3, -⟩ := idx_facts0 t
  have hy : (y 0).val < 1 := (y 0).isLt
  have hk : (k 0).val < 1 := (k 0).isLt
  unfold iblk0
  rw [View.read_apply]
  show V c main_v2 _ = V c main_v2 _
  refine congrArg _ (funext fun a => Fin.ext ?_)
  match a with
  | ⟨0, _⟩ => show win0_1.index t (0 : Fin 2) * 1 + 1 * (y 0).val = (k 0).val; rw [e2]; omega
  | ⟨1, _⟩ => show win0_1.index t (1 : Fin 2) * 1024 + 1 * (y 1).val = (k 1).val; rw [e3, hk1]; omega

/-- The body's result on block (bi, bj): when the first operand is that block of w and the second the matching piece of
    the scale row, entry j of the result is entry i of the quantised weights, for the array index i that block entry j
    sits at. A group of 128 columns never straddles two blocks: 1024 is a multiple of 128. -/
theorem blk0_value (w : S4096x4096.Idx → EReal) (s : S1x4096.Idx → EReal)
    (x0 : Vec Ideal S1024x1024 .f32) (x1 : Vec Ideal S1x1024 .f32) (bi bj : ℕ) (hbi : bi < 4) (hbj : bj < 4)
    (h0 : ∀ (y : S1024x1024.Idx) (k : S4096x4096.Idx), (k 0).val = bi * 1024 + (y 0).val →
      (k 1).val = bj * 1024 + (y 1).val → x0 y = w k)
    (h1 : ∀ (y : S1x1024.Idx) (k : S1x4096.Idx), (k 1).val = bj * 1024 + (y 1).val → x1 y = s k)
    (j : S1024x1024.Idx) (i : S4096x4096.Idx) (hi0 : (i 0).val = bi * 1024 + (j 0).val)
    (hi1 : (i 1).val = bj * 1024 + (j 1).val) :
    k0_pay1 (F := Ideal) x0 x1 j = G0c w s (i 0) (i 1) := by
  obtain ⟨p, q, rfl⟩ : ∃ (p q : Fin 1024), j = ix2 p q := ⟨j 0, j 1, eq_ix2 j⟩
  obtain ⟨o, d, rfl⟩ : ∃ (o d : Fin 4096), i = ix2 o d := ⟨i 0, i 1, eq_ix2 i⟩
  have hp := p.isLt
  have hq := q.isLt
  have ho := o.isLt
  have hd := d.isLt
  have hi0' : o.val = bi * 1024 + p.val := hi0
  have hi1' : d.val = bj * 1024 + q.val := hi1
  rw [PayValue.k0_pay1_apply x0 x1 p ⟨q.val / 128, by omega⟩ ⟨q.val % 128, by omega⟩ q
    (by show q.val = q.val / 128 * 128 + q.val % 128; omega)]
  show _ = wK (fun e : Fin 128 => w (ix2 o (col (grp d) e)) * s (ix2 (0 : Fin 1) (col (grp d) e))) (off d)
  have hoff : off d = ⟨q.val % 128, by omega⟩ := Fin.ext (by show d.val % 128 = q.val % 128; omega)
  have hf : (fun e' : Fin 128 => x0 (ix2 p ⟨q.val / 128 * 128 + e'.val, by omega⟩)
        * x1 (ix2 (0 : Fin 1) ⟨q.val / 128 * 128 + e'.val, by omega⟩))
      = fun e : Fin 128 => w (ix2 o (col (grp d) e)) * s (ix2 (0 : Fin 1) (col (grp d) e)) := funext fun e' => by
    have he := e'.isLt
    rw [h0 (ix2 p ⟨q.val / 128 * 128 + e'.val, by omega⟩) (ix2 o (col (grp d) e')) hi0'
        (by show d.val / 128 * 128 + e'.val = bj * 1024 + (q.val / 128 * 128 + e'.val); omega),
      h1 (ix2 (0 : Fin 1) ⟨q.val / 128 * 128 + e'.val, by omega⟩) (ix2 (0 : Fin 1) (col (grp d) e'))
        (by show d.val / 128 * 128 + e'.val = bj * 1024 + (q.val / 128 * 128 + e'.val); omega)]
  rw [hoff, hf]

/-- What point t writes back is its block of the quantised weights. -/
theorem flushed0_eq (c : Dev nD) (t : Fin cfg0.N) :
    (dat0 (F := Ideal) V c).flushed 2 t
      = ((cfg0.win 2).blk t).view.read (Elt Ideal)
          (fun i : S4096x4096.Idx => G0c (V c main_arg1) (V c main_v2) (i 0) (i 1)) := by
  have hN : t.val < 16 := Nat.lt_of_lt_of_eq t.isLt N_0
  obtain ⟨-, -, -, -, e4, e5⟩ := idx_facts0 t
  show (cfg0.win 2).cut (grid0.coords t) ((dat0 (F := Ideal) V c).after 2 t) = _
  rw [after0_2]
  unfold out0_2
  rw [View.canon_unit_zero hz]
  simp only [View.ld_unit_zero (S := S1024x1024) hz, View.ld_unit_zero (S := S1x1024) hz]
  funext j
  exact blk0_value (V c main_arg1) (V c main_v2) (iblk0 V c 0 t) (iblk0 V c 1 t) (t.val / 4) (t.val % 4)
    (by omega) (by omega) (fun y k hk0 hk1 => iblk0_0_apply V c t y k hk0 hk1)
    (fun y k hk1 => iblk0_1_apply V c t y k hk1) ((cfg0.win 2).xinj (grid0.coords t) j) (((cfg0.win 2).blk t).view.emb j)
    (by show win0_2.index t (0 : Fin 2) * 1024 + 1 * (j 0).val = t.val / 4 * 1024 + (j 0).val; rw [e4]; omega)
    (by show win0_2.index t (1 : Fin 2) * 1024 + 1 * (j 1).val = t.val % 4 * 1024 + (j 1).val; rw [e5]; omega)

/-- An index of the array is in point t's block iff each coordinate is in the block's range on its axis. -/
theorem mem_blk0 (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v4).slice (win0_2.rect t)).set ↔ _
  rw [View.set_slice_whole, Rect.mem_set_unit]
  exact Iff.rfl

/-- Every entry (o, d) of the array lies in the block of point 4 · (o / 1024) + d / 1024. -/
theorem cover0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hlt : (i 0).val / 1024 * 4 + (i 1).val / 1024 < cfg0.N := Nat.lt_of_lt_of_eq (by omega) N_0.symm
  obtain ⟨-, -, -, -, e4, e5⟩ := idx_facts0 ⟨(i 0).val / 1024 * 4 + (i 1).val / 1024, hlt⟩
  refine ⟨⟨(i 0).val / 1024 * 4 + (i 1).val / 1024, hlt⟩, flush0_2 _, ?_⟩
  rw [mem_blk0]
  intro a
  match a with
  | ⟨0, _⟩ =>
    show win0_2.index ⟨(i 0).val / 1024 * 4 + (i 1).val / 1024, hlt⟩ (0 : Fin 2) * 1024 ≤ (i 0).val
      ∧ (i 0).val < win0_2.index ⟨(i 0).val / 1024 * 4 + (i 1).val / 1024, hlt⟩ (0 : Fin 2) * 1024 + 1024
    rw [e4]
    show ((i 0).val / 1024 * 4 + (i 1).val / 1024) / 4 * 1024 ≤ (i 0).val
      ∧ (i 0).val < ((i 0).val / 1024 * 4 + (i 1).val / 1024) / 4 * 1024 + 1024
    omega
  | ⟨1, _⟩ =>
    show win0_2.index ⟨(i 0).val / 1024 * 4 + (i 1).val / 1024, hlt⟩ (1 : Fin 2) * 1024 ≤ (i 1).val
      ∧ (i 1).val < win0_2.index ⟨(i 0).val / 1024 * 4 + (i 1).val / 1024, hlt⟩ (1 : Fin 2) * 1024 + 1024
    rw [e5]
    show ((i 0).val / 1024 * 4 + (i 1).val / 1024) % 4 * 1024 ≤ (i 1).val
      ∧ (i 1).val < ((i 0).val / 1024 * 4 + (i 1).val / 1024) % 4 * 1024 + 1024
    omega

/-- After region 0 the result array holds the quantised weights. -/
theorem final0 (c : Dev nD) :
    (dat0 (F := Ideal) V c).arrAt 2 cfg0.N = fun i => G0c (V c main_arg1) (V c main_v2) (i 0) (i 1) :=
  (dat0 (F := Ideal) V c).arrAt_eq_of_cover 2
    (fun i : S4096x4096.Idx => G0c (V c main_arg1) (V c main_v2) (i 0) (i 1))
    (fun t _ => flushed0_eq V c t) cover0

/-! ## Region 1: the quantised activations -/

/-- Entry (r, d) of the quantised activations: row r of x · (1 / s), quantised, at column d. -/
def G1c (x : S8192x4096.Idx → EReal) (s : S1x4096.Idx → EReal) (r : Fin 8192) (d : Fin 4096) : EReal :=
  actK (fun d' : Fin 4096 => x (ix2 r d') * Ideal.div (lit 0x3F800000#32) (s (ix2 (0 : Fin 1) d'))) d

/-- The grid is 32 points: point t is the block of rows 256 · t … of the activations and of the result, and the whole
    scale row. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The activation block at point t is rows 256 · t … of the activations. -/
theorem iblk1_0_apply (c : Dev nD) (t : Fin cfg1.N) (y : S256x4096.Idx) (k : S8192x4096.Idx)
    (hk0 : (k 0).val = t.val * 256 + (y 0).val) (hk1 : (k 1).val = (y 1).val) :
    (iblk1 V c 0 t : Vec Ideal S256x4096 .f32) y = (V c main_v5 : S8192x4096.Idx → EReal) k := by
  obtain ⟨e0, e1, -⟩ := idx_facts1 t
  unfold iblk1
  rw [View.read_apply]
  show V c main_v5 _ = V c main_v5 _
  refine congrArg _ (funext fun a => Fin.ext ?_)
  match a with
  | ⟨0, _⟩ => show win1_0.index t (0 : Fin 2) * 256 + 1 * (y 0).val = (k 0).val; rw [e0, hk0]; omega
  | ⟨1, _⟩ => show win1_0.index t (1 : Fin 2) * 4096 + 1 * (y 1).val = (k 1).val; rw [e1, hk1]; omega

/-- The scale row's block at every point is the whole row. -/
theorem iblk1_1_apply (c : Dev nD) (t : Fin cfg1.N) (y k : S1x4096.Idx) (hk1 : (k 1).val = (y 1).val) :
    (iblk1 V c 1 t : Vec Ideal S1x4096 .f32) y = (V c main_v2 : S1x4096.Idx → EReal) k := by
  obtain ⟨-, -, e2, e3, -⟩ := idx_facts1 t
  have hy : (y 0).val < 1 := (y 0).isLt
  have hk : (k 0).val < 1 := (k 0).isLt
  unfold iblk1
  rw [View.read_apply]
  show V c main_v2 _ = V c main_v2 _
  refine congrArg _ (funext fun a => Fin.ext ?_)
  match a with
  | ⟨0, _⟩ => show win1_1.index t (0 : Fin 2) * 1 + 1 * (y 0).val = (k 0).val; rw [e2]; omega
  | ⟨1, _⟩ => show win1_1.index t (1 : Fin 2) * 4096 + 1 * (y 1).val = (k 1).val; rw [e3, hk1]; omega

/-- The body's result on the block of rows 256 · b …: when the first operand is that block of x and the second the scale
    row, entry j of the result is entry i of the quantised activations, for the array index i that block entry j sits
    at. A block holds whole rows, so a row's step is computed from the row itself. -/
theorem blk1_value (x : S8192x4096.Idx → EReal) (s : S1x4096.Idx → EReal)
    (x0 : Vec Ideal S256x4096 .f32) (x1 : Vec Ideal S1x4096 .f32) (b : ℕ) (hb : b < 32)
    (h0 : ∀ (y : S256x4096.Idx) (k : S8192x4096.Idx), (k 0).val = b * 256 + (y 0).val →
      (k 1).val = (y 1).val → x0 y = x k)
    (h1 : ∀ (y k : S1x4096.Idx), (k 1).val = (y 1).val → x1 y = s k)
    (j : S256x4096.Idx) (i : S8192x4096.Idx) (hi0 : (i 0).val = b * 256 + (j 0).val)
    (hi1 : (i 1).val = (j 1).val) :
    k1_pay1 (F := Ideal) x0 x1 j = G1c x s (i 0) (i 1) := by
  obtain ⟨p, q, rfl⟩ : ∃ (p : Fin 256) (q : Fin 4096), j = ix2 p q := ⟨j 0, j 1, eq_ix2 j⟩
  obtain ⟨r, d, rfl⟩ : ∃ (r : Fin 8192) (d : Fin 4096), i = ix2 r d := ⟨i 0, i 1, eq_ix2 i⟩
  have hi0' : r.val = b * 256 + p.val := hi0
  have hdq : d = q := Fin.ext hi1
  subst hdq
  rw [PayValue.k1_pay1_apply x0 x1 p d]
  show _ = actK (fun d' : Fin 4096 => x (ix2 r d') * Ideal.div (lit 0x3F800000#32) (s (ix2 (0 : Fin 1) d'))) d
  have hf : (fun d' : Fin 4096 => x0 (ix2 p d') * Ideal.div (lit 0x3F800000#32) (x1 (ix2 (0 : Fin 1) d')))
      = fun d' : Fin 4096 => x (ix2 r d') * Ideal.div (lit 0x3F800000#32) (s (ix2 (0 : Fin 1) d')) :=
    funext fun d' => by
      rw [h0 (ix2 p d') (ix2 r d') hi0' rfl, h1 (ix2 (0 : Fin 1) d') (ix2 (0 : Fin 1) d') rfl]
  rw [hf]

/-- What point t writes back is its block of the quantised activations. -/
theorem flushed1_eq (c : Dev nD) (t : Fin cfg1.N) :
    (dat1 (F := Ideal) V c).flushed 2 t
      = ((cfg1.win 2).blk t).view.read (Elt Ideal)
          (fun i : S8192x4096.Idx => G1c (V c main_v5) (V c main_v2) (i 0) (i 1)) := by
  have hN : t.val < 32 := Nat.lt_of_lt_of_eq t.isLt N_1
  obtain ⟨-, -, -, -, e4, e5⟩ := idx_facts1 t
  show (cfg1.win 2).cut (grid1.coords t) ((dat1 (F := Ideal) V c).after 2 t) = _
  rw [after1_2]
  unfold out1_2
  rw [View.canon_unit_zero hz]
  simp only [View.ld_unit_zero (S := S256x4096) hz, View.ld_unit_zero (S := S1x4096) hz]
  funext j
  exact blk1_value (V c main_v5) (V c main_v2) (iblk1 V c 0 t) (iblk1 V c 1 t) t.val hN
    (fun y k hk0 hk1 => iblk1_0_apply V c t y k hk0 hk1)
    (fun y k hk1 => iblk1_1_apply V c t y k hk1) ((cfg1.win 2).xinj (grid1.coords t) j) (((cfg1.win 2).blk t).view.emb j)
    (by show win1_2.index t (0 : Fin 2) * 256 + 1 * (j 0).val = t.val * 256 + (j 0).val; rw [e4]; omega)
    (by show win1_2.index t (1 : Fin 2) * 4096 + 1 * (j 1).val = (j 1).val; rw [e5]; omega)

/-- An index of the array is in point t's block iff each coordinate is in the block's range on its axis. -/
theorem mem_blk1 (t : Fin cfg1.N) (i : S8192x4096.Idx) :
    i ∈ ((cfg1.win 2).blk t).view.set ↔ ∀ a : Fin 2, win1_2.index t a * S256x4096.size a ≤ (i a).val
      ∧ (i a).val < win1_2.index t a * S256x4096.size a + S256x4096.size a := by
  show i ∈ ((View.whole main_v6).slice (win1_2.rect t)).set ↔ _
  rw [View.set_slice_whole, Rect.mem_set_unit]
  exact Iff.rfl

/-- Every entry (r, d) of the array lies in the block of point r / 256. -/
theorem cover1 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  have hlt : (i 0).val / 256 < cfg1.N := Nat.lt_of_lt_of_eq (by omega) N_1.symm
  obtain ⟨-, -, -, -, e4, e5⟩ := idx_facts1 ⟨(i 0).val / 256, hlt⟩
  refine ⟨⟨(i 0).val / 256, hlt⟩, flush1_2 _, ?_⟩
  rw [mem_blk1]
  intro a
  match a with
  | ⟨0, _⟩ =>
    show win1_2.index ⟨(i 0).val / 256, hlt⟩ (0 : Fin 2) * 256 ≤ (i 0).val
      ∧ (i 0).val < win1_2.index ⟨(i 0).val / 256, hlt⟩ (0 : Fin 2) * 256 + 256
    rw [e4]
    show (i 0).val / 256 * 256 ≤ (i 0).val ∧ (i 0).val < (i 0).val / 256 * 256 + 256
    omega
  | ⟨1, _⟩ =>
    show win1_2.index ⟨(i 0).val / 256, hlt⟩ (1 : Fin 2) * 4096 ≤ (i 1).val
      ∧ (i 1).val < win1_2.index ⟨(i 0).val / 256, hlt⟩ (1 : Fin 2) * 4096 + 4096
    rw [e5]
    omega

/-- After region 1 the result array holds the quantised activations. -/
theorem final1 (c : Dev nD) :
    (dat1 (F := Ideal) V c).arrAt 2 cfg1.N = fun i => G1c (V c main_v5) (V c main_v2) (i 0) (i 1) :=
  (dat1 (F := Ideal) V c).arrAt_eq_of_cover 2
    (fun i : S8192x4096.Idx => G1c (V c main_v5) (V c main_v2) (i 0) (i 1))
    (fun t _ => flushed1_eq V c t) cover1

end Cert.KernelIdeal.KVal

end
-- ==== Proof.R2Pieces.lean ====
/- The third call of the program: what each control case of the body leaves in the accumulator and in the output's
   staging buffer, in terms of the body's arithmetic at whole-block loads; and the same read point by point. -/
import proofs.«170529_j14078902796908_2_alg».proof.Proof.R2Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block access, however spelt, are zero. -/
theorem hz2 : (![0, 0] : Fin 2 → Nat) = fun _ => 0 := by funext a; fin_cases a <;> rfl

/-- Where the accumulator is started afresh it ends at the product of the two input blocks added to zero. -/
theorem sout2_A_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    sout2_A c i arg3 harg3 arg4 harg4 arg5 harg5 arg6 harg6 arg7 harg7 hc0 hc1 x0 x1 x2 = k2_pay2 (k2_pay1 (F := F)) x0 x1 := by
  unfold sout2_A
  rw [View.read_writes_eq_canon _ _ _ (scover2_A c i arg3 harg3 arg4 harg4 arg5 harg5 arg6 harg6 arg7 harg7 hc0 hc1 x0 x1 x2)]
  unfold kernelRun2_A
  dsimp only
  sl_unfold_words
  rw [View.canon_cons_unit_zero hz2]
  simp only [View.readCov_unit_zero (S := S2048x1024) _ hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]
  try rfl

/-- Where neither condition holds the accumulator ends at the product of the two input blocks added to what it held. -/
theorem sout2_B_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) :
    sout2_B c i arg3 harg3 arg4 harg4 arg5 harg5 arg6 harg6 arg7 harg7 hc0 hc1 x0 x1 x2 xs = k2_pay2 xs x0 x1 := by
  unfold sout2_B
  rw [View.read_writes_eq_canon _ _ _ (scover2_B c i arg3 harg3 arg4 harg4 arg5 harg5 arg6 harg6 arg7 harg7 hc0 hc1 x0 x1 x2 xs)]
  unfold kernelRun2_B
  dsimp only
  sl_unfold_words
  rw [View.canon_unit_zero hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]
  try rfl

/-- At the last step of a reduction the accumulator ends at the product added to what it held, -/
theorem sout2_C_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) :
    sout2_C c i arg3 harg3 arg4 harg4 arg5 harg5 arg6 harg6 arg7 harg7 hc0 hc1 x0 x1 x2 xs = k2_pay2 xs x0 x1 := by
  unfold sout2_C
  rw [View.read_writes_eq_canon _ _ _ (scover2_C c i arg3 harg3 arg4 harg4 arg5 harg5 arg6 harg6 arg7 harg7 hc0 hc1 x0 x1 x2 xs)]
  unfold kernelRun2_C
  dsimp only
  sl_unfold_words
  rw [View.canon_unit_zero hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]
  try rfl

/-- and the output's buffer at that plus the bias row. -/
theorem out2_C_3_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) :
    out2_C_3 c i arg3 harg3 arg4 harg4 arg5 harg5 arg6 harg6 arg7 harg7 hc0 hc1 x0 x1 x2 xs = k2_pay3 (k2_pay2 xs x0 x1) x2 := by
  unfold out2_C_3
  rw [View.read_writes_eq_canon _ _ _ (cover2_C_3 c i arg3 harg3 arg4 harg4 arg5 harg5 arg6 harg6 arg7 harg7 hc0 hc1 x0 x1 x2 xs)]
  unfold kernelRun2_C
  dsimp only
  sl_unfold_words
  rw [View.canon_unit_zero hz2]
  simp only [View.readCov_unit_zero (S := S2048x1024) _ hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]
  try rfl

section Region2
variable (V : (c : Dev nD) → (b : Ref sig .tc) → Buf (Elt F) ((c : Thread nD τ).loc b))

/-- At the first step of a reduction (innermost coordinate 0) the accumulator ends at the product of the point's two
    input blocks added to zero. -/
theorem outsAt2_acc_first (c : Dev nD) (t : Fin cfg2.N) (h0 : t.val % 4 = 0) :
    (outsAt2 V c t.val t.isLt).2 = k2_pay2 (k2_pay1 (F := F)) (iblk2 V c 0 t) (iblk2 V c 1 t) := by
  have h1 : ¬t.val % 4 = 3 := by omega
  rw [outsAt2_A V c t h0 h1]
  dsimp only
  exact sout2_A_eq (F := F) c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)

/-- At a later step the accumulator ends at the product of the point's two input blocks added to what the point before
    left in it. -/
theorem outsAt2_acc_next (c : Dev nD) (t : Fin cfg2.N) (h0 : ¬t.val % 4 = 0) :
    (outsAt2 V c t.val t.isLt).2 = k2_pay2 (outsAt2 V c (t.val - 1) (Nat.lt_of_le_of_lt (Nat.sub_le _ _) t.isLt)).2 (iblk2 V c 0 t) (iblk2 V c 1 t) := by
  by_cases h1 : t.val % 4 = 3
  · rw [outsAt2_C V c t h0 h1]
    dsimp only
    exact sout2_C_eq (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2
  · rw [outsAt2_B V c t h0 h1]
    dsimp only
    exact sout2_B_eq (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2

/-- At the last step of a reduction (innermost coordinate 3) the output's buffer ends at the accumulator plus the bias row. -/
theorem outsAt2_out_last (c : Dev nD) (t : Fin cfg2.N) (h1 : t.val % 4 = 3) :
    (outsAt2 V c t.val t.isLt).1 = k2_pay3 (outsAt2 V c t.val t.isLt).2 (iblk2 V c 2 t) := by
  have h0 : ¬t.val % 4 = 0 := by omega
  rw [outsAt2_C V c t h0 h1]
  dsimp only
  exact (out2_C_3_eq (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2).trans
    (congrArg (fun a => k2_pay3 a (iblk2 V c 2 t))
      (sout2_C_eq (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2).symm)

end Region2

end Cert.KernelIdeal.Fr

end
-- ==== Proof.R2Closed.lean ====
/- The third call of the program: at the last step of each reduction, the accumulator and the output's buffer as the
   four steps' arithmetic laid over one another. -/
import proofs.«170529_j14078902796908_2_alg».proof.Proof.R2Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- The accumulator after a position depends on the position only. -/
theorem outsAt2_snd_congr (c : Dev nD) {n n' : ℕ} (e : n = n') (h : n < cfg2.N) (h' : n' < cfg2.N) :
    (outsAt2 V c n h).2 = (outsAt2 V c n' h').2 := by subst e; rfl

/-- The point `k` positions before `t` (the first point, if there are fewer). -/
def tback (t : Fin cfg2.N) (k : ℕ) : Fin cfg2.N := ⟨t.val - k, Nat.lt_of_le_of_lt (Nat.sub_le _ _) t.isLt⟩

theorem tback_val (t : Fin cfg2.N) (k : ℕ) : (tback t k).val = t.val - k := rfl

/-- At the last step of a reduction the accumulator holds the four steps' products added, in order, to zero. -/
theorem outsAt2_acc_closed (c : Dev nD) (t : Fin cfg2.N) (h1 : t.val % 4 = 3) :
    (outsAt2 V c t.val t.isLt).2 = k2_pay2 (k2_pay2 (k2_pay2 (k2_pay2 (k2_pay1 (F := F)) (iblk2 V c 0 (tback t 3)) (iblk2 V c 1 (tback t 3))) (iblk2 V c 0 (tback t 2)) (iblk2 V c 1 (tback t 2))) (iblk2 V c 0 (tback t 1)) (iblk2 V c 1 (tback t 1))) (iblk2 V c 0 t) (iblk2 V c 1 t) := by
  have e0 := outsAt2_acc_next V c t (by omega)
  have e1 := outsAt2_acc_next V c (tback t 1) (by rw [tback_val]; omega)
  have e2 := outsAt2_acc_next V c (tback t 2) (by rw [tback_val]; omega)
  have e3 := outsAt2_acc_first V c (tback t 3) (by rw [tback_val]; omega)
  refine e0.trans (congrArg (fun a => k2_pay2 a (iblk2 V c 0 t) (iblk2 V c 1 t)) ?_)
  refine (outsAt2_snd_congr V c (tback_val t 1).symm _ (tback t 1).isLt).trans ?_
  refine e1.trans (congrArg (fun a => k2_pay2 a (iblk2 V c 0 (tback t 1)) (iblk2 V c 1 (tback t 1))) ?_)
  refine (outsAt2_snd_congr V c (by rw [tback_val, tback_val]; omega) _ (tback t 2).isLt).trans ?_
  refine e2.trans (congrArg (fun a => k2_pay2 a (iblk2 V c 0 (tback t 2)) (iblk2 V c 1 (tback t 2))) ?_)
  refine (outsAt2_snd_congr V c (by rw [tback_val, tback_val]; omega) _ (tback t 3).isLt).trans ?_
  exact e3

/-- and the output's buffer that plus the bias row. -/
theorem outsAt2_out_closed (c : Dev nD) (t : Fin cfg2.N) (h1 : t.val % 4 = 3) :
    (outsAt2 V c t.val t.isLt).1 = k2_pay3 (k2_pay2 (k2_pay2 (k2_pay2 (k2_pay2 (k2_pay1 (F := F)) (iblk2 V c 0 (tback t 3)) (iblk2 V c 1 (tback t 3))) (iblk2 V c 0 (tback t 2)) (iblk2 V c 1 (tback t 2))) (iblk2 V c 0 (tback t 1)) (iblk2 V c 1 (tback t 1))) (iblk2 V c 0 t) (iblk2 V c 1 t)) (iblk2 V c 2 t) :=
  (outsAt2_out_last V c t h1).trans (congrArg (fun a => k2_pay3 a (iblk2 V c 2 t)) (outsAt2_acc_closed V c t h1))

end Region2

end Cert.KernelIdeal.Fr

end
-- ==== Proof.KVal2.lean ====
/- The third call of the program at the ideal reals: from what each point leaves in the output's buffer to the whole
   output array — every entry the four partial products of its row of activations and its row of weights added in order
   to zero, plus the bias. -/
import proofs.«170529_j14078902796908_2_alg».proof.Proof.R2Closed
import proofs.«170529_j14078902796908_2_alg».proof.Proof.PayMM
import Idealize.ShloMosaic.Lib.Pipeline.Value
import Idealize.ShloMosaic.Lib.ValueIdx

set_option maxRecDepth 16384

noncomputable section

open scoped BigOperators

namespace Cert.KernelIdeal.KVal

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The value the matmul with bias computes, entry by entry -/

/-- The partial product over the `kb`-th block of 1024 columns. -/
def S2 (X : S8192x4096.Idx → EReal) (Wq : S4096x4096.Idx → EReal) (r : Fin 8192) (o : Fin 4096) (kb : Fin 4) : EReal :=
  ∑ k : Fin 1024, X (ix2 r ⟨kb.val * 1024 + k.val, by omega⟩) * Wq (ix2 o ⟨kb.val * 1024 + k.val, by omega⟩)

/-- The four partial products added in order to zero, plus the bias. -/
def G2c (X : S8192x4096.Idx → EReal) (Wq : S4096x4096.Idx → EReal) (B : S1x4096.Idx → EReal) (r : Fin 8192) (o : Fin 4096) : EReal :=
  ((((0 + S2 X Wq r o 0) + S2 X Wq r o 1) + S2 X Wq r o 2) + S2 X Wq r o 3) + B (ix2 (0 : Fin 1) o)

/-! ## The index maps in closed form -/

/-- Each window's block index at point `t`, in terms of the point's number (checked at each of the 64 points): the point
    is row-block `t / 16`, column-block `t / 4 % 4`, reduction step `t % 4`. -/
theorem idx_closed2 : ∀ t : Fin cfg2.N,
      win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N,
      win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4)

/-! ## A block's entry is an entry of its array -/

/-- The activations' block at point `t`, entry (p, k): the array at row `t / 16 * 2048 + p`, column `t % 4 * 1024 + k`. -/
theorem blk0_at (c : Dev nD) (t : Fin cfg2.N) (p : Fin 2048) (k : Fin 1024) (r : Fin 8192) (col : Fin 4096)
    (hr : r.val = t.val / 16 * 2048 + p.val) (hc : col.val = t.val % 4 * 1024 + k.val) :
    iblk2 V c 0 t (ix2 p k) = V c main_v6 (ix2 r col) := by
  obtain ⟨e00, e01, -⟩ := idx_closed2 t
  show V c main_v6 (((cfg2.win 0).blk t).view.emb (ix2 p k)) = V c main_v6 (ix2 r col)
  refine congrArg (V c main_v6) ?_
  funext a; apply Fin.ext
  match a with
  | ⟨0, _⟩ => show win2_0.index t (0 : Fin 2) * 2048 + 1 * p.val = r.val; omega
  | ⟨1, _⟩ => show win2_0.index t (1 : Fin 2) * 1024 + 1 * k.val = col.val; omega

/-- The weights' block at point `t`, entry (q, k): the array at row `t / 4 % 4 * 1024 + q`, column `t % 4 * 1024 + k`. -/
theorem blk1_at (c : Dev nD) (t : Fin cfg2.N) (q : Fin 1024) (k : Fin 1024) (o : Fin 4096) (col : Fin 4096)
    (ho : o.val = t.val / 4 % 4 * 1024 + q.val) (hc : col.val = t.val % 4 * 1024 + k.val) :
    iblk2 V c 1 t (ix2 q k) = V c main_v4 (ix2 o col) := by
  obtain ⟨-, -, e10, e11, -⟩ := idx_closed2 t
  show V c main_v4 (((cfg2.win 1).blk t).view.emb (ix2 q k)) = V c main_v4 (ix2 o col)
  refine congrArg (V c main_v4) ?_
  funext a; apply Fin.ext
  match a with
  | ⟨0, _⟩ => show win2_1.index t (0 : Fin 2) * 1024 + 1 * q.val = o.val; omega
  | ⟨1, _⟩ => show win2_1.index t (1 : Fin 2) * 1024 + 1 * k.val = col.val; omega

/-- The bias row's block at point `t`, entry (0, q): the array at column `t / 4 % 4 * 1024 + q`. -/
theorem blk2_at (c : Dev nD) (t : Fin cfg2.N) (q : Fin 1024) (o : Fin 4096)
    (ho : o.val = t.val / 4 % 4 * 1024 + q.val) :
    iblk2 V c 2 t (ix2 (0 : Fin 1) q) = V c main_v3 (ix2 (0 : Fin 1) o) := by
  obtain ⟨-, -, -, -, e20, e21, -⟩ := idx_closed2 t
  show V c main_v3 (((cfg2.win 2).blk t).view.emb (ix2 (0 : Fin 1) q)) = V c main_v3 (ix2 (0 : Fin 1) o)
  refine congrArg (V c main_v3) ?_
  funext a; apply Fin.ext
  match a with
  | ⟨0, _⟩ => show win2_2.index t (0 : Fin 2) * 1 + 1 * (0 : Fin 1).val = (0 : Fin 1).val; omega
  | ⟨1, _⟩ => show win2_2.index t (1 : Fin 2) * 1024 + 1 * q.val = o.val; omega

/-- The output's block at point `t`, entry j, sits in the array at row `t / 16 * 2048 + j 0`, column `t / 4 % 4 * 1024 + j 1`. -/
theorem emb3_at (t : Fin cfg2.N) (j : S2048x1024.Idx) (r : Fin 8192) (o : Fin 4096)
    (hr : r.val = t.val / 16 * 2048 + (j 0).val) (ho : o.val = t.val / 4 % 4 * 1024 + (j 1).val) :
    ((cfg2.win 3).blk t).view.emb j = ix2 r o := by
  obtain ⟨-, -, -, -, -, -, e30, e31⟩ := idx_closed2 t
  funext a; apply Fin.ext
  match a with
  | ⟨0, _⟩ => show win2_3.index t (0 : Fin 2) * 2048 + 1 * (j 0).val = r.val; omega
  | ⟨1, _⟩ => show win2_3.index t (1 : Fin 2) * 1024 + 1 * (j 1).val = o.val; omega

/-! ## The four steps of a reduction -/

/-- Step `kb` of the reduction whose last step is point `t` ran at the point `tb` that is `3 - kb` positions before `t`:
    the product formed there is the `kb`-th partial product of the output entry's row and column. -/
theorem S2_at (c : Dev nD) (t : Fin cfg2.N) (hf : t.val % 4 = 3) (kb : Fin 4) (tb : Fin cfg2.N) (htb : tb.val + 3 = t.val + kb.val)
    (p : Fin 2048) (q : Fin 1024) (r : Fin 8192) (o : Fin 4096)
    (hr : r.val = t.val / 16 * 2048 + p.val) (ho : o.val = t.val / 4 % 4 * 1024 + q.val)
    (x0 : Vec Ideal S2048x1024 .bf16) (x1 : Vec Ideal S1024x1024 .bf16)
    (h0 : x0 = iblk2 V c 0 tb) (h1 : x1 = iblk2 V c 1 tb) :
    (∑ k : Fin 1024, x0 (ix2 p k) * x1 (ix2 q k)) = S2 (V c main_v6) (V c main_v4) r o kb := by
  subst h0 h1
  unfold S2
  have hkb : kb.val < 4 := kb.isLt
  refine Finset.sum_congr rfl (fun k _ => ?_)
  have hk : k.val < 1024 := k.isLt
  rw [blk0_at V c tb p k r ⟨kb.val * 1024 + k.val, by omega⟩ (by omega) (by show kb.val * 1024 + k.val = _; omega),
      blk1_at V c tb q k o ⟨kb.val * 1024 + k.val, by omega⟩ (by omega) (by show kb.val * 1024 + k.val = _; omega)]

/-- At the last step `t` of a reduction the output's buffer holds, at entry (p, q), the value of the array's entry it
    is written back to. -/
theorem out_at (c : Dev nD) (t : Fin cfg2.N) (hf : t.val % 4 = 3) (p : Fin 2048) (q : Fin 1024) (r : Fin 8192) (o : Fin 4096)
    (hr : r.val = t.val / 16 * 2048 + p.val) (ho : o.val = t.val / 4 % 4 * 1024 + q.val) :
    (outsAt2 V c t.val t.isLt).1 (ix2 p q) = G2c (V c main_v6) (V c main_v4) (V c main_v3) r o := by
  have s0 := S2_at V c t hf 0 (tback t 3) (by show t.val - 3 + 3 = t.val + 0; omega) p q r o hr ho (iblk2 V c 0 (tback t 3)) (iblk2 V c 1 (tback t 3)) rfl rfl
  have s1 := S2_at V c t hf 1 (tback t 2) (by show t.val - 2 + 3 = t.val + 1; omega) p q r o hr ho (iblk2 V c 0 (tback t 2)) (iblk2 V c 1 (tback t 2)) rfl rfl
  have s2 := S2_at V c t hf 2 (tback t 1) (by show t.val - 1 + 3 = t.val + 2; omega) p q r o hr ho (iblk2 V c 0 (tback t 1)) (iblk2 V c 1 (tback t 1)) rfl rfl
  have s3 := S2_at V c t hf 3 t (by show t.val + 3 = t.val + 3; rfl) p q r o hr ho (iblk2 V c 0 t) (iblk2 V c 1 t) rfl rfl
  have hb := blk2_at V c t q o ho
  rw [outsAt2_out_closed V c t hf]
  rw [PayValue.k2_pay3_apply, PayValue.k2_pay2_apply, PayValue.k2_pay2_apply, PayValue.k2_pay2_apply, PayValue.k2_pay2_apply,
    PayValue.k2_pay1_apply]
  unfold G2c
  rw [← s0, ← s1, ← s2, ← s3, ← hb]

/-! ## From blocks to the array -/

/-- The output array the region leaves: the matmul with bias of the three input arrays as the region finds them. -/
abbrev Garr (c : Dev nD) : S8192x4096.Idx → EReal :=
  fun i => G2c (V c main_v6) (V c main_v4) (V c main_v3) (i 0) (i 1)

/-- What a point that writes back writes is its block of that array. -/
theorem flushed3_eq (c : Dev nD) (t : Fin cfg2.N) (hf : (cfg2.win 3).flush t = true) :
    (dat2 (F := Ideal) V c).flushed 3 t = ((cfg2.win 3).blk t).view.read (Elt Ideal) (Garr V c) := by
  have h3 : t.val % 4 = 3 := (flush2_3 t).mp hf
  have hN : t.val < 64 := lt_of_lt_of_eq t.isLt N_2
  show (cfg2.win 3).cut (grid2.coords t) ((dat2 V c).after 3 t) = _
  rw [after2_3]
  funext j
  obtain ⟨p, q, rfl⟩ : ∃ (p : Fin 2048) (q : Fin 1024), j = ix2 p q := ⟨j 0, j 1, eq_ix2 j⟩
  have hp : p.val < 2048 := p.isLt
  have hq : q.val < 1024 := q.isLt
  show (outsAt2 V c t.val t.isLt).1 (ix2 p q) = Garr V c (((cfg2.win 3).blk t).view.emb (ix2 p q))
  rw [emb3_at t (ix2 p q) ⟨t.val / 16 * 2048 + p.val, by omega⟩ ⟨t.val / 4 % 4 * 1024 + q.val, by omega⟩ rfl rfl]
  exact out_at V c t h3 p q _ _ rfl rfl

/-- An index of the array is in point `t`'s block iff each coordinate is in the block's range on its axis. -/
theorem mem_blk3 (t : Fin cfg2.N) (i : S8192x4096.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v7).slice (win2_3.rect t)).set ↔ _
  rw [View.set_slice_whole, Rect.mem_set_unit]
  exact Iff.rfl

/-- Every index of the array is in the block of a point that writes back: the last step of its tile's reduction. -/
theorem cover3 (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hb : (i 0).val / 2048 * 16 + (i 1).val / 1024 * 4 + 3 < cfg2.N := by rw [show cfg2.N = 64 from N_2]; omega
  refine ⟨⟨(i 0).val / 2048 * 16 + (i 1).val / 1024 * 4 + 3, hb⟩, (flush2_3 _).mpr (by show ((i 0).val / 2048 * 16 + (i 1).val / 1024 * 4 + 3) % 4 = 3; omega), ?_⟩
  rw [mem_blk3]
  obtain ⟨-, -, -, -, -, -, e30, e31⟩ := idx_closed2 ⟨(i 0).val / 2048 * 16 + (i 1).val / 1024 * 4 + 3, hb⟩
  have e30' : win2_3.index ⟨(i 0).val / 2048 * 16 + (i 1).val / 1024 * 4 + 3, hb⟩ (0 : Fin 2) = ((i 0).val / 2048 * 16 + (i 1).val / 1024 * 4 + 3) / 16 := e30
  have e31' : win2_3.index ⟨(i 0).val / 2048 * 16 + (i 1).val / 1024 * 4 + 3, hb⟩ (1 : Fin 2) = ((i 0).val / 2048 * 16 + (i 1).val / 1024 * 4 + 3) / 4 % 4 := e31
  intro a
  match a with
  | ⟨0, _⟩ =>
    show win2_3.index ⟨(i 0).val / 2048 * 16 + (i 1).val / 1024 * 4 + 3, hb⟩ (0 : Fin 2) * 2048 ≤ (i 0).val ∧ (i 0).val < win2_3.index ⟨(i 0).val / 2048 * 16 + (i 1).val / 1024 * 4 + 3, hb⟩ (0 : Fin 2) * 2048 + 2048
    omega
  | ⟨1, _⟩ =>
    show win2_3.index ⟨(i 0).val / 2048 * 16 + (i 1).val / 1024 * 4 + 3, hb⟩ (1 : Fin 2) * 1024 ≤ (i 1).val ∧ (i 1).val < win2_3.index ⟨(i 0).val / 2048 * 16 + (i 1).val / 1024 * 4 + 3, hb⟩ (1 : Fin 2) * 1024 + 1024
    omega

/-- THE ARRAY the region leaves: at every index the four partial products added in order to zero, plus the bias. -/
theorem final2 (c : Dev nD) : (dat2 (F := Ideal) V c).arrAt 3 cfg2.N
    = fun i => G2c (V c main_v6) (V c main_v4) (V c main_v3) (i 0) (i 1) :=
  (dat2 (F := Ideal) V c).arrAt_eq_of_cover 3 (Garr V c) (fun t hf => flushed3_eq V c t hf) cover3

end Cert.KernelIdeal.KVal

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.KResult.lean ====
/-
  The kernel's result as one function of its four arguments.

  The run passes through three host stretches, the weight call, a reshape, the activation call, the product call and a
  last reshape. Followed backwards from the result: the result is the product call's [8192, 4096] array seen as
  [4, 2048, 4096], entry (p, q, o) being row 2048 · p + q, column o; that array is, entry by entry, the four block sums
  of 1024 columns of (quantised activations) · (quantised weights) added in order onto zero, plus the bias row; the
  quantised activations are what the activation call leaves, the quantised rows of x · (1 / s) with x read as 8192
  rows; the quantised weights are what the weight call leaves, the quantised groups of w · s; and the scale row is the
  clipped exponential of the log-scales, seen as a row. A sum over 4096 = 4 · 1024 columns is the sum of its four
  consecutive block sums, whatever the order of the additions: only commutativity and associativity are used.
-/
import proofs.«170529_j14078902796908_2_alg».proof.Proof.FrameRun
import proofs.«170529_j14078902796908_2_alg».proof.Proof.KHost
import proofs.«170529_j14078902796908_2_alg».proof.Proof.KVal01
import proofs.«170529_j14078902796908_2_alg».proof.Proof.KVal2
import proofs.«170529_j14078902796908_2_alg».proof.Proof.Spec
import proofs.«170529_j14078902796908_2_alg».proof.Proof.LibSumBlocks
import Idealize.ShloMosaic.Lib.Pipeline.Value
import Idealize.ShloMosaic.Lib.ValueIdx

noncomputable section

open scoped BigOperators

namespace Cert.KernelIdeal.KVal

open Cert.KernelIdeal Cert.KernelIdeal.Gen Cert.KernelIdeal.Fr Cert.Q
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- Row 2048 · p + q of the activations seen as 8192 rows. -/
def rowOf (p : Fin 4) (q : Fin 2048) : Fin 8192 := ⟨p.val * 2048 + q.val, by omega⟩

/-! ## The arrays the regions read, entry by entry -/

/-- The scale row: at (0, d) the clipped exponential of the log-scale d. -/
theorem scale_row (d : Fin 4096) :
    (W3 (F := Ideal) m ρ c (Proc.devRef .tc main_v2) : S1x4096.Idx → EReal) (ix2 (0 : Fin 1) d)
      = scale ((m ((c : Thread nD τ).loc main_arg3) : S4096.Idx → EReal) (ix1 d)) := by
  rw [W3_v2, W2_v1]
  refine (shapeCast_apply _ _ (ix2 (0 : Fin 1) d) (ix1 d) ?_).trans ?_
  · rw [Shape.rowMajor_val_one, Shape.rowMajor_val_two]
    show d.val = 0 * 4096 + d.val
    omega
  · rfl

/-- The bias row: at (0, o) the bias o. -/
theorem bias_row (o : Fin 4096) :
    (W3 (F := Ideal) m ρ c (Proc.devRef .tc main_v3) : S1x4096.Idx → EReal) (ix2 (0 : Fin 1) o)
      = (m ((c : Thread nD τ).loc main_arg2) : S4096.Idx → EReal) (ix1 o) := by
  rw [W3_v3, W2_arg2]
  refine shapeCast_apply _ _ (ix2 (0 : Fin 1) o) (ix1 o) ?_
  rw [Shape.rowMajor_val_one, Shape.rowMajor_val_two]
  show o.val = 0 * 4096 + o.val
  omega

/-- The activations as rows: row 2048 · p + q is the row (p, q) of x. -/
theorem act_rows (p : Fin 4) (q : Fin 2048) (d : Fin 4096) :
    (W5 (F := Ideal) m ρ c (Proc.devRef .tc main_v5) : S8192x4096.Idx → EReal) (ix2 (rowOf p q) d)
      = (m ((c : Thread nD τ).loc main_arg0) : S4x2048x4096.Idx → EReal) (ix3 p q d) := by
  rw [W5_v5, W4_arg0]
  refine shapeCast_apply _ _ (ix2 (rowOf p q) d) (ix3 p q d) ?_
  rw [Shape.rowMajor_val_two, Shape.rowMajor_val_three]
  rfl

/-! ## What the two quantisation regions leave -/

/-- The quantised activations over the rows of x · (1 / s): when row r of the array X is the row (p, q) of x and the row S
    is the column scale, row r of the quantised array is the quantised row (p, q). -/
theorem G1c_eq (X : S8192x4096.Idx → EReal) (S : S1x4096.Idx → EReal) (x : SX.Idx → EReal) (l : SV.Idx → EReal)
    (p : Fin 4) (q : Fin 2048) (r : Fin 8192) (hX : ∀ d', X (ix2 r d') = x (ix3 p q d'))
    (hS : ∀ d', S (ix2 (0 : Fin 1) d') = scale (l (ix1 d'))) (d : Fin 4096) :
    G1c X S r d = actK (rowK x l p q) d := by
  unfold G1c
  refine congrArg (fun f => actK f d) (funext fun d' => ?_)
  rw [hX, hS]
  rfl

/-- The quantised weights over the groups of w · s: when the array W is w and the row S is the column scale, entry
    (o, d) of the quantised array is the quantised group d / 128 of row o, at offset d % 128. -/
theorem G0c_eq (W : S4096x4096.Idx → EReal) (S : S1x4096.Idx → EReal) (w : SW.Idx → EReal) (l : SV.Idx → EReal)
    (hW : W = w) (hS : ∀ d', S (ix2 (0 : Fin 1) d') = scale (l (ix1 d'))) (o d : Fin 4096) :
    G0c W S o d = wK (wgrp w l o (grp d)) (off d) := by
  subst hW
  unfold G0c
  refine congrArg (fun f => wK f (off d)) (funext fun e => ?_)
  rw [hS]
  rfl

/-- Region 1's result: row 2048 · p + q holds the quantised row (p, q) of x · (1 / s). -/
theorem region1_value (p : Fin 4) (q : Fin 2048) (d : Fin 4096) :
    (W6 (F := Ideal) m ρ c (Proc.devRef .tc main_v6) : S8192x4096.Idx → EReal) (ix2 (rowOf p q) d)
      = actK (rowK (m ((c : Thread nD τ).loc main_arg0)) (m ((c : Thread nD τ).loc main_arg3)) p q) d := by
  rw [W6_v6, final1 (V5 m ρ) c]
  exact G1c_eq (W5 (F := Ideal) m ρ c (Proc.devRef .tc main_v5)) (W5 (F := Ideal) m ρ c (Proc.devRef .tc main_v2))
    (m ((c : Thread nD τ).loc main_arg0)) (m ((c : Thread nD τ).loc main_arg3)) p q (rowOf p q)
    (fun d' => act_rows m ρ c p q d')
    (fun d' => (congrFun (W5_v2 m ρ c) (ix2 (0 : Fin 1) d')).trans (scale_row m ρ c d')) d

/-- Region 0's result: entry (o, d) holds the quantised group d / 128 of row o of w · s, at offset d % 128. -/
theorem region0_value (o d : Fin 4096) :
    (W6 (F := Ideal) m ρ c (Proc.devRef .tc main_v4) : S4096x4096.Idx → EReal) (ix2 o d)
      = wK (wgrp (m ((c : Thread nD τ).loc main_arg1)) (m ((c : Thread nD τ).loc main_arg3)) o (grp d)) (off d) := by
  rw [W6_v4, final0 (V3 m ρ) c]
  exact G0c_eq (W3 (F := Ideal) m ρ c (Proc.devRef .tc main_arg1)) (W3 (F := Ideal) m ρ c (Proc.devRef .tc main_v2))
    (m ((c : Thread nD τ).loc main_arg1)) (m ((c : Thread nD τ).loc main_arg3)) (W3_arg1 m ρ c)
    (fun d' => scale_row m ρ c d') o d
/-! ## The product -/

/-- The four block sums of 1024 columns, added in order onto zero, are the sum over the 4096 columns. -/
theorem G2c_eq_GK (x : SX.Idx → EReal) (w : SW.Idx → EReal) (b l : SV.Idx → EReal)
    (Xq : S8192x4096.Idx → EReal) (Wq : S4096x4096.Idx → EReal) (B : S1x4096.Idx → EReal)
    (p : Fin 4) (q : Fin 2048) (o : Fin 4096) (r : Fin 8192)
    (hX : ∀ d, Xq (ix2 r d) = actK (rowK x l p q) d)
    (hW : ∀ d, Wq (ix2 o d) = wK (wgrp w l o (grp d)) (off d))
    (hB : B (ix2 (0 : Fin 1) o) = b (ix1 o)) :
    G2c Xq Wq B r o = GK x w b l (ix3 p q o) := by
  have hS : ∀ kb : Fin 4, S2 Xq Wq r o kb
      = ∑ k : Fin 1024, (fun d : Fin 4096 => actK (rowK x l p q) d * wK (wgrp w l o (grp d)) (off d))
          ⟨kb.val * 1024 + k.val, (rfl : (4096 : ℕ) = 4 * 1024) ▸ Cert.SumBlocks.block_index_lt kb k⟩ :=
    fun kb => Finset.sum_congr rfl fun k _ => by rw [hX, hW]
  unfold G2c
  rw [hB, hS, hS, hS, hS, zero_add]
  show _ = (∑ d : Fin 4096, actK (rowK x l p q) d * wK (wgrp w l o (grp d)) (off d)) + b (ix1 o)
  refine congrArg (· + b (ix1 o)) ?_
  rw [Cert.SumBlocks.sum_blocks 4 1024 4096 rfl
    (fun d : Fin 4096 => actK (rowK x l p q) d * wK (wgrp w l o (grp d)) (off d)), Fin.sum_univ_four]

/-! ## The result -/

/-- The kernel's result is the specification's value of the four arguments. -/
theorem result_eq (m : (ℓ : Loc nD τ sig) → Buf (Elt Ideal) ℓ) (ρ : Dev nD → PrngReg) (c : Dev nD) :
    W8 (F := Ideal) m ρ c (Proc.devRef .tc main_v8)
      = GK (m ((c : Thread nD τ).loc main_arg0)) (m ((c : Thread nD τ).loc main_arg1))
          (m ((c : Thread nD τ).loc main_arg2)) (m ((c : Thread nD τ).loc main_arg3)) := by
  refine funext fun (i : S4x2048x4096.Idx) => ?_
  obtain ⟨p, q, o, rfl⟩ : ∃ (p : Fin 4) (q : Fin 2048) (o : Fin 4096), i = ix3 p q o := ⟨i 0, i 1, i 2, eq_ix3 i⟩
  rw [W8_v8]
  refine (shapeCast_apply _ _ (ix3 p q o) (ix2 (rowOf p q) o) ?_).trans ?_
  · rw [Shape.rowMajor_val_two, Shape.rowMajor_val_three]
    rfl
  rw [W7_v7, final2 (V6 m ρ) c]
  exact G2c_eq_GK (m ((c : Thread nD τ).loc main_arg0)) (m ((c : Thread nD τ).loc main_arg1))
    (m ((c : Thread nD τ).loc main_arg2)) (m ((c : Thread nD τ).loc main_arg3))
    (W6 (F := Ideal) m ρ c (Proc.devRef .tc main_v6)) (W6 (F := Ideal) m ρ c (Proc.devRef .tc main_v4))
    (W6 (F := Ideal) m ρ c (Proc.devRef .tc main_v3)) p q o (rowOf p q)
    (fun d => region1_value m ρ c p q d) (fun d => region0_value m ρ c o d)
    (by rw [W6_v3]; exact bias_row m ρ c o)

end Cert.KernelIdeal.KVal

end
-- ==== Proof.RefStages.lean ====
/-
  The reference's @main is ninety-nine host operations in a row. Their list is cut here into four consecutive
  stretches: the column scale with the scaled activations x / s and the scaled weights w · s; the activations'
  quantiser with its straight-through form; the weights' quantiser with its straight-through form; the product with
  the bias. Running the whole list is running the stretches one after the other.
-/
import proofs.«170529_j14078902796908_2_alg».proof.Proof.RefRead

set_option maxRecDepth 16384

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The scale, the scaled activations x / s and the scaled weights w · s. -/
abbrev opsA : List (HloOp τ sig (Elt F)) :=
  [ unary main_arg3 main_v0 (Host.exp : (⟨S4096, .f32⟩ : BufTy).Contents (Elt F) → (⟨S4096, .f32⟩ : BufTy).Contents (Elt F)),
    nullary main_cst (constant S_ .f32 0x38D1B717#32),
    nullary main_cst_0 (constant S_ .f32 0x461C4000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_v0) (TRef.of (T := ⟨S4096, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S4096, .f32⟩) main_call0_v4) (broadcastInDim S4096 ![] bcast_S_S4096),
    TRef.binary (TRef.of (T := ⟨S4096, .f32⟩) main_call0_v4) (TRef.of (T := ⟨S4096, .f32⟩) main_call0_v2) (TRef.of (T := ⟨S4096, .f32⟩) main_v1) minimumf,
    unary main_v1 main_v2 (broadcastInDim S1x1x4096 ![2] bcast_S4096_S1x1x4096_2 : (⟨S4096, .f32⟩ : BufTy).Contents (Elt F) → (⟨S1x1x4096, .f32⟩ : BufTy).Contents (Elt F)),
    unary main_v2 main_v3 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_arg0 main_v3 main_v4 (Host.divf : (⟨S4x2048x4096, .f32⟩ : BufTy).Contents (Elt F) → (⟨S4x2048x4096, .f32⟩ : BufTy).Contents (Elt F) → (⟨S4x2048x4096, .f32⟩ : BufTy).Contents (Elt F)),
    unary main_v1 main_v5 (broadcastInDim S1x4096 ![1] bcast_S4096_S1x4096_1 : (⟨S4096, .f32⟩ : BufTy).Contents (Elt F) → (⟨S1x4096, .f32⟩ : BufTy).Contents (Elt F)),
    unary main_v5 main_v6 (broadcastInDim S4096x4096 ![0, 1] bcast_S1x4096_S4096x4096_0_1 : (⟨S1x4096, .f32⟩ : BufTy).Contents (Elt F) → (⟨S4096x4096, .f32⟩ : BufTy).Contents (Elt F)),
    binary main_arg1 main_v6 main_v7 (mulf : (⟨S4096x4096, .f32⟩ : BufTy).Contents (Elt F) → (⟨S4096x4096, .f32⟩ : BufTy).Contents (Elt F) → (⟨S4096x4096, .f32⟩ : BufTy).Contents (Elt F)) ]

/-- The activations' quantisation and its straight-through form. -/
abbrev opsB : List (HloOp τ sig (Elt F)) :=
  [ reshape main_v4 main_v8 rfl shapeCasts_S4x2048x4096_S8192x4096,
    unary main_v8 main_v9 (Host.absf : (⟨S8192x4096, .f32⟩ : BufTy).Contents (Elt F) → (⟨S8192x4096, .f32⟩ : BufTy).Contents (Elt F)),
    nullary main_cst_1 (constant S_ .f32 0xFF800000#32),
    binary main_v9 main_cst_1 main_v10 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v10 main_v11 (broadcastInDim S8192x1 ![0] bcast_S8192_S8192x1_0 : (⟨S8192, .f32⟩ : BufTy).Contents (Elt F) → (⟨S8192x1, .f32⟩ : BufTy).Contents (Elt F)),
    nullary main_cst_2 (constant S_ .f32 0x3727C5AC#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S8192x1, .f32⟩) main_call1_v1) (broadcastInDim S8192x1 ![] bcast_S_S8192x1),
    TRef.binary (TRef.of (T := ⟨S8192x1, .f32⟩) main_call1_v1) (TRef.of (T := ⟨S8192x1, .f32⟩) main_v11) (TRef.of (T := ⟨S8192x1, .f32⟩) main_v12) maximumf,
    nullary main_cst_3 (constant S_ .f32 0x42FE0000#32),
    unary main_cst_3 main_v13 (broadcastInDim S8192x1 ![] bcast_S_S8192x1 : (⟨S_, .f32⟩ : BufTy).Contents (Elt F) → (⟨S8192x1, .f32⟩ : BufTy).Contents (Elt F)),
    binary main_v12 main_v13 main_v14 (Host.divf : (⟨S8192x1, .f32⟩ : BufTy).Contents (Elt F) → (⟨S8192x1, .f32⟩ : BufTy).Contents (Elt F) → (⟨S8192x1, .f32⟩ : BufTy).Contents (Elt F)),
    unary main_v14 main_v15 (broadcastInDim S8192x4096 ![0, 1] bcast_S8192x1_S8192x4096_0_1 : (⟨S8192x1, .f32⟩ : BufTy).Contents (Elt F) → (⟨S8192x4096, .f32⟩ : BufTy).Contents (Elt F)),
    binary main_v8 main_v15 main_v16 (Host.divf : (⟨S8192x4096, .f32⟩ : BufTy).Contents (Elt F) → (⟨S8192x4096, .f32⟩ : BufTy).Contents (Elt F) → (⟨S8192x4096, .f32⟩ : BufTy).Contents (Elt F)),
    TRef.unary (TRef.of (T := ⟨S8192x4096, .f32⟩) main_v16) (TRef.of (T := ⟨S8192x4096, .f32⟩) main_v17) Host.roundeven,
    nullary main_cst_4 (constant S_ .f32 0x00000000#32),
    unary main_cst_4 main_v18 (broadcastInDim S8192x4096 ![] bcast_S_S8192x4096 : (⟨S_, .f32⟩ : BufTy).Contents (Elt F) → (⟨S8192x4096, .f32⟩ : BufTy).Contents (Elt F)),
    binary main_v17 main_v18 main_v19 (addf : (⟨S8192x4096, .f32⟩ : BufTy).Contents (Elt F) → (⟨S8192x4096, .f32⟩ : BufTy).Contents (Elt F) → (⟨S8192x4096, .f32⟩ : BufTy).Contents (Elt F)),
    nullary main_c (constantI S_ 32 4294967168#32),
    nullary main_c_5 (constantI S_ 32 127#32),
    TRef.unary (TRef.of (T := ⟨S_, .i32⟩) main_c) (TRef.of (T := ⟨S_, .f32⟩) main_call3_v0) (sitofp .f32),
    TRef.unary (TRef.of (T := ⟨S_, .f32⟩) main_call3_v0) (TRef.of (T := ⟨S8192x4096, .f32⟩) main_call3_v1) (broadcastInDim S8192x4096 ![] bcast_S_S8192x4096),
    TRef.binary (TRef.of (T := ⟨S8192x4096, .f32⟩) main_call3_v1) (TRef.of (T := ⟨S8192x4096, .f32⟩) main_v19) (TRef.of (T := ⟨S8192x4096, .f32⟩) main_call3_v2) maximumf,
    TRef.unary (TRef.of (T := ⟨S_, .i32⟩) main_c_5) (TRef.of (T := ⟨S_, .f32⟩) main_call3_v3) (sitofp .f32),
    TRef.unary (TRef.of (T := ⟨S_, .f32⟩) main_call3_v3) (TRef.of (T := ⟨S8192x4096, .f32⟩) main_call3_v4) (broadcastInDim S8192x4096 ![] bcast_S_S8192x4096),
    TRef.binary (TRef.of (T := ⟨S8192x4096, .f32⟩) main_call3_v4) (TRef.of (T := ⟨S8192x4096, .f32⟩) main_call3_v2) (TRef.of (T := ⟨S8192x4096, .f32⟩) main_v20) minimumf,
    nullary main_cst_6 (constant S_ .f32 0x00000000#32),
    unary main_cst_6 main_v21 (broadcastInDim S8192x4096 ![] bcast_S_S8192x4096 : (⟨S_, .f32⟩ : BufTy).Contents (Elt F) → (⟨S8192x4096, .f32⟩ : BufTy).Contents (Elt F)),
    binary main_v20 main_v21 main_v22 (subf : (⟨S8192x4096, .f32⟩ : BufTy).Contents (Elt F) → (⟨S8192x4096, .f32⟩ : BufTy).Contents (Elt F) → (⟨S8192x4096, .f32⟩ : BufTy).Contents (Elt F)),
    unary main_v14 main_v23 (broadcastInDim S8192x4096 ![0, 1] bcast_S8192x1_S8192x4096_0_1 : (⟨S8192x1, .f32⟩ : BufTy).Contents (Elt F) → (⟨S8192x4096, .f32⟩ : BufTy).Contents (Elt F)),
    binary main_v22 main_v23 main_v24 (mulf : (⟨S8192x4096, .f32⟩ : BufTy).Contents (Elt F) → (⟨S8192x4096, .f32⟩ : BufTy).Contents (Elt F) → (⟨S8192x4096, .f32⟩ : BufTy).Contents (Elt F)),
    reshape main_v24 main_v25 rfl shapeCasts_S8192x4096_S4x2048x4096,
    binary main_v25 main_v4 main_v26 (subf : (⟨S4x2048x4096, .f32⟩ : BufTy).Contents (Elt F) → (⟨S4x2048x4096, .f32⟩ : BufTy).Contents (Elt F) → (⟨S4x2048x4096, .f32⟩ : BufTy).Contents (Elt F)),
    binary main_v4 main_v26 main_v27 (addf : (⟨S4x2048x4096, .f32⟩ : BufTy).Contents (Elt F) → (⟨S4x2048x4096, .f32⟩ : BufTy).Contents (Elt F) → (⟨S4x2048x4096, .f32⟩ : BufTy).Contents (Elt F)) ]

/-- The weights' quantisation and its straight-through form. -/
abbrev opsC : List (HloOp τ sig (Elt F)) :=
  [ reshape main_v7 main_v28 rfl shapeCasts_S4096x4096_S131072x128,
    nullary main_cst_7 (constant S_ .f32 0xFF800000#32),
    binary main_v28 main_cst_7 main_v29 ((fun x v => Host.reduce FloatOps.maximumf x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v29 main_v30 (broadcastInDim S131072x1 ![0] bcast_S131072_S131072x1_0 : (⟨S131072, .f32⟩ : BufTy).Contents (Elt F) → (⟨S131072x1, .f32⟩ : BufTy).Contents (Elt F)),
    nullary main_cst_8 (constant S_ .f32 0x7F800000#32),
    binary main_v28 main_cst_8 main_v31 ((fun x v => Host.reduce FloatOps.minimumf x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v31 main_v32 (broadcastInDim S131072x1 ![0] bcast_S131072_S131072x1_0 : (⟨S131072, .f32⟩ : BufTy).Contents (Elt F) → (⟨S131072x1, .f32⟩ : BufTy).Contents (Elt F)),
    binary main_v30 main_v32 main_v33 (subf : (⟨S131072x1, .f32⟩ : BufTy).Contents (Elt F) → (⟨S131072x1, .f32⟩ : BufTy).Contents (Elt F) → (⟨S131072x1, .f32⟩ : BufTy).Contents (Elt F)),
    nullary main_cst_9 (constant S_ .f32 0x3727C5AC#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S131072x1, .f32⟩) main_call4_v1) (broadcastInDim S131072x1 ![] bcast_S_S131072x1),
    TRef.binary (TRef.of (T := ⟨S131072x1, .f32⟩) main_call4_v1) (TRef.of (T := ⟨S131072x1, .f32⟩) main_v33) (TRef.of (T := ⟨S131072x1, .f32⟩) main_v34) maximumf,
    nullary main_cst_10 (constant S_ .f32 0x41700000#32),
    unary main_cst_10 main_v35 (broadcastInDim S131072x1 ![] bcast_S_S131072x1 : (⟨S_, .f32⟩ : BufTy).Contents (Elt F) → (⟨S131072x1, .f32⟩ : BufTy).Contents (Elt F)),
    binary main_v34 main_v35 main_v36 (Host.divf : (⟨S131072x1, .f32⟩ : BufTy).Contents (Elt F) → (⟨S131072x1, .f32⟩ : BufTy).Contents (Elt F) → (⟨S131072x1, .f32⟩ : BufTy).Contents (Elt F)),
    binary main_v32 main_v36 main_v37 (Host.divf : (⟨S131072x1, .f32⟩ : BufTy).Contents (Elt F) → (⟨S131072x1, .f32⟩ : BufTy).Contents (Elt F) → (⟨S131072x1, .f32⟩ : BufTy).Contents (Elt F)),
    TRef.unary (TRef.of (T := ⟨S131072x1, .f32⟩) main_v37) (TRef.of (T := ⟨S131072x1, .f32⟩) main_v38) Host.roundeven,
    unary main_v38 main_v39 (Host.negf : (⟨S131072x1, .f32⟩ : BufTy).Contents (Elt F) → (⟨S131072x1, .f32⟩ : BufTy).Contents (Elt F)),
    nullary main_c_11 (constantI S_ 32 0#32),
    nullary main_c_12 (constantI S_ 32 15#32),
    TRef.unary (TRef.of (T := ⟨S_, .i32⟩) main_c_11) (TRef.of (T := ⟨S_, .f32⟩) main_call6_v0) (sitofp .f32),
    TRef.unary (TRef.of (T := ⟨S_, .f32⟩) main_call6_v0) (TRef.of (T := ⟨S131072x1, .f32⟩) main_call6_v1) (broadcastInDim S131072x1 ![] bcast_S_S131072x1),
    TRef.binary (TRef.of (T := ⟨S131072x1, .f32⟩) main_call6_v1) (TRef.of (T := ⟨S131072x1, .f32⟩) main_v39) (TRef.of (T := ⟨S131072x1, .f32⟩) main_call6_v2) maximumf,
    TRef.unary (TRef.of (T := ⟨S_, .i32⟩) main_c_12) (TRef.of (T := ⟨S_, .f32⟩) main_call6_v3) (sitofp .f32),
    TRef.unary (TRef.of (T := ⟨S_, .f32⟩) main_call6_v3) (TRef.of (T := ⟨S131072x1, .f32⟩) main_call6_v4) (broadcastInDim S131072x1 ![] bcast_S_S131072x1),
    TRef.binary (TRef.of (T := ⟨S131072x1, .f32⟩) main_call6_v4) (TRef.of (T := ⟨S131072x1, .f32⟩) main_call6_v2) (TRef.of (T := ⟨S131072x1, .f32⟩) main_v40) minimumf,
    unary main_v36 main_v41 (broadcastInDim S131072x128 ![0, 1] bcast_S131072x1_S131072x128_0_1 : (⟨S131072x1, .f32⟩ : BufTy).Contents (Elt F) → (⟨S131072x128, .f32⟩ : BufTy).Contents (Elt F)),
    binary main_v28 main_v41 main_v42 (Host.divf : (⟨S131072x128, .f32⟩ : BufTy).Contents (Elt F) → (⟨S131072x128, .f32⟩ : BufTy).Contents (Elt F) → (⟨S131072x128, .f32⟩ : BufTy).Contents (Elt F)),
    TRef.unary (TRef.of (T := ⟨S131072x128, .f32⟩) main_v42) (TRef.of (T := ⟨S131072x128, .f32⟩) main_v43) Host.roundeven,
    unary main_v40 main_v44 (broadcastInDim S131072x128 ![0, 1] bcast_S131072x1_S131072x128_0_1 : (⟨S131072x1, .f32⟩ : BufTy).Contents (Elt F) → (⟨S131072x128, .f32⟩ : BufTy).Contents (Elt F)),
    binary main_v43 main_v44 main_v45 (addf : (⟨S131072x128, .f32⟩ : BufTy).Contents (Elt F) → (⟨S131072x128, .f32⟩ : BufTy).Contents (Elt F) → (⟨S131072x128, .f32⟩ : BufTy).Contents (Elt F)),
    nullary main_c_13 (constantI S_ 32 0#32),
    nullary main_c_14 (constantI S_ 32 15#32),
    TRef.unary (TRef.of (T := ⟨S_, .i32⟩) main_c_13) (TRef.of (T := ⟨S_, .f32⟩) main_call8_v0) (sitofp .f32),
    TRef.unary (TRef.of (T := ⟨S_, .f32⟩) main_call8_v0) (TRef.of (T := ⟨S131072x128, .f32⟩) main_call8_v1) (broadcastInDim S131072x128 ![] bcast_S_S131072x128),
    TRef.binary (TRef.of (T := ⟨S131072x128, .f32⟩) main_call8_v1) (TRef.of (T := ⟨S131072x128, .f32⟩) main_v45) (TRef.of (T := ⟨S131072x128, .f32⟩) main_call8_v2) maximumf,
    TRef.unary (TRef.of (T := ⟨S_, .i32⟩) main_c_14) (TRef.of (T := ⟨S_, .f32⟩) main_call8_v3) (sitofp .f32),
    TRef.unary (TRef.of (T := ⟨S_, .f32⟩) main_call8_v3) (TRef.of (T := ⟨S131072x128, .f32⟩) main_call8_v4) (broadcastInDim S131072x128 ![] bcast_S_S131072x128),
    TRef.binary (TRef.of (T := ⟨S131072x128, .f32⟩) main_call8_v4) (TRef.of (T := ⟨S131072x128, .f32⟩) main_call8_v2) (TRef.of (T := ⟨S131072x128, .f32⟩) main_v46) minimumf,
    unary main_v40 main_v47 (broadcastInDim S131072x128 ![0, 1] bcast_S131072x1_S131072x128_0_1 : (⟨S131072x1, .f32⟩ : BufTy).Contents (Elt F) → (⟨S131072x128, .f32⟩ : BufTy).Contents (Elt F)),
    binary main_v46 main_v47 main_v48 (subf : (⟨S131072x128, .f32⟩ : BufTy).Contents (Elt F) → (⟨S131072x128, .f32⟩ : BufTy).Contents (Elt F) → (⟨S131072x128, .f32⟩ : BufTy).Contents (Elt F)),
    unary main_v36 main_v49 (broadcastInDim S131072x128 ![0, 1] bcast_S131072x1_S131072x128_0_1 : (⟨S131072x1, .f32⟩ : BufTy).Contents (Elt F) → (⟨S131072x128, .f32⟩ : BufTy).Contents (Elt F)),
    binary main_v48 main_v49 main_v50 (mulf : (⟨S131072x128, .f32⟩ : BufTy).Contents (Elt F) → (⟨S131072x128, .f32⟩ : BufTy).Contents (Elt F) → (⟨S131072x128, .f32⟩ : BufTy).Contents (Elt F)),
    reshape main_v50 main_v51 rfl shapeCasts_S131072x128_S4096x4096,
    binary main_v51 main_v7 main_v52 (subf : (⟨S4096x4096, .f32⟩ : BufTy).Contents (Elt F) → (⟨S4096x4096, .f32⟩ : BufTy).Contents (Elt F) → (⟨S4096x4096, .f32⟩ : BufTy).Contents (Elt F)),
    binary main_v7 main_v52 main_v53 (addf : (⟨S4096x4096, .f32⟩ : BufTy).Contents (Elt F) → (⟨S4096x4096, .f32⟩ : BufTy).Contents (Elt F) → (⟨S4096x4096, .f32⟩ : BufTy).Contents (Elt F)) ]

/-- The product and the bias. -/
abbrev opsD : List (HloOp τ sig (Elt F)) :=
  [ binary main_v27 main_v53 main_v54 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v55 (broadcastInDim S1x1x4096 ![2] bcast_S4096_S1x1x4096_2 : (⟨S4096, .f32⟩ : BufTy).Contents (Elt F) → (⟨S1x1x4096, .f32⟩ : BufTy).Contents (Elt F)),
    unary main_v55 main_v56 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v54 main_v56 main_v57 (addf : (⟨S4x2048x4096, .f32⟩ : BufTy).Contents (Elt F) → (⟨S4x2048x4096, .f32⟩ : BufTy).Contents (Elt F) → (⟨S4x2048x4096, .f32⟩ : BufTy).Contents (Elt F)) ]

/-- The four stretches, in order, are @main's operation list. -/
theorem ops_split : (ops : List (HloOp τ sig (Elt F))) = opsA ++ (opsB ++ (opsC ++ opsD)) := rfl

/-- Running two lists in a row is running the first, then the second. -/
theorem after_append (A B : List (HloOp τ sig (Elt F))) (V : Valuation τ sig (Elt F)) : after (A ++ B) V = after B (after A V) := by
  induction A generalizing V with
  | nil => rfl
  | cons a A ih => exact ih _

end Cert.ReferenceIdeal.RunH

end
-- ==== Proof.RefStageA.lean ====
/-
  The first stretch of the reference's operations: from any contents W of the buffers it leaves the scaled activations
  at x / s and the scaled weights at w · s, as the operation-by-operation reading of the program names them, for
  x, w and the log-scales as W holds them; it does not write the bias.
-/
import proofs.«170529_j14078902796908_2_alg».proof.Proof.RefStages

set_option maxRecDepth 16384

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (W : Valuation τ sig (Elt F))

theorem stageA_v4 : after opsA W (Proc.devRef .tc main_v4) = val_main_v4 (W (Proc.devRef .tc main_arg0)) (W (Proc.devRef .tc main_arg3)) := by
  after_results_simp
  rfl

theorem stageA_v7 : after opsA W (Proc.devRef .tc main_v7) = val_main_v7 (W (Proc.devRef .tc main_arg1)) (W (Proc.devRef .tc main_arg3)) := by
  after_results_simp
  rfl

theorem stageA_arg2 : after opsA W (Proc.devRef .tc main_arg2) = W (Proc.devRef .tc main_arg2) :=
  after_of_forall_not_mem (b := Proc.devRef .tc main_arg2) _ _ (List.forall_iff_forall_mem.mp (by
          simp only [opsA, List.Forall, nullary_writes, unary_writes, binary_writes, ternary_writes, quaternary_writes, reshape_writes, binaryIndexed_writes, Finset.mem_singleton]
          repeat' apply And.intro
          all_goals exact devRef_ne_of_ne (by decide)))

end Cert.ReferenceIdeal.RunH

end
-- ==== Proof.RefStageB.lean ====
/-
  The second stretch of the reference's operations: from contents W that hold the scaled activations x / s, it leaves
  the quantised activations in their straight-through form, as the operation-by-operation reading of the program names
  them; it writes neither the scaled weights nor the bias.

  The stretch is run in four parts — the activations as rows; the rows' maxima of absolute values; the rows' steps;
  the quantised rows with the straight-through form — each from the contents the part before leaves. The rows' steps are
  first read for any contents of the column of maxima, and only then at the column the second part leaves.
-/
import proofs.«170529_j14078902796908_2_alg».proof.Proof.RefStages

set_option maxRecDepth 16384

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The activations as rows: [4, 2048, 4096] seen as [8192, 4096]. -/
abbrev opsB1 : List (HloOp τ sig (Elt F)) :=
  [ reshape main_v4 main_v8 rfl shapeCasts_S4x2048x4096_S8192x4096 ]

/-- The rows' maxima of absolute values, as a column. -/
abbrev opsB2 : List (HloOp τ sig (Elt F)) :=
  [ unary main_v8 main_v9 (Host.absf : (⟨S8192x4096, .f32⟩ : BufTy).Contents (Elt F) → (⟨S8192x4096, .f32⟩ : BufTy).Contents (Elt F)),
    nullary main_cst_1 (constant S_ .f32 0xFF800000#32),
    binary main_v9 main_cst_1 main_v10 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v10 main_v11 (broadcastInDim S8192x1 ![0] bcast_S8192_S8192x1_0 : (⟨S8192, .f32⟩ : BufTy).Contents (Elt F) → (⟨S8192x1, .f32⟩ : BufTy).Contents (Elt F)) ]

/-- The rows' steps: max(1e-5, maximum) / 127. -/
abbrev opsB3 : List (HloOp τ sig (Elt F)) :=
  [ nullary main_cst_2 (constant S_ .f32 0x3727C5AC#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S8192x1, .f32⟩) main_call1_v1) (broadcastInDim S8192x1 ![] bcast_S_S8192x1),
    TRef.binary (TRef.of (T := ⟨S8192x1, .f32⟩) main_call1_v1) (TRef.of (T := ⟨S8192x1, .f32⟩) main_v11) (TRef.of (T := ⟨S8192x1, .f32⟩) main_v12) maximumf,
    nullary main_cst_3 (constant S_ .f32 0x42FE0000#32),
    unary main_cst_3 main_v13 (broadcastInDim S8192x1 ![] bcast_S_S8192x1 : (⟨S_, .f32⟩ : BufTy).Contents (Elt F) → (⟨S8192x1, .f32⟩ : BufTy).Contents (Elt F)),
    binary main_v12 main_v13 main_v14 (Host.divf : (⟨S8192x1, .f32⟩ : BufTy).Contents (Elt F) → (⟨S8192x1, .f32⟩ : BufTy).Contents (Elt F) → (⟨S8192x1, .f32⟩ : BufTy).Contents (Elt F)) ]

/-- The quantised rows and the straight-through form. -/
abbrev opsB4 : List (HloOp τ sig (Elt F)) :=
  [ unary main_v14 main_v15 (broadcastInDim S8192x4096 ![0, 1] bcast_S8192x1_S8192x4096_0_1 : (⟨S8192x1, .f32⟩ : BufTy).Contents (Elt F) → (⟨S8192x4096, .f32⟩ : BufTy).Contents (Elt F)),
    binary main_v8 main_v15 main_v16 (Host.divf : (⟨S8192x4096, .f32⟩ : BufTy).Contents (Elt F) → (⟨S8192x4096, .f32⟩ : BufTy).Contents (Elt F) → (⟨S8192x4096, .f32⟩ : BufTy).Contents (Elt F)),
    TRef.unary (TRef.of (T := ⟨S8192x4096, .f32⟩) main_v16) (TRef.of (T := ⟨S8192x4096, .f32⟩) main_v17) Host.roundeven,
    nullary main_cst_4 (constant S_ .f32 0x00000000#32),
    unary main_cst_4 main_v18 (broadcastInDim S8192x4096 ![] bcast_S_S8192x4096 : (⟨S_, .f32⟩ : BufTy).Contents (Elt F) → (⟨S8192x4096, .f32⟩ : BufTy).Contents (Elt F)),
    binary main_v17 main_v18 main_v19 (addf : (⟨S8192x4096, .f32⟩ : BufTy).Contents (Elt F) → (⟨S8192x4096, .f32⟩ : BufTy).Contents (Elt F) → (⟨S8192x4096, .f32⟩ : BufTy).Contents (Elt F)),
    nullary main_c (constantI S_ 32 4294967168#32),
    nullary main_c_5 (constantI S_ 32 127#32),
    TRef.unary (TRef.of (T := ⟨S_, .i32⟩) main_c) (TRef.of (T := ⟨S_, .f32⟩) main_call3_v0) (sitofp .f32),
    TRef.unary (TRef.of (T := ⟨S_, .f32⟩) main_call3_v0) (TRef.of (T := ⟨S8192x4096, .f32⟩) main_call3_v1) (broadcastInDim S8192x4096 ![] bcast_S_S8192x4096),
    TRef.binary (TRef.of (T := ⟨S8192x4096, .f32⟩) main_call3_v1) (TRef.of (T := ⟨S8192x4096, .f32⟩) main_v19) (TRef.of (T := ⟨S8192x4096, .f32⟩) main_call3_v2) maximumf,
    TRef.unary (TRef.of (T := ⟨S_, .i32⟩) main_c_5) (TRef.of (T := ⟨S_, .f32⟩) main_call3_v3) (sitofp .f32),
    TRef.unary (TRef.of (T := ⟨S_, .f32⟩) main_call3_v3) (TRef.of (T := ⟨S8192x4096, .f32⟩) main_call3_v4) (broadcastInDim S8192x4096 ![] bcast_S_S8192x4096),
    TRef.binary (TRef.of (T := ⟨S8192x4096, .f32⟩) main_call3_v4) (TRef.of (T := ⟨S8192x4096, .f32⟩) main_call3_v2) (TRef.of (T := ⟨S8192x4096, .f32⟩) main_v20) minimumf,
    nullary main_cst_6 (constant S_ .f32 0x00000000#32),
    unary main_cst_6 main_v21 (broadcastInDim S8192x4096 ![] bcast_S_S8192x4096 : (⟨S_, .f32⟩ : BufTy).Contents (Elt F) → (⟨S8192x4096, .f32⟩ : BufTy).Contents (Elt F)),
    binary main_v20 main_v21 main_v22 (subf : (⟨S8192x4096, .f32⟩ : BufTy).Contents (Elt F) → (⟨S8192x4096, .f32⟩ : BufTy).Contents (Elt F) → (⟨S8192x4096, .f32⟩ : BufTy).Contents (Elt F)),
    unary main_v14 main_v23 (broadcastInDim S8192x4096 ![0, 1] bcast_S8192x1_S8192x4096_0_1 : (⟨S8192x1, .f32⟩ : BufTy).Contents (Elt F) → (⟨S8192x4096, .f32⟩ : BufTy).Contents (Elt F)),
    binary main_v22 main_v23 main_v24 (mulf : (⟨S8192x4096, .f32⟩ : BufTy).Contents (Elt F) → (⟨S8192x4096, .f32⟩ : BufTy).Contents (Elt F) → (⟨S8192x4096, .f32⟩ : BufTy).Contents (Elt F)),
    reshape main_v24 main_v25 rfl shapeCasts_S8192x4096_S4x2048x4096,
    binary main_v25 main_v4 main_v26 (subf : (⟨S4x2048x4096, .f32⟩ : BufTy).Contents (Elt F) → (⟨S4x2048x4096, .f32⟩ : BufTy).Contents (Elt F) → (⟨S4x2048x4096, .f32⟩ : BufTy).Contents (Elt F)),
    binary main_v4 main_v26 main_v27 (addf : (⟨S4x2048x4096, .f32⟩ : BufTy).Contents (Elt F) → (⟨S4x2048x4096, .f32⟩ : BufTy).Contents (Elt F) → (⟨S4x2048x4096, .f32⟩ : BufTy).Contents (Elt F)) ]

/-- The four parts, in order, are the stretch. -/
theorem opsB_split : (opsB : List (HloOp τ sig (Elt F))) = opsB1 ++ (opsB2 ++ (opsB3 ++ opsB4)) := rfl

theorem b1_v8 (V : Valuation τ sig (Elt F)) (x0 : (⟨S4x2048x4096, .f32⟩ : BufTy).Contents (Elt F)) (x3 : (⟨S4096, .f32⟩ : BufTy).Contents (Elt F))
    (h4 : V (Proc.devRef .tc main_v4) = val_main_v4 x0 x3) : after opsB1 V (Proc.devRef .tc main_v8) = val_main_v8 x0 x3 := by
  after_results_simp
  rw [h4]
  rfl

theorem b1_v4 (V : Valuation τ sig (Elt F)) : after opsB1 V (Proc.devRef .tc main_v4) = V (Proc.devRef .tc main_v4) :=
  after_of_forall_not_mem (b := Proc.devRef .tc main_v4) _ _ (List.forall_iff_forall_mem.mp (by
          simp only [opsB1, List.Forall, nullary_writes, unary_writes, binary_writes, ternary_writes, quaternary_writes, reshape_writes, binaryIndexed_writes, Finset.mem_singleton]
          repeat' apply And.intro
          all_goals exact devRef_ne_of_ne (by decide)))

theorem b2_v11 (V : Valuation τ sig (Elt F)) (x0 : (⟨S4x2048x4096, .f32⟩ : BufTy).Contents (Elt F)) (x3 : (⟨S4096, .f32⟩ : BufTy).Contents (Elt F))
    (h8 : V (Proc.devRef .tc main_v8) = val_main_v8 x0 x3) : after opsB2 V (Proc.devRef .tc main_v11) = val_main_v11 x0 x3 := by
  after_results_simp
  rw [h8]
  rfl

theorem b2_v4 (V : Valuation τ sig (Elt F)) : after opsB2 V (Proc.devRef .tc main_v4) = V (Proc.devRef .tc main_v4) :=
  after_of_forall_not_mem (b := Proc.devRef .tc main_v4) _ _ (List.forall_iff_forall_mem.mp (by
          simp only [opsB2, List.Forall, nullary_writes, unary_writes, binary_writes, ternary_writes, quaternary_writes, reshape_writes, binaryIndexed_writes, Finset.mem_singleton]
          repeat' apply And.intro
          all_goals exact devRef_ne_of_ne (by decide)))

theorem b2_v8 (V : Valuation τ sig (Elt F)) : after opsB2 V (Proc.devRef .tc main_v8) = V (Proc.devRef .tc main_v8) :=
  after_of_forall_not_mem (b := Proc.devRef .tc main_v8) _ _ (List.forall_iff_forall_mem.mp (by
          simp only [opsB2, List.Forall, nullary_writes, unary_writes, binary_writes, ternary_writes, quaternary_writes, reshape_writes, binaryIndexed_writes, Finset.mem_singleton]
          repeat' apply And.intro
          all_goals exact devRef_ne_of_ne (by decide)))

theorem b3_v14 (V : Valuation τ sig (Elt F)) (x0 : (⟨S4x2048x4096, .f32⟩ : BufTy).Contents (Elt F)) (x3 : (⟨S4096, .f32⟩ : BufTy).Contents (Elt F))
    (h11 : V (Proc.devRef .tc main_v11) = val_main_v11 x0 x3) : after opsB3 V (Proc.devRef .tc main_v14) = val_main_v14 x0 x3 := by
  have e : after opsB3 V (Proc.devRef .tc main_v14)
      = Host.divf (maximumf (val_main_call1_v1 (F := F)) (V (Proc.devRef .tc main_v11))) (val_main_v13 (F := F)) := by
    after_results_simp
    rfl
  rw [e, h11]
  rfl

theorem b3_v4 (V : Valuation τ sig (Elt F)) : after opsB3 V (Proc.devRef .tc main_v4) = V (Proc.devRef .tc main_v4) :=
  after_of_forall_not_mem (b := Proc.devRef .tc main_v4) _ _ (List.forall_iff_forall_mem.mp (by
          simp only [opsB3, List.Forall, nullary_writes, unary_writes, binary_writes, ternary_writes, quaternary_writes, reshape_writes, binaryIndexed_writes, Finset.mem_singleton]
          repeat' apply And.intro
          all_goals exact devRef_ne_of_ne (by decide)))

theorem b3_v8 (V : Valuation τ sig (Elt F)) : after opsB3 V (Proc.devRef .tc main_v8) = V (Proc.devRef .tc main_v8) :=
  after_of_forall_not_mem (b := Proc.devRef .tc main_v8) _ _ (List.forall_iff_forall_mem.mp (by
          simp only [opsB3, List.Forall, nullary_writes, unary_writes, binary_writes, ternary_writes, quaternary_writes, reshape_writes, binaryIndexed_writes, Finset.mem_singleton]
          repeat' apply And.intro
          all_goals exact devRef_ne_of_ne (by decide)))

theorem b4_v27 (V : Valuation τ sig (Elt F)) (x0 : (⟨S4x2048x4096, .f32⟩ : BufTy).Contents (Elt F)) (x3 : (⟨S4096, .f32⟩ : BufTy).Contents (Elt F))
    (h4 : V (Proc.devRef .tc main_v4) = val_main_v4 x0 x3) (h8 : V (Proc.devRef .tc main_v8) = val_main_v8 x0 x3)
    (h14 : V (Proc.devRef .tc main_v14) = val_main_v14 x0 x3) : after opsB4 V (Proc.devRef .tc main_v27) = val_main_v27 x0 x3 := by
  after_results_simp
  rw [h4, h8, h14]
  rfl

/-- The second stretch leaves the quantised activations, in their straight-through form, from the scaled activations. -/
theorem stageB_v27 (W : Valuation τ sig (Elt F)) (x0 : (⟨S4x2048x4096, .f32⟩ : BufTy).Contents (Elt F)) (x3 : (⟨S4096, .f32⟩ : BufTy).Contents (Elt F))
    (h : W (Proc.devRef .tc main_v4) = val_main_v4 x0 x3) : after opsB W (Proc.devRef .tc main_v27) = val_main_v27 x0 x3 := by
  rw [opsB_split, after_append, after_append, after_append]
  have h4₁ : after opsB1 W (Proc.devRef .tc main_v4) = val_main_v4 x0 x3 := (b1_v4 W).trans h
  have h8₁ := b1_v8 W x0 x3 h
  have h4₂ : after opsB2 (after opsB1 W) (Proc.devRef .tc main_v4) = val_main_v4 x0 x3 := (b2_v4 _).trans h4₁
  have h8₂ : after opsB2 (after opsB1 W) (Proc.devRef .tc main_v8) = val_main_v8 x0 x3 := (b2_v8 _).trans h8₁
  have h11₂ := b2_v11 (after opsB1 W) x0 x3 h8₁
  have h4₃ : after opsB3 (after opsB2 (after opsB1 W)) (Proc.devRef .tc main_v4) = val_main_v4 x0 x3 := (b3_v4 _).trans h4₂
  have h8₃ : after opsB3 (after opsB2 (after opsB1 W)) (Proc.devRef .tc main_v8) = val_main_v8 x0 x3 := (b3_v8 _).trans h8₂
  have h14₃ := b3_v14 (after opsB2 (after opsB1 W)) x0 x3 h11₂
  exact b4_v27 _ x0 x3 h4₃ h8₃ h14₃

theorem stageB_v7 (W : Valuation τ sig (Elt F)) : after opsB W (Proc.devRef .tc main_v7) = W (Proc.devRef .tc main_v7) :=
  after_of_forall_not_mem (b := Proc.devRef .tc main_v7) _ _ (List.forall_iff_forall_mem.mp (by
          simp only [opsB, List.Forall, nullary_writes, unary_writes, binary_writes, ternary_writes, quaternary_writes, reshape_writes, binaryIndexed_writes, Finset.mem_singleton]
          repeat' apply And.intro
          all_goals exact devRef_ne_of_ne (by decide)))

theorem stageB_arg2 (W : Valuation τ sig (Elt F)) : after opsB W (Proc.devRef .tc main_arg2) = W (Proc.devRef .tc main_arg2) :=
  after_of_forall_not_mem (b := Proc.devRef .tc main_arg2) _ _ (List.forall_iff_forall_mem.mp (by
          simp only [opsB, List.Forall, nullary_writes, unary_writes, binary_writes, ternary_writes, quaternary_writes, reshape_writes, binaryIndexed_writes, Finset.mem_singleton]
          repeat' apply And.intro
          all_goals exact devRef_ne_of_ne (by decide)))

end Cert.ReferenceIdeal.RunH

end
-- ==== Proof.RefStageC.lean ====
/-
  The third stretch of the reference's operations, the weights' quantiser: from any contents W of the buffers that
  hold the scaled weights w · s, it leaves the quantised weights in their straight-through form, as the
  operation-by-operation reading of the program names them; it writes neither the quantised activations nor the bias.
-/
import proofs.«170529_j14078902796908_2_alg».proof.Proof.RefStages

set_option maxRecDepth 16384

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The stretch leaves the weights' straight-through quantised form, when it finds the scaled weights. -/
theorem stageC_v53 (W : Valuation τ sig (Elt F)) (x1 : (⟨S4096x4096, .f32⟩ : BufTy).Contents (Elt F)) (x3 : (⟨S4096, .f32⟩ : BufTy).Contents (Elt F))
    (h : W (Proc.devRef .tc main_v7) = val_main_v7 x1 x3) : after opsC W (Proc.devRef .tc main_v53) = val_main_v53 x1 x3 := by
  after_results_simp
  rw [h]
  rfl

/-- It does not write the quantised activations. -/
theorem stageC_v27 (W : Valuation τ sig (Elt F)) : after opsC W (Proc.devRef .tc main_v27) = W (Proc.devRef .tc main_v27) :=
  after_of_forall_not_mem (b := Proc.devRef .tc main_v27) _ _ (List.forall_iff_forall_mem.mp (by
          simp only [opsC, List.Forall, nullary_writes, unary_writes, binary_writes, ternary_writes, quaternary_writes, reshape_writes, binaryIndexed_writes, Finset.mem_singleton]
          repeat' apply And.intro
          all_goals exact devRef_ne_of_ne (by decide)))

/-- It does not write the bias. -/
theorem stageC_arg2 (W : Valuation τ sig (Elt F)) : after opsC W (Proc.devRef .tc main_arg2) = W (Proc.devRef .tc main_arg2) :=
  after_of_forall_not_mem (b := Proc.devRef .tc main_arg2) _ _ (List.forall_iff_forall_mem.mp (by
          simp only [opsC, List.Forall, nullary_writes, unary_writes, binary_writes, ternary_writes, quaternary_writes, reshape_writes, binaryIndexed_writes, Finset.mem_singleton]
          repeat' apply And.intro
          all_goals exact devRef_ne_of_ne (by decide)))

end Cert.ReferenceIdeal.RunH

end
-- ==== Proof.RefRunH.lean ====
/-
  The reference's run, assembled from its four stretches: the first leaves x / s and w · s, the second the quantised
  activations in straight-through form, the third the quantised weights in straight-through form, and the last
  multiplies them and adds the bias. So from any launch memory every execution of the reference ends with its result
  buffer at the last stage's value of the four arguments, and with the arguments unchanged.
-/
import proofs.«170529_j14078902796908_2_alg».proof.Proof.RefStageA
import proofs.«170529_j14078902796908_2_alg».proof.Proof.RefStageB
import proofs.«170529_j14078902796908_2_alg».proof.Proof.RefStageC

set_option maxRecDepth 16384

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The last stretch: the product of the two quantised arrays, plus the bias. -/
theorem stageD (W : Valuation τ sig (Elt F)) (x0 : (⟨S4x2048x4096, .f32⟩ : BufTy).Contents (Elt F)) (x1 : (⟨S4096x4096, .f32⟩ : BufTy).Contents (Elt F))
    (x2 x3 : (⟨S4096, .f32⟩ : BufTy).Contents (Elt F))
    (h27 : W (Proc.devRef .tc main_v27) = val_main_v27 x0 x3) (h53 : W (Proc.devRef .tc main_v53) = val_main_v53 x1 x3)
    (h2 : W (Proc.devRef .tc main_arg2) = x2) :
    after opsD W (Proc.devRef .tc main_v57) = val_main_v57 x0 x1 x2 x3 := by
  after_results_simp
  rw [h27, h53, h2]
  rfl

/-- The whole list: the result buffer ends at the last stage's value of the arguments as the starting contents hold them. -/
theorem result_after (L : Valuation τ sig (Elt F)) :
    after ops L (Proc.devRef .tc main_v57)
      = val_main_v57 (L (Proc.devRef .tc main_arg0)) (L (Proc.devRef .tc main_arg1)) (L (Proc.devRef .tc main_arg2)) (L (Proc.devRef .tc main_arg3)) := by
  rw [ops_split, after_append, after_append, after_append]
  have a4 := stageA_v4 L
  have a7 := stageA_v7 L
  have a2 := stageA_arg2 L
  generalize after opsA L = W1 at a4 a7 a2 ⊢
  have b27 := stageB_v27 W1 _ _ a4
  have b7 := (stageB_v7 W1).trans a7
  have b2 := (stageB_arg2 W1).trans a2
  generalize after opsB W1 = W2 at b27 b7 b2 ⊢
  have c53 := stageC_v53 W2 _ _ b7
  have c27 := (stageC_v27 W2).trans b27
  have c2 := (stageC_arg2 W2).trans b2
  generalize after opsC W2 = W3 at c53 c27 c2 ⊢
  exact stageD W3 _ _ _ _ c27 c53 c2

set_option maxHeartbeats 4000000 in
/-- On every device, from any memory with zero counters: every weakly fair execution of the reference's @main
    terminates with the result buffer at the last stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = val_main_v57 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v57).trans (result_after _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunH

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefValue.lean ====
/-
  The reference program computes the specification's value.

  The column scale is s(d) = min(1e4, max(1e-4, exp l(d))). The reference divides x by s and merges the two leading axes
  of [4, 2048, 4096] into the rows of an [8192, 4096] array: row 2048 · p + q is the row (p, q) of x / s. Each row is
  quantised with its own step (the maximum of 1e-5 and of the row's largest magnitude, over 127), and the quantised
  row is carried in the straight-through form u + (dq - u). The weights w · s are split into groups of 128 consecutive
  entries of a row, [4096, 4096] as [131072, 128]: group 32 · o + h is group h of row o, and column d of a row lies in
  group d / 128 at offset d % 128. Each group is quantised with its own step and zero point and carried in the same
  straight-through form. The result contracts the two over the 4096 columns and adds the bias.

  Every array of the reference that matters is read here at literal coordinates, one lemma per array, outermost last:
  the column scale, x / s, the merged rows, the row maximum of |x / s|, the activation step, the quantised activation
  and its straight-through form; w · s, the groups, their maximum and minimum, the weight step, the zero point, the
  quantised weight and its straight-through form; then the contraction and the bias.
-/
import proofs.«170529_j14078902796908_2_alg».proof.Proof.RefRead
import proofs.«170529_j14078902796908_2_alg».proof.Proof.Spec
import proofs.«170529_j14078902796908_2_alg».proof.Proof.LibScatterConst
import proofs.«170529_j14078902796908_2_alg».proof.Proof.LibRowMin

noncomputable section

namespace Cert.ReferenceIdeal.RefValue

open Idealize.ShloMosaic Idealize.ShloMosaic.ValueIdx Idealize.ShloMosaic.TcCoe Idealize.SL.Sem Cert.ReferenceIdeal Cert.Q
open scoped BigOperators

/-- Row 2048 · p + q of the [8192, 4096] array that merges the two leading axes of [4, 2048, 4096]. -/
def row (p : Fin 4) (q : Fin 2048) : Fin 8192 := ⟨p.val * 2048 + q.val, by omega⟩

/-- Group 32 · o + h of the [131072, 128] array that splits each row of [4096, 4096] into 32 groups of 128. -/
def gidx (o : Fin 4096) (h : Fin 32) : Fin 131072 := ⟨o.val * 32 + h.val, by omega⟩

/-- A fold of the maximum written with the float operation is the fold of `max`, and may be read entry by entry. -/
theorem fold_maximumf_eq {n : ℕ} (b : EReal) (f g : Fin n → EReal) (h : ∀ d, f d = g d) :
    (Finset.univ : Finset (Fin n)).fold (FloatOps.maximumf (F := Ideal) (φ := .f32)) b f
      = (Finset.univ : Finset (Fin n)).fold max b g := by
  have e : f = g := funext h
  subst e
  rfl

/-- A fold of the minimum written with the float operation is the fold of `min`, and may be read entry by entry. -/
theorem fold_minimumf_eq {n : ℕ} (b : EReal) (f g : Fin n → EReal) (h : ∀ d, f d = g d) :
    (Finset.univ : Finset (Fin n)).fold (FloatOps.minimumf (F := Ideal) (φ := .f32)) b f
      = (Finset.univ : Finset (Fin n)).fold min b g := by
  have e : f = g := funext h
  subst e
  rfl

/-! ## The column scale -/

/-- The clipped exponential of the log-scale vector, at any index. -/
theorem scale_apply (l : FVec Ideal S4096 .f32) (i : S4096.Idx) :
    Read.val_main_v1 (F := Ideal) l i = scale (l i) := by
  rw [Read.val_main_v1_apply, Read.val_main_call0_v4_apply, Read.val_main_call0_v2_apply, Read.val_main_call0_v1_apply]
  rfl

/-! ## Activations -/

/-- x / s at (p, q, d). -/
theorem v4_apply (x : FVec Ideal S4x2048x4096 .f32) (l : FVec Ideal S4096 .f32) (p : Fin 4) (q : Fin 2048) (d : Fin 4096) :
    Read.val_main_v4 (F := Ideal) x l (ix3 p q d) = rowR x l p q d := by
  have e : Read.idx_main_v2 (Read.idx_main_v3 (ix3 p q d)) = ix1 d :=
    funext fun a => Fin.ext (by match a with | ⟨0, _⟩ => rfl)
  rw [Read.val_main_v4_apply, Read.val_main_v3_apply, Read.val_main_v2_apply, e, scale_apply]
  rfl

/-- The merged array at (2048 · p + q, d) is x / s at (p, q, d). -/
theorem v8_apply (x : FVec Ideal S4x2048x4096 .f32) (l : FVec Ideal S4096 .f32) (p : Fin 4) (q : Fin 2048) (d : Fin 4096) :
    Read.val_main_v8 (F := Ideal) x l (ix2 (row p q) d) = rowR x l p q d := by
  have hp := p.isLt
  have hq := q.isLt
  have hd := d.isLt
  have e : Read.idx_main_v8 (ix2 (row p q) d) = ix3 p q d := funext fun a => Fin.ext (by
    match a with
    | ⟨0, _⟩ => show ((p.val * 2048 + q.val) * 4096 + d.val) / 8388608 = p.val; omega
    | ⟨1, _⟩ => show ((p.val * 2048 + q.val) * 4096 + d.val) / 4096 % 2048 = q.val; omega
    | ⟨2, _⟩ => show ((p.val * 2048 + q.val) * 4096 + d.val) % 4096 = d.val; omega)
  rw [Read.val_main_v8_apply, e, v4_apply]

/-- The row maximum of |x / s|. -/
theorem v10_apply (x : FVec Ideal S4x2048x4096 .f32) (l : FVec Ideal S4096 .f32) (p : Fin 4) (q : Fin 2048) :
    Read.val_main_v10 (F := Ideal) x l (ix1 (row p q))
      = fmax (fun d => max (rowR x l p q d) (-(rowR x l p q d))) := by
  unfold Read.val_main_v10
  refine (Cert.ScatterConst.hostReduce_max_rows (a := 8192) (n := 4096) (Read.val_main_v9 (F := Ideal) x l)
    (Read.val_main_cst_1 (F := Ideal)) Gen.reducesTo_S8192x4096_S8192_d1 (by decide) Gen.h_S_ (row p q)).trans
    (fold_maximumf_eq _ _ _ fun d => ?_)
  rw [Read.val_main_v9_apply, v8_apply]
  rfl

/-- The activation step of row (p, q). -/
theorem v14_apply (x : FVec Ideal S4x2048x4096 .f32) (l : FVec Ideal S4096 .f32) (p : Fin 4) (q : Fin 2048) :
    Read.val_main_v14 (F := Ideal) x l (ix2 (row p q) (0 : Fin 1)) = actStep (rowR x l p q) := by
  have e : Read.idx_main_v11 (ix2 (row p q) (0 : Fin 1)) = ix1 (row p q) :=
    funext fun a => Fin.ext (by match a with | ⟨0, _⟩ => rfl)
  rw [Read.val_main_v14_apply, Read.val_main_v12_apply, Read.val_main_v11_apply, Read.val_main_call1_v1_apply,
    Read.val_main_v13_apply, e, v10_apply]
  rfl

/-- The quantised activation at (2048 · p + q, d). -/
theorem v24_apply (x : FVec Ideal S4x2048x4096 .f32) (l : FVec Ideal S4096 .f32) (p : Fin 4) (q : Fin 2048) (d : Fin 4096) :
    Read.val_main_v24 (F := Ideal) x l (ix2 (row p q) d) = actDqR (actStep (rowR x l p q)) (rowR x l p q d) := by
  have e15 : Read.idx_main_v15 (ix2 (row p q) d) = ix2 (row p q) (0 : Fin 1) :=
    funext fun a => Fin.ext (by match a with | ⟨0, _⟩ => rfl | ⟨1, _⟩ => rfl)
  have e23 : Read.idx_main_v23 (ix2 (row p q) d) = ix2 (row p q) (0 : Fin 1) :=
    funext fun a => Fin.ext (by match a with | ⟨0, _⟩ => rfl | ⟨1, _⟩ => rfl)
  rw [Read.val_main_v24_apply, Read.val_main_v22_apply, Read.val_main_v20_apply, Read.val_main_call3_v4_apply,
    Read.val_main_call3_v2_apply, Read.val_main_call3_v1_apply, Read.val_main_v19_apply, Read.val_main_v17_apply,
    Read.val_main_v16_apply, Read.val_main_v15_apply, Read.val_main_v18_apply, Read.val_main_v21_apply,
    Read.val_main_v23_apply, e15, e23, v14_apply, v8_apply]
  rfl

/-- The straight-through activation at (p, q, d). -/
theorem v27_apply (x : FVec Ideal S4x2048x4096 .f32) (l : FVec Ideal S4096 .f32) (p : Fin 4) (q : Fin 2048) (d : Fin 4096) :
    Read.val_main_v27 (F := Ideal) x l (ix3 p q d) = actR (rowR x l p q) d := by
  have hp := p.isLt
  have hq := q.isLt
  have hd := d.isLt
  have e25 : Read.idx_main_v25 (ix3 p q d) = ix2 (row p q) d := funext fun a => Fin.ext (by
    match a with
    | ⟨0, _⟩ => show ((p.val * 2048 + q.val) * 4096 + d.val) / 4096 = p.val * 2048 + q.val; omega
    | ⟨1, _⟩ => show ((p.val * 2048 + q.val) * 4096 + d.val) % 4096 = d.val; omega)
  rw [Read.val_main_v27_apply, Read.val_main_v26_apply, Read.val_main_v25_apply, e25, v24_apply, v4_apply]
  rfl

/-! ## Weights -/

/-- w · s at (o, d). -/
theorem v7_apply (w : FVec Ideal S4096x4096 .f32) (l : FVec Ideal S4096 .f32) (o d : Fin 4096) :
    Read.val_main_v7 (F := Ideal) w l (ix2 o d) = w (ix2 o d) * scale (l (ix1 d)) := by
  have e : Read.idx_main_v5 (Read.idx_main_v6 (ix2 o d)) = ix1 d :=
    funext fun a => Fin.ext (by match a with | ⟨0, _⟩ => rfl)
  rw [Read.val_main_v7_apply, Read.val_main_v6_apply, Read.val_main_v5_apply, e, scale_apply]
  rfl

/-- The grouped array at (32 · o + h, e) is entry e of group h of row o of w · s. -/
theorem v28_apply (w : FVec Ideal S4096x4096 .f32) (l : FVec Ideal S4096 .f32) (o : Fin 4096) (h : Fin 32) (e : Fin 128) :
    Read.val_main_v28 (F := Ideal) w l (ix2 (gidx o h) e) = wgrp w l o h e := by
  have ho := o.isLt
  have hh := h.isLt
  have he := e.isLt
  have ei : Read.idx_main_v28 (ix2 (gidx o h) e) = ix2 o (col h e) := funext fun a => Fin.ext (by
    match a with
    | ⟨0, _⟩ => show ((o.val * 32 + h.val) * 128 + e.val) / 4096 = o.val; omega
    | ⟨1, _⟩ => show ((o.val * 32 + h.val) * 128 + e.val) % 4096 = h.val * 128 + e.val; omega)
  rw [Read.val_main_v28_apply, ei, v7_apply]
  rfl

/-- The maximum of a group. -/
theorem v29_apply (w : FVec Ideal S4096x4096 .f32) (l : FVec Ideal S4096 .f32) (o : Fin 4096) (h : Fin 32) :
    Read.val_main_v29 (F := Ideal) w l (ix1 (gidx o h)) = fmax (wgrp w l o h) := by
  unfold Read.val_main_v29
  exact (Cert.ScatterConst.hostReduce_max_rows (a := 131072) (n := 128) (Read.val_main_v28 (F := Ideal) w l)
    (Read.val_main_cst_7 (F := Ideal)) Gen.reducesTo_S131072x128_S131072_d1 (by decide) Gen.h_S_ (gidx o h)).trans
    (fold_maximumf_eq _ _ _ fun e => v28_apply w l o h e)

/-- The minimum of a group. -/
theorem v31_apply (w : FVec Ideal S4096x4096 .f32) (l : FVec Ideal S4096 .f32) (o : Fin 4096) (h : Fin 32) :
    Read.val_main_v31 (F := Ideal) w l (ix1 (gidx o h)) = fmin (wgrp w l o h) := by
  unfold Read.val_main_v31
  exact (Cert.RowMin.hostReduce_min_rows (a := 131072) (n := 128) (Read.val_main_v28 (F := Ideal) w l)
    (Read.val_main_cst_8 (F := Ideal)) Gen.reducesTo_S131072x128_S131072_d1 (by decide) Gen.h_S_ (gidx o h)).trans
    (fold_minimumf_eq _ _ _ fun e => v28_apply w l o h e)

/-- The minimum of a group, kept as a column. -/
theorem v32_apply (w : FVec Ideal S4096x4096 .f32) (l : FVec Ideal S4096 .f32) (o : Fin 4096) (h : Fin 32) :
    Read.val_main_v32 (F := Ideal) w l (ix2 (gidx o h) (0 : Fin 1)) = fmin (wgrp w l o h) := by
  have e : Read.idx_main_v32 (ix2 (gidx o h) (0 : Fin 1)) = ix1 (gidx o h) :=
    funext fun a => Fin.ext (by match a with | ⟨0, _⟩ => rfl)
  rw [Read.val_main_v32_apply, e, v31_apply]

/-- The weight step of a group. -/
theorem v36_apply (w : FVec Ideal S4096x4096 .f32) (l : FVec Ideal S4096 .f32) (o : Fin 4096) (h : Fin 32) :
    Read.val_main_v36 (F := Ideal) w l (ix2 (gidx o h) (0 : Fin 1)) = wStep (wgrp w l o h) := by
  have e : Read.idx_main_v30 (ix2 (gidx o h) (0 : Fin 1)) = ix1 (gidx o h) :=
    funext fun a => Fin.ext (by match a with | ⟨0, _⟩ => rfl)
  rw [Read.val_main_v36_apply, Read.val_main_v34_apply, Read.val_main_call4_v1_apply, Read.val_main_v33_apply,
    Read.val_main_v30_apply, Read.val_main_v35_apply, e, v29_apply, v32_apply]
  rfl

/-- The zero point of a group. -/
theorem v40_apply (w : FVec Ideal S4096x4096 .f32) (l : FVec Ideal S4096 .f32) (o : Fin 4096) (h : Fin 32) :
    Read.val_main_v40 (F := Ideal) w l (ix2 (gidx o h) (0 : Fin 1)) = wZeroR (wgrp w l o h) := by
  rw [Read.val_main_v40_apply, Read.val_main_call6_v4_apply, Read.val_main_call6_v2_apply, Read.val_main_call6_v1_apply,
    Read.val_main_v39_apply, Read.val_main_v38_apply, Read.val_main_v37_apply, v32_apply, v36_apply]
  rfl

/-- The quantised weight at (32 · o + h, e). -/
theorem v50_apply (w : FVec Ideal S4096x4096 .f32) (l : FVec Ideal S4096 .f32) (o : Fin 4096) (h : Fin 32) (e : Fin 128) :
    Read.val_main_v50 (F := Ideal) w l (ix2 (gidx o h) e) = wDqR (wgrp w l o h) e := by
  have e41 : Read.idx_main_v41 (ix2 (gidx o h) e) = ix2 (gidx o h) (0 : Fin 1) :=
    funext fun a => Fin.ext (by match a with | ⟨0, _⟩ => rfl | ⟨1, _⟩ => rfl)
  have e44 : Read.idx_main_v44 (ix2 (gidx o h) e) = ix2 (gidx o h) (0 : Fin 1) :=
    funext fun a => Fin.ext (by match a with | ⟨0, _⟩ => rfl | ⟨1, _⟩ => rfl)
  have e47 : Read.idx_main_v47 (ix2 (gidx o h) e) = ix2 (gidx o h) (0 : Fin 1) :=
    funext fun a => Fin.ext (by match a with | ⟨0, _⟩ => rfl | ⟨1, _⟩ => rfl)
  have e49 : Read.idx_main_v49 (ix2 (gidx o h) e) = ix2 (gidx o h) (0 : Fin 1) :=
    funext fun a => Fin.ext (by match a with | ⟨0, _⟩ => rfl | ⟨1, _⟩ => rfl)
  rw [Read.val_main_v50_apply, Read.val_main_v48_apply, Read.val_main_v46_apply, Read.val_main_call8_v4_apply,
    Read.val_main_call8_v2_apply, Read.val_main_call8_v1_apply, Read.val_main_v45_apply, Read.val_main_v43_apply,
    Read.val_main_v42_apply, Read.val_main_v41_apply, Read.val_main_v44_apply, Read.val_main_v47_apply,
    Read.val_main_v49_apply, e41, e44, e47, e49, v36_apply, v40_apply, v28_apply]
  rfl

/-- Column d of a row lies in group d / 128 at offset d % 128. -/
theorem col_grp_off (d : Fin 4096) : col (grp d) (off d) = d :=
  Fin.ext (by have hd := d.isLt; show d.val / 128 * 128 + d.val % 128 = d.val; omega)

/-- The straight-through weight at (o, d). -/
theorem v53_apply (w : FVec Ideal S4096x4096 .f32) (l : FVec Ideal S4096 .f32) (o d : Fin 4096) :
    Read.val_main_v53 (F := Ideal) w l (ix2 o d) = wR (wgrp w l o (grp d)) (off d) := by
  have ho := o.isLt
  have hd := d.isLt
  have e51 : Read.idx_main_v51 (ix2 o d) = ix2 (gidx o (grp d)) (off d) := funext fun a => Fin.ext (by
    match a with
    | ⟨0, _⟩ => show (o.val * 4096 + d.val) / 128 = o.val * 32 + d.val / 128; omega
    | ⟨1, _⟩ => show (o.val * 4096 + d.val) % 128 = d.val % 128; omega)
  have hg : wgrp w l o (grp d) (off d) = w (ix2 o d) * scale (l (ix1 d)) := by
    unfold wgrp
    rw [col_grp_off]
  rw [Read.val_main_v53_apply, Read.val_main_v52_apply, Read.val_main_v51_apply, e51, v50_apply, v7_apply, ← hg]
  rfl

/-! ## The result -/

/-- The reference's last stage is the specification's value. -/
theorem ref_eq_GR (x : FVec Ideal S4x2048x4096 .f32) (w : FVec Ideal S4096x4096 .f32) (b l : FVec Ideal S4096 .f32) :
    Read.val_main_v57 (F := Ideal) x w b l = GR x w b l := by
  funext i
  obtain ⟨p, q, o, rfl⟩ : ∃ (p : Fin 4) (q : Fin 2048) (o : Fin 4096), i = ix3 p q o := ⟨i 0, i 1, i 2, eq_ix3 i⟩
  have eb : Read.idx_main_v55 (Read.idx_main_v56 (ix3 p q o)) = ix1 o :=
    funext fun a => Fin.ext (by match a with | ⟨0, _⟩ => rfl)
  rw [Read.val_main_v57_apply, Read.val_main_v54_apply, Read.val_main_v56_apply, Read.val_main_v55_apply, eb]
  show _ + b (ix1 o) = (∑ d : Fin 4096, actR (rowR x l p q) d * wR (wgrp w l o (grp d)) (off d)) + b (ix1 o)
  refine congrArg (· + b (ix1 o)) (Finset.sum_congr rfl fun k _ => ?_)
  have el : Read.lidx_main_v54 (ix3 p q o) k = ix3 p q k :=
    funext fun a => Fin.ext (by match a with | ⟨0, _⟩ => rfl | ⟨1, _⟩ => rfl | ⟨2, _⟩ => rfl)
  have er : Read.ridx_main_v54 (ix3 p q o) k = ix2 o k :=
    funext fun a => Fin.ext (by match a with | ⟨0, _⟩ => rfl | ⟨1, _⟩ => rfl)
  rw [el, er, v27_apply, v53_apply]

/-- The run's result term is the specification's value of the four arguments. -/
theorem res_eq_GR (m : (ℓ : Loc nD τ sig) → Buf (Elt Ideal) ℓ) (c : Dev nD) :
    Cert.ReferenceIdeal.Value.res_main_v57 (F := Ideal) m c
      = GR (m ((c.tc : Thread nD τ).loc main_arg0)) (m ((c.tc : Thread nD τ).loc main_arg1))
          (m ((c.tc : Thread nD τ).loc main_arg2)) (m ((c.tc : Thread nD τ).loc main_arg3)) :=
  (Read.val_main_v57_eq (F := Ideal) m c).trans (ref_eq_GR _ _ _ _)

end Cert.ReferenceIdeal.RefValue

end
-- ==== Proof.LibRecipScale.lean ====
/-
  Scaling by a reciprocal taken first, on the extended reals.

  The quotient `Ideal.div x d` is `x · d⁻¹` whenever `d` is not zero, and so is the product of `x` with the
  quotient `Ideal.div 1 d`: the two agree for EVERY extended real `x` (the infinities included) and every
  divisor that is not zero — nothing about `d` being finite is used.  A maximum with one is such a divisor.
-/
import Idealize.ShloMosaic.PureOps.Ideal

noncomputable section

namespace Cert.RecipScale

open Idealize.ShloMosaic

/-- Multiplying by the reciprocal `1 / d` is dividing by `d`, for a divisor that is not zero. -/
theorem mul_div_one (x d : EReal) (hd : d ≠ 0) : x * Ideal.div 1 d = Ideal.div x d := by
  unfold Ideal.div
  rw [if_neg hd, if_neg hd, one_mul]

/-- A maximum with one is at least one, hence not zero. -/
theorem max_one_ne_zero (s : EReal) : max s 1 ≠ 0 :=
  ne_of_gt (lt_of_lt_of_le zero_lt_one (le_max_right s 1))

end Cert.RecipScale

end
-- ==== Proof.Algebra.lean ====
/-
  The two spellings of the quantisers agree on finite data.

  On the extended reals a product with the reciprocal 1 / s is the quotient by s whenever s ≠ 0, and the
  straight-through form t + (q - t) is q whenever t is a real number; the quantisation steps are positive (a maximum
  with the positive 1e-5, divided by a positive literal), the column scale is a positive real, and the literals
  127, -128, 15, 0, 1 denote the integers the reference converts. So the kernel's result function is the reference's
  wherever the activations and the weights are finite.
-/
import proofs.«170529_j14078902796908_2_alg».proof.Proof.Spec
import proofs.«170529_j14078902796908_2_alg».proof.Proof.LibRecipScale
import Idealize.ShloMosaic.PureOps.Ideal.Laws

noncomputable section

namespace Cert.Q

open Idealize.ShloMosaic Idealize.ShloMosaic.ValueIdx
open scoped BigOperators

/-! ## The literals -/

theorem lit_zero : lit 0x00000000#32 = 0 := Ideal.ofBits_zero_f32
theorem lit_one : lit 0x3F800000#32 = 1 := by
  simp [Ideal.ofBits, Ideal.ieee, -EReal.coe_mul]; norm_num
theorem lit_127 : lit 0x42FE0000#32 = ((127 : ℝ) : EReal) := by
  simp [Ideal.ofBits, Ideal.ieee, -EReal.coe_mul]; norm_num
theorem lit_m128 : lit 0xC3000000#32 = ((-128 : ℝ) : EReal) := by
  simp [Ideal.ofBits, Ideal.ieee, -EReal.coe_mul]; norm_num
theorem lit_15 : lit 0x41700000#32 = ((15 : ℝ) : EReal) := by
  simp [Ideal.ofBits, Ideal.ieee, -EReal.coe_mul]; norm_num
theorem int_127 : int 127#32 = ((127 : ℝ) : EReal) := by
  simp [int, BitVec.toInt]
theorem int_m128 : int 4294967168#32 = ((-128 : ℝ) : EReal) := by
  simp [int, BitVec.toInt]
theorem int_15 : int 15#32 = ((15 : ℝ) : EReal) := by
  simp [int, BitVec.toInt]
theorem int_0 : int 0#32 = 0 := by
  simp [int, BitVec.toInt]

/-- 1e-5 is a positive real. -/
theorem lit_eps : ∃ r : ℝ, 0 < r ∧ lit 0x3727C5AC#32 = (r : EReal) := by
  refine ⟨_, ?_, by simp [Ideal.ofBits, Ideal.ieee, -EReal.coe_mul]; rfl⟩
  norm_num
/-- 1e-4 is a positive real. -/
theorem lit_lo : ∃ r : ℝ, 0 < r ∧ lit 0x38D1B717#32 = (r : EReal) := by
  refine ⟨_, ?_, by simp [Ideal.ofBits, Ideal.ieee, -EReal.coe_mul]; rfl⟩
  norm_num
/-- 1e4 is a positive real. -/
theorem lit_hi : ∃ r : ℝ, 0 < r ∧ lit 0x461C4000#32 = (r : EReal) := by
  refine ⟨_, ?_, by simp [Ideal.ofBits, Ideal.ieee, -EReal.coe_mul]; rfl⟩
  norm_num

/-! ## Reciprocals and the straight-through form -/

/-- A product with the reciprocal (the literal 1.0 over d) is the quotient, off d = 0. -/
theorem mul_recip (x d : EReal) (hd : d ≠ 0) : x * Ideal.div (lit 0x3F800000#32) d = Ideal.div x d := by
  rw [lit_one]; exact Cert.RecipScale.mul_div_one x d hd

/-- For a real t, t + (q - t) = q, whatever extended real q is. -/
theorem straight_through (t : ℝ) (q : EReal) : (t : EReal) + (q - (t : EReal)) = q := by
  induction q using EReal.rec with
  | bot => simp
  | top => simp
  | coe r => norm_cast; ring

/-- A positive extended real divided by a positive real literal is not zero. -/
theorem div_pos_ne_zero (a : EReal) (ha : 0 < a) (c : ℝ) (hc : 0 < c) : Ideal.div a (c : EReal) ≠ 0 := by
  rw [Ideal.div_coe (ne_of_gt hc)]
  exact ne_of_gt (EReal.mul_pos ha (by exact_mod_cast one_div_pos.mpr hc))

/-- A maximum with 1e-5 is positive. -/
theorem max_eps_pos (y : EReal) : 0 < max (lit 0x3727C5AC#32) y := by
  obtain ⟨r, hr, e⟩ := lit_eps
  exact lt_max_of_lt_left (by rw [e]; exact_mod_cast hr)

theorem actStep_ne_zero {n : ℕ} (u : Fin n → EReal) : actStep u ≠ 0 := by
  unfold actStep; rw [lit_127]; exact div_pos_ne_zero _ (max_eps_pos _) 127 (by norm_num)

theorem wStep_ne_zero {n : ℕ} (g : Fin n → EReal) : wStep g ≠ 0 := by
  unfold wStep; rw [lit_15]; exact div_pos_ne_zero _ (max_eps_pos _) 15 (by norm_num)

/-- The column scale is a positive real. -/
theorem scale_real (l : EReal) : ∃ r : ℝ, 0 < r ∧ scale l = (r : EReal) := by
  obtain ⟨a, ha, ea⟩ := lit_lo
  obtain ⟨b, hb, eb⟩ := lit_hi
  unfold scale; rw [ea, eb]
  have h1 : (0 : EReal) < max (a : EReal) (Ideal.exp l) := lt_max_of_lt_left (by exact_mod_cast ha)
  have h2 : (0 : EReal) < min (b : EReal) (max (a : EReal) (Ideal.exp l)) := lt_min (by exact_mod_cast hb) h1
  have h3 : min (b : EReal) (max (a : EReal) (Ideal.exp l)) ≤ (b : EReal) := min_le_left _ _
  have hne_top : min (b : EReal) (max (a : EReal) (Ideal.exp l)) ≠ ⊤ := ne_top_of_le_ne_top (EReal.coe_ne_top b) h3
  have hne_bot : min (b : EReal) (max (a : EReal) (Ideal.exp l)) ≠ ⊥ := ne_bot_of_gt h2
  refine ⟨(min (b : EReal) (max (a : EReal) (Ideal.exp l))).toReal, ?_, (EReal.coe_toReal hne_top hne_bot).symm⟩
  have := h2; rw [← EReal.coe_toReal hne_top hne_bot] at this; exact_mod_cast this

theorem scale_ne_zero (l : EReal) : scale l ≠ 0 := by
  obtain ⟨r, hr, e⟩ := scale_real l; rw [e]; exact_mod_cast ne_of_gt hr

/-! ## The activations -/

theorem actK_eq_actR {n : ℕ} (u : Fin n → EReal) (d : Fin n) (hu : ∃ r : ℝ, u d = (r : EReal)) : actK u d = actR u d := by
  obtain ⟨r, hr⟩ := hu
  unfold actK actR actDqR
  rw [mul_recip _ _ (actStep_ne_zero u), hr, straight_through, lit_zero, add_zero, sub_zero, lit_127, lit_m128, int_127, int_m128]

/-! ## The weights -/

theorem wZeroK_eq {n : ℕ} (g : Fin n → EReal) : wZeroK g = wZeroR g := by
  unfold wZeroK wZeroR
  rw [mul_recip _ _ (wStep_ne_zero g), lit_zero, zero_sub, lit_15, int_15, int_0]

theorem wK_eq_wR {n : ℕ} (g : Fin n → EReal) (e : Fin n) (hg : ∃ r : ℝ, g e = (r : EReal)) : wK g e = wR g e := by
  obtain ⟨r, hr⟩ := hg
  unfold wK wR wDqR
  rw [wZeroK_eq, mul_recip _ _ (wStep_ne_zero g), hr, straight_through, lit_zero, lit_15, int_15, int_0]

/-! ## The whole result -/

theorem rowK_eq_rowR (x : SX.Idx → EReal) (l : SV.Idx → EReal) (p : Fin 4) (q : Fin 2048) : rowK x l p q = rowR x l p q := by
  funext d; unfold rowK rowR; exact mul_recip _ _ (scale_ne_zero _)

theorem rowR_real (x : SX.Idx → EReal) (l : SV.Idx → EReal) (p : Fin 4) (q : Fin 2048) (d : Fin 4096)
    (hx : ∃ r : ℝ, x (ix3 p q d) = (r : EReal)) : ∃ r : ℝ, rowR x l p q d = (r : EReal) := by
  obtain ⟨r, hr⟩ := hx
  obtain ⟨s, hs, es⟩ := scale_real (l (ix1 d))
  refine ⟨r * (1 / s), ?_⟩
  unfold rowR; rw [hr, es, Ideal.div_coe (ne_of_gt hs)]; norm_cast

theorem wgrp_real (w : SW.Idx → EReal) (l : SV.Idx → EReal) (o : Fin 4096) (h : Fin 32) (e : Fin 128)
    (hw : ∃ r : ℝ, w (ix2 o (col h e)) = (r : EReal)) : ∃ r : ℝ, wgrp w l o h e = (r : EReal) := by
  obtain ⟨r, hr⟩ := hw
  obtain ⟨s, hs, es⟩ := scale_real (l (ix1 (col h e)))
  refine ⟨r * s, ?_⟩
  unfold wgrp; rw [hr, es]; norm_cast

/-- On finite activations and weights the kernel's result function is the reference's. -/
theorem GK_eq_GR (x : SX.Idx → EReal) (w : SW.Idx → EReal) (b l : SV.Idx → EReal)
    (hx : ∀ i, ∃ r : ℝ, x i = (r : EReal)) (hw : ∀ i, ∃ r : ℝ, w i = (r : EReal)) : GK x w b l = GR x w b l := by
  funext i
  obtain ⟨p, q, o, rfl⟩ : ∃ (p : Fin 4) (q : Fin 2048) (o : Fin 4096), i = ix3 p q o := ⟨i 0, i 1, i 2, eq_ix3 i⟩
  show (∑ d : Fin 4096, actK (rowK x l p q) d * wK (wgrp w l o (grp d)) (off d)) + b (ix1 o)
    = (∑ d : Fin 4096, actR (rowR x l p q) d * wR (wgrp w l o (grp d)) (off d)) + b (ix1 o)
  refine congrArg (· + b (ix1 o)) (Finset.sum_congr rfl fun d _ => ?_)
  rw [rowK_eq_rowR, actK_eq_actR _ _ (rowR_real x l p q d (hx _)), wK_eq_wR _ _ (wgrp_real w l o _ _ (hw _))]

end Cert.Q

end
-- ==== Proof.Finite.lean ====
/-
  What the precondition says at the ideal instance: every entry of the activations and of the weights is a real
  number. The printed predicate is a conjunction of four "all entries have absolute value below +inf"; an extended
  real whose absolute value is below +inf is neither infinity.
-/
import proofs.«170529_j14078902796908_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- The f32 pattern of +inf denotes the top of the extended reals. -/
theorem ofBits_inf : Ideal.ofBits .f32 0x7F800000#32 = ⊤ := by
  simp [Ideal.ofBits, Ideal.ieee]

/-- An extended real whose absolute value compares below +inf is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

variable [Facts]

theorem finite_of_pre (x : FVec Ideal S4x2048x4096 .f32) (w : FVec Ideal S4096x4096 .f32) (b l : FVec Ideal S4096 .f32)
    (h : fn (F := Ideal) x w b l = fun _ => 1#1) :
    (∀ i, ∃ r : ℝ, x i = (r : EReal)) ∧ (∀ i, ∃ r : ℝ, w i = (r : EReal)) := by
  have h0 := congrFun h ValueIdx.ix0
  dsimp only [fn, fn_part1] at h0
  have h1 := (IntOp.andi_eq_one.mp h0).1
  have h2 := (IntOp.andi_eq_one.mp h1).1
  obtain ⟨hA, hB⟩ := IntOp.andi_eq_one.mp h2
  exact ⟨fun i => real_of_abs_lt (x i) (Host.reduce_andi_all _ _ _ _ ValueIdx.ix0 hA i),
    fun i => real_of_abs_lt (w i) (Host.reduce_andi_all _ _ _ _ ValueIdx.ix0 hB i)⟩

end Cert.Finite

end
-- ==== Proof.lean ====
/-
  The claim. Three programs: the kernel as printed (read at the word level), the same text read over the extended
  reals, and the jnp reference over the extended reals.

  The kernel's @main is host glue (the exponential of the log-scales clipped to [1e-4, 1e4], reshapes) around three
  pallas_calls: a weight quantiser over a 4x4 grid of 1024x1024 blocks (4 bits with a zero point, per group of 128
  columns of w · s), an activation quantiser over 32 blocks of 256 rows (8 bits, symmetric, per row of x · (1 / s)), and
  a matmul over a 4x4x4 grid that accumulates the four 1024-column partial products of a 2048x1024 output tile in a
  scratch buffer carried across the innermost grid axis, adding the bias when it writes the tile out.

  Frames: the run is assembled from the three regions' proof data and body obligations (each region's arrays split
  out of the core's unscoped buffers and put back), for any float instance; the arguments are read back unchanged.
  Value: at the ideal instance the kernel's result is, index by index, the sum over the 4096 columns of (quantised
  activation) · (quantised weight) plus the bias, with the quantisers spelt with reciprocals; the reference's is the
  same with quotients and in the straight-through form t + (q - t). The two agree because the activations and the
  weights are finite (the precondition), the quantisation steps are non-zero, and a sum may be taken in blocks.
-/
import proofs.«170529_j14078902796908_2_alg».proof.Defs
import proofs.«170529_j14078902796908_2_alg».proof.Proof.Gen.Kernel
import proofs.«170529_j14078902796908_2_alg».proof.Proof.Gen.KernelIdeal
import proofs.«170529_j14078902796908_2_alg».proof.Proof.Gen.ReferenceIdeal
import proofs.«170529_j14078902796908_2_alg».proof.Proof.Gen.Pre_finite_inputs
import proofs.«170529_j14078902796908_2_alg».proof.Proof.FrameArgs
import proofs.«170529_j14078902796908_2_alg».proof.Proof.BFrameArgs
import proofs.«170529_j14078902796908_2_alg».proof.Proof.KResult
import proofs.«170529_j14078902796908_2_alg».proof.Proof.RefRunH
import proofs.«170529_j14078902796908_2_alg».proof.Proof.RefValue
import proofs.«170529_j14078902796908_2_alg».proof.Proof.Algebra
import proofs.«170529_j14078902796908_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- The program read over the extended reals is the printed program's own text: there is no rewrite to justify. -/
theorem preserves : Cert.preserves_Kernel_KernelIdeal := trivial

/-- Both programs end with the result at the kernel's function of the arguments: the kernel by its run and the
    value of its three regions, the reference by its run read back, the two functions equal on finite inputs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Q.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Fr.run_all (F := Ideal) m ρ)
    exact ⟨(h c _ (Cert.KernelIdeal.Fr.mem_uc Cert.KernelIdeal.main_v8 (by decide))).trans (Cert.KernelIdeal.KVal.result_eq m ρ c),
      (h c _ (Cert.KernelIdeal.Fr.mem_uc Cert.KernelIdeal.main_arg0 (by decide))).trans (Cert.KernelIdeal.Fr.W8_main_arg0 m ρ c),
      (h c _ (Cert.KernelIdeal.Fr.mem_uc Cert.KernelIdeal.main_arg1 (by decide))).trans (Cert.KernelIdeal.Fr.W8_main_arg1 m ρ c),
      (h c _ (Cert.KernelIdeal.Fr.mem_uc Cert.KernelIdeal.main_arg2 (by decide))).trans (Cert.KernelIdeal.Fr.W8_main_arg2 m ρ c),
      (h c _ (Cert.KernelIdeal.Fr.mem_uc Cert.KernelIdeal.main_arg3 (by decide))).trans (Cert.KernelIdeal.Fr.W8_main_arg3 m ρ c)⟩
  · refine (θ_run Cert.ReferenceIdeal.defs _ _).mono (fun _ h c => ⟨(h c).1.trans ?_, (h c).2⟩)
      (Cert.ReferenceIdeal.RunH.run (F := Ideal) m' ρ')
    obtain ⟨hx, hw⟩ := Cert.Finite.finite_of_pre _ _ _ _ (hpre c)
    rw [Cert.ReferenceIdeal.RefValue.ref_eq_GR, (hagree c).1, (hagree c).2.1, (hagree c).2.2.1, (hagree c).2.2.2]
    exact (Cert.Q.GK_eq_GR _ _ _ _ hx hw).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
